-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v77)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v77) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v83) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x256 : Shape := ⟨2, ![50000, 256]⟩
abbrev S2x1600000 : Shape := ⟨2, ![2, 1600000]⟩
abbrev S256x128 : Shape := ⟨2, ![256, 128]⟩
abbrev S128 : Shape := ⟨1, ![128]⟩
abbrev S128x128 : Shape := ⟨2, ![128, 128]⟩
abbrev S128x40 : Shape := ⟨2, ![128, 40]⟩
abbrev S40 : Shape := ⟨1, ![40]⟩
abbrev S_ : Shape := ⟨0, ![]⟩

class Facts : Prop where
  bcast_S_S50000x256 : S_.BroadcastsInDim S50000x256 (![] : Fin 0 → Fin S50000x256.rank)
  reducesTo_S50000x256_S_d0_1 : S50000x256.ReducesTo [0, 1] S_
  h_S_ : 0 < S_.numel
  bcast_S_S256x128 : S_.BroadcastsInDim S256x128 (![] : Fin 0 → Fin S256x128.rank)
  reducesTo_S256x128_S_d0_1 : S256x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S128x40 : S_.BroadcastsInDim S128x40 (![] : Fin 0 → Fin S128x40.rank)
  reducesTo_S128x40_S_d0_1 : S128x40.ReducesTo [0, 1] S_
  bcast_S_S40 : S_.BroadcastsInDim S40 (![] : Fin 0 → Fin S40.rank)
  reducesTo_S40_S_d0 : S40.ReducesTo [0] S_

variable [Facts]

def fn_part1 {F : FTy → Type} [FloatOps F] (main_arg5 : FVec F S128 .f32) (main_arg6 : FVec F S128x40 .f32) (main_arg7 : FVec F S40 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg5
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x40 .f32 := Host.absf main_arg6
  let main_cst_8 : FVec F S_ .f32 := constant S_ .f32 0x7F800000#32
  let main_v25 : FVec F S128x40 .f32 := broadcastInDim S128x40 ![] bcast_S_S128x40 main_cst_8
  let main_v26 : IVec S128x40 1 := cmpf .olt main_v24 main_v25
  let main_c_9 : IVec S_ 1 := constantI S_ 1 1#1
  let main_v27 : IVec S_ 1 := (fun x v => Host.reduce IntOp.andi x v reducesTo_S128x40_S_d0_1 h_S_) main_v26 main_c_9
  let main_v28 : IVec S_ 1 := andi main_v23 main_v27
  let main_v29 : FVec F S40 .f32 := Host.absf main_arg7
  let main_cst_10 : FVec F S_ .f32 := constant S_ .f32 0x7F800000#32
  let main_v30 : FVec F S40 .f32 := broadcastInDim S40 ![] bcast_S_S40 main_cst_10
  let main_v31 : IVec S40 1 := cmpf .olt main_v29 main_v30
  let main_c_11 : IVec S_ 1 := constantI S_ 1 1#1
  let main_v32 : IVec S_ 1 := (fun x v => Host.reduce IntOp.andi x v reducesTo_S40_S_d0 h_S_) main_v31 main_c_11
  let main_v33 : IVec S_ 1 := andi main_v28 main_v32
  main_v33

def fn {F : FTy → Type} [FloatOps F] (main_arg0 : FVec F S50000x256 .f32) (main_arg1 : IVec S2x1600000 32) (main_arg2 : FVec F S256x128 .f32) (main_arg3 : FVec F S128 .f32) (main_arg4 : FVec F S128x128 .f32) (main_arg5 : FVec F S128 .f32) (main_arg6 : FVec F S128x40 .f32) (main_arg7 : FVec F S40 .f32) : IVec S_ 1 :=
  let main_v0 : FVec F S50000x256 .f32 := Host.absf main_arg0
  let main_cst : FVec F S_ .f32 := constant S_ .f32 0x7F800000#32
  let main_v1 : FVec F S50000x256 .f32 := broadcastInDim S50000x256 ![] bcast_S_S50000x256 main_cst
  let main_v2 : IVec S50000x256 1 := cmpf .olt main_v0 main_v1
  let main_c : IVec S_ 1 := constantI S_ 1 1#1
  let main_v3 : IVec S_ 1 := (fun x v => Host.reduce IntOp.andi x v reducesTo_S50000x256_S_d0_1 h_S_) main_v2 main_c
  let main_v4 : FVec F S256x128 .f32 := Host.absf main_arg2
  let main_cst_0 : FVec F S_ .f32 := constant S_ .f32 0x7F800000#32
  let main_v5 : FVec F S256x128 .f32 := broadcastInDim S256x128 ![] bcast_S_S256x128 main_cst_0
  let main_v6 : IVec S256x128 1 := cmpf .olt main_v4 main_v5
  let main_c_1 : IVec S_ 1 := constantI S_ 1 1#1
  let main_v7 : IVec S_ 1 := (fun x v => Host.reduce IntOp.andi x v reducesTo_S256x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_arg6 main_arg7 main_v13 main_v16
-- ==== Kernel.lean ====
abbrev S50000x256 : Shape := ⟨2, ![50000, 256]⟩
abbrev S2x1600000 : Shape := ⟨2, ![2, 1600000]⟩
abbrev S256x128 : Shape := ⟨2, ![256, 128]⟩
abbrev S128 : Shape := ⟨1, ![128]⟩
abbrev S128x128 : Shape := ⟨2, ![128, 128]⟩
abbrev S128x40 : Shape := ⟨2, ![128, 40]⟩
abbrev S40 : Shape := ⟨1, ![40]⟩
abbrev S50000 : Shape := ⟨1, ![50000]⟩
abbrev S1x1600000 : Shape := ⟨2, ![1, 1600000]⟩
abbrev S1600000 : Shape := ⟨1, ![1600000]⟩
abbrev S1650000 : Shape := ⟨1, ![1650000]⟩
abbrev S_ : Shape := ⟨0, ![]⟩
abbrev S1650000x1 : Shape := ⟨2, ![1650000, 1]⟩
abbrev S50000x128 : Shape := ⟨2, ![50000, 128]⟩
abbrev S5000x256 : Shape := ⟨2, ![5000, 256]⟩
abbrev S5000x128 : Shape := ⟨2, ![5000, 128]⟩
abbrev S1650000x128 : Shape := ⟨2, ![1650000, 128]⟩
abbrev S1x128 : Shape := ⟨2, ![1, 128]⟩
abbrev S50000x40 : Shape := ⟨2, ![50000, 40]⟩
abbrev S5000x40 : Shape := ⟨2, ![5000, 40]⟩
abbrev S1650000x40 : Shape := ⟨2, ![1650000, 40]⟩
abbrev S1x40 : Shape := ⟨2, ![1, 40]⟩
abbrev S5000 : Shape := ⟨1, ![5000]⟩
abbrev S5000x1 : Shape := ⟨2, ![5000, 1]⟩

abbrev nBuf : Space → Nat
  | .hbm => 105
  | .vmem => 30
  | .smem => 0
  | _ => 0

abbrev bufTy : (tb : Table) → Fin (tcTables nBuf tb) → BufTy
  | .hbm, ⟨0, _⟩ => ⟨S50000x256, .f32⟩
  | .hbm, ⟨1, _⟩ => ⟨S2x1600000, .i32⟩
  | .hbm, ⟨2, _⟩ => ⟨S256x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128x40, .f32⟩
  | .hbm, ⟨7, _⟩ => ⟨S40, .f32⟩
  | .hbm, ⟨8, _⟩ => ⟨S50000, .i32⟩
  | .hbm, ⟨9, _⟩ => ⟨S1x1600000, .i32⟩
  | .hbm, ⟨10, _⟩ => ⟨S1600000, .i32⟩
  | .hbm, ⟨11, _⟩ => ⟨S1650000, .i32⟩
  | .hbm, ⟨12, _⟩ => ⟨S1x1600000, .i32⟩
  | .hbm, ⟨13, _⟩ => ⟨S1600000, .i32⟩
  | .hbm, ⟨14, _⟩ => ⟨S1650000, .i32⟩
  | .hbm, ⟨15, _⟩ => ⟨S_, .f32⟩
  | .hbm, ⟨16, _⟩ => ⟨S1650000, .f32⟩
  | .hbm, ⟨17, _⟩ => ⟨S_, .f32⟩
  | .hbm, ⟨18, _⟩ => ⟨S50000, .f32⟩
  | .hbm, ⟨19, _⟩ => ⟨S1650000x1, .i32⟩
  | .hbm, ⟨20, _⟩ => ⟨S50000, .f32⟩
  | .hbm, ⟨21, _⟩ => ⟨S_, .f32⟩
  | .hbm, ⟨22, _⟩ => ⟨S50000, .f32⟩
  | .hbm, ⟨23, _⟩ => ⟨S50000, .i1⟩
  | .hbm, ⟨24, _⟩ => ⟨S50000, .f32⟩
  | .hbm, ⟨25, _⟩ => ⟨S_, .f32⟩
  | .hbm, ⟨26, _⟩ => ⟨S_, .f32⟩
  | .hbm, ⟨27, _⟩ => ⟨S50000, .f32⟩
  | .hbm, ⟨28, _⟩ => ⟨S50000, .f32⟩
  | .hbm, ⟨29, _⟩ => ⟨S_, .i32⟩
  | .hbm, ⟨30, _⟩ => ⟨S1650000, .i32⟩
  | .hbm, ⟨31, _⟩ => ⟨S1650000, .i1⟩
  | .hbm, ⟨32, _⟩ => ⟨S_, .i32⟩
  | .hbm, ⟨33, _⟩ => ⟨S1650000, .i32⟩
  | .hbm, ⟨34, _⟩ => ⟨S1650000, .i32⟩
  | .hbm, ⟨35, _⟩ => ⟨S1650000, .i32⟩
  | .hbm, ⟨36, _⟩ => ⟨S1650000x1, .i32⟩
  | .hbm, ⟨37, _⟩ => ⟨S1650000, .f32⟩
  | .hbm, ⟨38, _⟩ => ⟨S_, .i32⟩
  | .hbm, ⟨39, _⟩ => ⟨S1650000, .i32⟩
  | .hbm, ⟨40, _⟩ => ⟨S1650000, .i1⟩
  | .hbm, ⟨41, _⟩ => ⟨S_, .i32⟩
  | .hbm, ⟨42, _⟩ => ⟨S1650000, .i32⟩
  | .hbm, ⟨43, _⟩ => ⟨S1650000, .i32⟩
  | .hbm, ⟨44, _⟩ => ⟨S1650000, .i32⟩
  | .hbm, ⟨45, _⟩ => ⟨S1650000x1, .i32⟩
  | .hbm, ⟨46, _⟩ => ⟨S1650000, .f32⟩
  | .hbm, ⟨47, _⟩ => ⟨S1650000, .f32⟩
  | .hbm, ⟨48, _⟩ => ⟨S50000x128, .f32⟩
  | .hbm, ⟨49, _⟩ => ⟨S_, .i32⟩
  | .hbm, ⟨50, _⟩ => ⟨S1650000, .i32⟩
  | .hbm, ⟨51, _⟩ => ⟨S1650000, .i1⟩
  | .hbm, ⟨52, _⟩ => ⟨S_, .i32⟩
  | .hbm, ⟨53, _⟩ => ⟨S1650000, .i32⟩
  | .hbm, ⟨54, _⟩ => ⟨S1650000, .i32⟩
  | .hbm, ⟨55, _⟩ => ⟨S1650000, .i32⟩
  | .hbm, ⟨56, _⟩ => ⟨S1650000x1, .i32⟩
  | .hbm, ⟨57, _⟩ => ⟨S1650000x128, .f32⟩
  | .hbm, ⟨58, _⟩ => ⟨S1650000x1, .f32⟩
  | .hbm, ⟨59, _⟩ => ⟨S1650000x128, .f32⟩
  | .hbm, ⟨60, _⟩ => ⟨S1650000x128, .f32⟩
  | .hbm, ⟨61, _⟩ => ⟨S_, .f32⟩
  | .hbm, ⟨62, _⟩ => ⟨S50000x128, .f32⟩
  | .hbm, ⟨63, _⟩ => ⟨S1650000x1, .i32⟩
  | .hbm, ⟨64, _⟩ => ⟨S50000x128, .f32⟩
  | .hbm, ⟨65, _⟩ => ⟨S1x128, .f32⟩
  | .hbm, ⟨66, _⟩ => ⟨S50000x128, .f32⟩
  | .hbm, ⟨67, _⟩ => ⟨S50000x128, .f32⟩
  | .hbm, ⟨68, _⟩ => ⟨S_, .i32⟩
  | .hbm, ⟨69, _⟩ => ⟨S1650000, .i32⟩
  | .hbm, ⟨70, _⟩ => ⟨S1650000, .i1⟩
  | .hbm, ⟨71, _⟩ => ⟨S_, .i32⟩
  | .hbm, ⟨72, _⟩ => ⟨S1650000, .i32⟩
  | .hbm, ⟨73, _⟩ => ⟨S1650000, .i32⟩
  | .hbm, ⟨74, _⟩ => ⟨S1650000, .i32⟩
  | .hbm, ⟨75, _⟩ => ⟨S1650000x1, .i32⟩
  | .hbm, ⟨76, _⟩ => ⟨S1650000x128, .f32⟩
  | .hbm, ⟨77, _⟩ => ⟨S1650000x1, .f32⟩
  | .hbm, ⟨78, _⟩ => ⟨S1650000x128, .f32⟩
  | .hbm, ⟨79, _⟩ => ⟨S1650000x128, .f32⟩
  | .hbm, ⟨80, _⟩ => ⟨S_, .f32⟩
  | .hbm, ⟨81, _⟩ => ⟨S50000x128, .f32⟩
  | .hbm, ⟨82, _⟩ => ⟨S1650000x1, .i32⟩
  | .hbm, ⟨83, _⟩ => ⟨S50000x128, .f32⟩
  | .hbm, ⟨84, _⟩ => ⟨S1x128, .f32⟩
  | .hbm, ⟨85, _⟩ => ⟨S50000x128, .f32⟩
  | .hbm, ⟨86, _⟩ => ⟨S50000x40, .f32⟩
  | .hbm, ⟨87, _⟩ => ⟨S_, .i32⟩
  | .hbm, ⟨88, _⟩ => ⟨S1650000, .i32⟩
  | .hbm, ⟨89, _⟩ => ⟨S1650000, .i1⟩
  | .hbm, ⟨90, _⟩ => ⟨S_, .i32⟩
  | .hbm, ⟨91, _⟩ => ⟨S1650000, .i32⟩
  | .hbm, ⟨92, _⟩ => ⟨S1650000, .i32⟩
  | .hbm, ⟨93, _⟩ => ⟨S1650000, .i32⟩
  | .hbm, ⟨94, _⟩ => ⟨S1650000x1, .i32⟩
  | .hbm, ⟨95, _⟩ => ⟨S1650000x40, .f32⟩
  | .hbm, ⟨96, _⟩ => ⟨S1650000x1, .f32⟩
  | .hbm, ⟨97, _⟩ => ⟨S1650000x40, .f32⟩
  | .hbm, ⟨98, _⟩ => ⟨S1650000x40, .f32⟩
  | .hbm, ⟨99, _⟩ => ⟨S_, .f32⟩
  | .hbm, ⟨100, _⟩ => ⟨S50000x40, .f32⟩
  | .hbm, ⟨101, _⟩ => ⟨S1650000x1, .i32⟩
  | .hbm, ⟨102, _⟩ => ⟨S50000x40, .f32⟩
  | .hbm, ⟨103, _⟩ => ⟨S1x40, .f32⟩
  | .hbm, ⟨104, _⟩ => ⟨S50000x40, .f32⟩
  | .local _ .vmem, ⟨0, _⟩ => ⟨S5000x256, .f32⟩
  | .local _ .vmem, ⟨1, _⟩ => ⟨S5000x256, .f32⟩
  | .local _ .vmem, ⟨2, _⟩ => ⟨S256x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S5000x128, .f32⟩
  | .local _ .vmem, ⟨7, _⟩ => ⟨S1x128, .f32⟩
  | .local _ .vmem, ⟨8, _⟩ => ⟨S5000x128, .f32⟩
  | .local _ .vmem, ⟨9, _⟩ => ⟨S5000x128, .f32⟩
  | .local _ .vmem, ⟨10, _⟩ => ⟨S5000x128, .f32⟩
  | .local _ .vmem, ⟨11, _⟩ => ⟨S5000x128, .f32⟩
  | .local _ .vmem, ⟨12, _⟩ => ⟨S128x128, .f32⟩
  | .local _ .vmem, ⟨13, _⟩ => ⟨S5000x128, .f32⟩
  | .local _ .vmem, ⟨14, _⟩ => ⟨S5000x128, .f32⟩
  | .local _ .vmem, ⟨15, _⟩ => ⟨S5000x128, .f32⟩
  | .local _ .vmem, ⟨16, _⟩ => ⟨S5000x128, .f32⟩
  | .local _ .vmem, ⟨17, _⟩ => ⟨S1x128, .f32⟩
  | .local _ .vmem, ⟨18, _⟩ => ⟨S5000x128, .f32⟩
  | .local _ .vmem, ⟨19, _⟩ => ⟨S5000x128, .f32⟩
  | .local _ .vmem, ⟨20, _⟩ => ⟨S5000x128, .f32⟩
  | .local _ .vmem, ⟨21, _⟩ => ⟨S5000x128, .f32⟩
  | .local _ .vmem, ⟨22, _⟩ => ⟨S128x40, .f32⟩
  | .local _ .vmem, ⟨23, _⟩ => ⟨S5000x40, .f32⟩
  | .local _ .vmem, ⟨24, _⟩ => ⟨S5000x40, .f32⟩
  | .local _ .vmem, ⟨25, _⟩ => ⟨S5000x40, .f32⟩
  | .local _ .vmem, ⟨26, _⟩ => ⟨S5000x40, .f32⟩
  | .local _ .vmem, ⟨27, _⟩ => ⟨S1x40, .f32⟩
  | .local _ .vmem, ⟨28, _⟩ => ⟨S5000x40, .f32⟩
  | .local _ .vmem, ⟨29, _⟩ => ⟨S5000x40, .f32⟩
  | _, _ => ⟨S50000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_2 : Ref sig .tc := ⟨.hbm, 25, rfl⟩
abbrev main_call0_v0 : Ref sig .tc := ⟨.hbm, 26, rfl⟩
abbrev main_call0_v1 : Ref sig .tc := ⟨.hbm, 27, rfl⟩
abbrev main_v14 : Ref sig .tc := ⟨.hbm, 28, rfl⟩
abbrev main_c : Ref sig .tc := ⟨.hbm, 29, rfl⟩
abbrev main_v15 : Ref sig .tc := ⟨.hbm, 30, rfl⟩
abbrev main_v16 : Ref sig .tc := ⟨.hbm, 31, rfl⟩
abbrev main_c_3 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_c_4 : Ref sig .tc := ⟨.hbm, 38, rfl⟩
abbrev main_v22 : Ref sig .tc := ⟨.hbm, 39, rfl⟩
abbrev main_v23 : Ref sig .tc := ⟨.hbm, 40, rfl⟩
abbrev main_c_5 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_c_6 : Ref sig .tc := ⟨.hbm, 49, rfl⟩
abbrev main_v31 : Ref sig .tc := ⟨.hbm, 50, rfl⟩
abbrev main_v32 : Ref sig .tc := ⟨.hbm, 51, rfl⟩
abbrev main_c_7 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_cst_8 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_c_9 : Ref sig .tc := ⟨.hbm, 68, rfl⟩
abbrev main_v47 : Ref sig .tc := ⟨.hbm, 69, rfl⟩
abbrev main_v48 : Ref sig .tc := ⟨.hbm, 70, rfl⟩
abbrev main_c_10 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_cst_11 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_c_12 : Ref sig .tc := ⟨.hbm, 87, rfl⟩
abbrev main_v63 : Ref sig .tc := ⟨.hbm, 88, rfl⟩
abbrev main_v64 : Ref sig .tc := ⟨.hbm, 89, rfl⟩
abbrev main_c_13 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_v70 : Ref sig .tc := ⟨.hbm, 96, rfl⟩
abbrev main_v71 : Ref sig .tc := ⟨.hbm, 97, rfl⟩
abbrev main_v72 : Ref sig .tc := ⟨.hbm, 98, rfl⟩
abbrev main_cst_14 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc4_stg0_0 : Ref sig .tc := ⟨.vmem, 20, rfl⟩
abbrev cc4_stg0_1 : Ref sig .tc := ⟨.vmem, 21, rfl⟩
abbrev cc4_stg1_0 : Ref sig .tc := ⟨.vmem, 22, rfl⟩
abbrev cc4_stg2_0 : Ref sig .tc := ⟨.vmem, 23, rfl⟩
abbrev cc4_stg2_1 : Ref sig .tc := ⟨.vmem, 24, rfl⟩
abbrev cc5_stg0_0 : Ref sig .tc := ⟨.vmem, 25, rfl⟩
abbrev cc5_stg0_1 : Ref sig .tc := ⟨.vmem, 26, rfl⟩
abbrev cc5_stg1_0 : Ref sig .tc := ⟨.vmem, 27, rfl⟩
abbrev cc5_stg2_0 : Ref sig .tc := ⟨.vmem, 28, rfl⟩
abbrev cc5_stg2_1 : Ref sig .tc := ⟨.vmem, 29, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19
abbrev cc4_sem0_0 : DmaSem sig := 20
abbrev cc4_sem0_1 : DmaSem sig := 21
abbrev cc4_sem1_0 : DmaSem sig := 22
abbrev cc4_sem2_0 : DmaSem sig := 23
abbrev cc4_sem2_1 : DmaSem sig := 24
abbrev cc5_sem0_0 : DmaSem sig := 25
abbrev cc5_sem0_1 : DmaSem sig := 26
abbrev cc5_sem1_0 : DmaSem sig := 27
abbrev cc5_sem2_0 : DmaSem sig := 28
abbrev cc5_sem2_1 : DmaSem sig := 29

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S5000x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S5000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S128x40 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S5000x40 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![10], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x40 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x40 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 2 → Memref sig .tc .vmem S5000x40 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

class Facts₀ : Prop where
  slices_S2x1600000_S1x1600000_0_0 : S2x1600000.Slices ![0, 0] S1x1600000
  shapeCasts_S1x1600000_S1600000 : S1x1600000.ShapeCasts S1600000
  concatenates_S1600000_S50000_S1650000_d0 : Shape.Concatenates [S1600000, S50000] S1650000 0
  slices_S2x1600000_S1x1600000_1_0 : S2x1600000.Slices ![1, 0] S1x1600000
  bcast_S_S1650000 : S_.BroadcastsInDim S1650000 (![] : Fin 0 → Fin S1650000.rank)
  bcast_S_S50000 : S_.BroadcastsInDim S50000 (![] : Fin 0 → Fin S50000.rank)
  bcast_S1650000_S1650000x1_0 : S1650000.BroadcastsInDim S1650000x1 (![0] : Fin 1 → Fin S1650000x1.rank)
  inb_S5000x256_S5000x256_0_0 : ∀ a, (![0, 0] : Fin 2 → Nat) a + S5000x256.size a ≤ S5000x256.size a
  h_S5000x256 : 0 < S5000x256.numel
  bitsLt_bf16_f32 : FTy.bits .bf16 < FTy.bits .f32
  inb_S256x128_S256x128_0_0 : ∀ a, (![0, 0] : Fin 2 → Nat) a + S256x128.size a ≤ S256x128.size a
  h_S256x128 : 0 < S256x128.numel
  inb_S5000x128_S5000x128_0_0 : ∀ a, (![0, 0] : Fin 2 → Nat) a + S5000x128.size a ≤ S5000x128.size a
  h_S5000x128 : 0 < S5000x128.numel
  bcast_S1650000x1_S1650000x128_0_1 : S1650000x1.BroadcastsInDim S1650000x128 (![0, 1] : Fin 2 → Fin S1650000x128.rank)
  bcast_S_S50000x128 : S_.BroadcastsInDim S50000x128 (![] : Fin 0 → Fin S50000x128.rank)
  shapeCasts_S128_S1x128 : S128.ShapeCasts S1x128
  shapeCasts_S5000x128_S5000x128 : S5000x128.ShapeCasts S5000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  inb_S128x128_S128x128_0_0 : ∀ a, (![0, 0] : Fin 2 → Nat) a + S128x128.size a ≤ S128x128.size a
  h_S128x128 : 0 < S128x128.numel
  inb_S128x40_S128x40_0_0 : ∀ a, (![0, 0] : Fin 2 → Nat) a + S128x40.size a ≤ S128x40.size a
  h_S128x40 : 0 < S128x40.numel
  inb_S5000x40_S5000x40_0_0 : ∀ a, (![0, 0] : Fin 2 → Nat) a + S5000x40.size a ≤ S5000x40.size a
  h_S5000x40 : 0 < S5000x40.numel
  bcast_S1650000x1_S1650000x40_0_1 : S1650000x1.BroadcastsInDim S1650000x40 (![0, 1] : Fin 2 → Fin S1650000x40.rank)
  bcast_S_S50000x40 : S_.BroadcastsInDim S50000x40 (![] : Fin 0 → Fin S50000x40.rank)
  shapeCasts_S40_S1x40 : S40.ShapeCasts S1x40
  shapeCasts_S5000x40_S5000x40 : S5000x40.ShapeCasts S5000x40
  inb_S1x40_S1x40_0_0 : ∀ a, (![0, 0] : Fin 2 → Nat) a + S1x40.size a ≤ S1x40.size a
  h_S1x40 : 0 < S1x40.numel
  shapeCasts_S1x40_S1x40 : S1x40.ShapeCasts S1x40
  broadcasts_S1x40_S5000x40 : S1x40.Broadcasts S5000x40
  reduces_S5000x40_S5000 : S5000x40.Reduces [1] S5000
  shapeCasts_S5000_S5000x1 : S5000.ShapeCasts S5000x1
  broadcasts_S5000x1_S5000x40 : S5000x1.Broadcasts S5000x40
  scatter_S50000_S1650000x1_S1650000_n_0_0_1_wf : ScatterDims.WF S50000 S1650000x1 S1650000 [] [0] [0] 1
  gather_S50000_S1650000x1_S1650000_n_0_n_n_0_1_1_wf : GatherDims.WF S50000 S1650000x1 S1650000 [] [0] [] [0] [] 1 ![1]
  dot_S5000x256_S256x128_S5000x128_1_0_0_1_n_n_wf : DotDims.WF S5000x256 S256x128 S5000x128 [1] [0] [0] [1] [] []
  gather_S50000x128_S1650000x1_S1650000x128_1_0_n_n_0_1_1128_wf : GatherDims.WF S50000x128 S1650000x1 S1650000x128 [1] [0] [] [0] [] 1 ![1, 128]
  scatter_S50000x128_S1650000x1_S1650000x128_1_0_0_1_wf : ScatterDims.WF S50000x128 S1650000x1 S1650000x128 [1] [0] [0] 1
  dot_S5000x128_S128x128_S5000x128_1_0_0_1_n_n_wf : DotDims.WF S5000x128 S128x128 S5000x128 [1] [0] [0] [1] [] []
  dot_S5000x128_S128x40_S5000x40_1_0_0_1_n_n_wf : DotDims.WF S5000x128 S128x40 S5000x40 [1] [0] [0] [1] [] []
  gather_S50000x40_S1650000x1_S1650000x40_1_0_n_n_0_1_140_wf : GatherDims.WF S50000x40 S1650000x1 S1650000x40 [1] [0] [] [0] [] 1 ![1, 40]
  scatter_S50000x40_S1650000x1_S1650000x40_1_0_0_1_wf : ScatterDims.WF S50000x40 S1650000x1 S1650000x40 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x256.size a ≤ S50000x256.size a
  hwx0_0 : ∀ i : grid0.Coords, EltTy.bits .f32 = 32 ∨ (Rect.block (s := S50000x256) S5000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x128.size a ≤ S256x128.size a
  hwx0_1 : ∀ i : grid0.Coords, EltTy.bits .f32 = 32 ∨ (Rect.block (s := S256x128) S256x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S50000x128.size a
  hwx0_2 : ∀ i : grid0.Coords, EltTy.bits .f32 = 32 ∨ (Rect.block (s := S50000x128) S5000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .f32 = 32 ∨ (Rect.block (s := S50000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x128.size a ≤ S50000x128.size a
  hwx1_2 : ∀ i : grid1.Coords, EltTy.bits .f32 = 32 ∨ (Rect.block (s := S50000x128) S5000x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S50000x128.size a
  hwx2_0 : ∀ i : grid2.Coords, EltTy.bits .f32 = 32 ∨ (Rect.block (s := S50000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x128.size a ≤ S50000x128.size a
  hwx2_2 : ∀ i : grid2.Coords, EltTy.bits .f32 = 32 ∨ (Rect.block (s := S50000x128) S5000x128.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S50000x128.size a
  hwx3_0 : ∀ i : grid3.Coords, EltTy.bits .f32 = 32 ∨ (Rect.block (s := S50000x128) S5000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x128.size a ≤ S1x128.size a
  hwx3_1 : ∀ i : grid3.Coords, EltTy.bits .f32 = 32 ∨ (Rect.block (s := S1x128) S1x128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x128.size a ≤ S50000x128.size a
  hwx3_2 : ∀ i : grid3.Coords, EltTy.bits .f32 = 32 ∨ (Rect.block (s := S50000x128) S5000x128.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x128.size a ≤ S50000x128.size a
  hwx4_0 : ∀ i : grid4.Coords, EltTy.bits .f32 = 32 ∨ (Rect.block (s := S50000x128) S5000x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S128x40.size a ≤ S128x40.size a
  hwx4_1 : ∀ i : grid4.Coords, EltTy.bits .f32 = 32 ∨ (Rect.block (s := S128x40) S128x40.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S5000x40.size a ≤ S50000x40.size a
  hwx4_2 : ∀ i : grid4.Coords, EltTy.bits .f32 = 32 ∨ (Rect.block (s := S50000x40) S5000x40.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x40.size a ≤ S50000x40.size a
  hwx5_0 : ∀ i : grid5.Coords, EltTy.bits .f32 = 32 ∨ (Rect.block (s := S50000x40) S5000x40.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x40.size a ≤ S1x40.size a
  hwx5_1 : ∀ i : grid5.Coords, EltTy.bits .f32 = 32 ∨ (Rect.block (s := S1x40) S1x40.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S5000x40.size a ≤ S50000x40.size a
  hwx5_2 : ∀ i : grid5.Coords, EltTy.bits .f32 = 32 ∨ (Rect.block (s := S50000x40) S5000x40.size (cc5_transform_2 i) (hinb5_2 i)).WholeWords (EltTy.packing .f32)

variable [Facts₀]

def scatter_S50000_S1650000x1_S1650000_n_0_0_1 : ScatterDims S50000 S1650000x1 S1650000 where
  updateWindowDims := []
  insertedWindowDims := [0]
  scatterDimsToOperandDims := [0]
  indexVectorDim := 1
  wf := scatter_S50000_S1650000x1_S1650000_n_0_0_1_wf
def gather_S50000_S1650000x1_S1650000_n_0_n_n_0_1_1 : GatherDims S50000 S1650000x1 S1650000 where
  offsetDims := []
  collapsedSliceDims := [0]
  operandBatchingDims := []
  startIndicesBatchingDims := []
  startIndexMap := [0]
  indexVectorDim := 1
  sliceSizes := ![1]
  wf := gather_S50000_S1650000x1_S1650000_n_0_n_n_0_1_1_wf
def dot_S5000x256_S256x128_S5000x128_1_0_0_1_n_n : DotDims S5000x256 S256x128 S5000x128 where
  lhsContracting := [1]
  rhsContracting := [0]
  lhsNonContracting := [0]
  rhsNonContracting := [1]
  lhsBatch := []
  rhsBatch := []
  wf := dot_S5000x256_S256x128_S5000x128_1_0_0_1_n_n_wf
def gather_S50000x128_S1650000x1_S1650000x128_1_0_n_n_0_1_1128 : GatherDims S50000x128 S1650000x1 S1650000x128 where
  offsetDims := [1]
  collapsedSliceDims := [0]
  operandBatchingDims := []
  startIndicesBatchingDims := []
  startIndexMap := [0]
  indexVectorDim := 1
  sliceSizes := ![1, 128]
  wf := gather_S50000x128_S1650000x1_S1650000x128_1_0_n_n_0_1_1128_wf
def scatter_S50000x128_S1650000x1_S1650000x128_1_0_0_1 : ScatterDims S50000x128 S1650000x1 S1650000x128 where
  updateWindowDims := [1]
  insertedWindowDims := [0]
  scatterDimsToOperandDims := [0]
  indexVectorDim := 1
  wf := scatter_S50000x128_S1650000x1_S1650000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def dot_S5000x128_S128x40_S5000x40_1_0_0_1_n_n : DotDims S5000x128 S128x40 S5000x40 where
  lhsContracting := [1]
  rhsContracting := [0]
  lhsNonContracting := [0]
  rhsNonContracting := [1]
  lhsBatch := []
  rhsBatch := []
  wf := dot_S5000x128_S128x40_S5000x40_1_0_0_1_n_n_wf
def gather_S50000x40_S1650000x1_S1650000x40_1_0_n_n_0_1_140 : GatherDims S50000x40 S1650000x1 S1650000x40 where
  offsetDims := [1]
  collapsedSliceDims := [0]
  operandBatchingDims := []
  startIndicesBatchingDims := []
  startIndexMap := [0]
  indexVectorDim := 1
  sliceSizes := ![1, 40]
  wf := gather_S50000x40_S1650000x1_S1650000x40_1_0_n_n_0_1_140_wf
def scatter_S50000x40_S1650000x1_S1650000x40_1_0_0_1 : ScatterDims S50000x40 S1650000x1 S1650000x40 where
  updateWindowDims := [1]
  insertedWindowDims := [0]
  scatterDimsToOperandDims := [0]
  indexVectorDim := 1
  wf := scatter_S50000x40_S1650000x1_S1650000x40_1_0_0_1_wf

abbrev win0_0 : Pipeline.Window sig grid0 :=
  Pipeline.Window.ofSpec (Memref.whole main_arg0) S5000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S256x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S5000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v43) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v44) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v45) S5000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v45) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg4) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v46) S5000x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v59) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v60) S1x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v61) S5000x128.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v61) S5000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg6) S128x40.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v62) S5000x40.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v75) S5000x40.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v76) S1x40.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v77) S5000x40.size cc5_transform_2 reads5_2 true false 2 stage5_2 sem5_2
    hrank5 hreads5_2 hinb5_2 nbuf5_2 (Memref.isWhole_whole _) hwx5_2 hstage5_2

abbrev win5 : Fin 3 → Pipeline.Window sig grid5 := fun | 0 => win5_0 | 1 => win5_1 | 2 => win5_2 | ⟨_ + 3, h⟩ => absurd h (Nat.not_lt.2 (Nat.le_add_left _ _))
abbrev spec5 : Fin 3 → Pipeline.WinSpec sig grid5.rank := fun w => (win5 w).toWinSpec

class Facts : Prop extends Facts₀ where

variable [Facts]
-- ==== ReferenceIdeal.lean ====
abbrev S50000x256 : Shape := ⟨2, ![50000, 256]⟩
abbrev S2x1600000 : Shape := ⟨2, ![2, 1600000]⟩
abbrev S256x128 : Shape := ⟨2, ![256, 128]⟩
abbrev S128 : Shape := ⟨1, ![128]⟩
abbrev S128x128 : Shape := ⟨2, ![128, 128]⟩
abbrev S128x40 : Shape := ⟨2, ![128, 40]⟩
abbrev S40 : Shape := ⟨1, ![40]⟩
abbrev S50000 : Shape := ⟨1, ![50000]⟩
abbrev S1x1600000 : Shape := ⟨2, ![1, 1600000]⟩
abbrev S1600000 : Shape := ⟨1, ![1600000]⟩
abbrev S1650000 : Shape := ⟨1, ![1650000]⟩
abbrev S_ : Shape := ⟨0, ![]⟩
abbrev S1650000x1 : Shape := ⟨2, ![1650000, 1]⟩
abbrev S50000x128 : Shape := ⟨2, ![50000, 128]⟩
abbrev S1650000x128 : Shape := ⟨2, ![1650000, 128]⟩
abbrev S1x128 : Shape := ⟨2, ![1, 128]⟩
abbrev S50000x40 : Shape := ⟨2, ![50000, 40]⟩
abbrev S1650000x40 : Shape := ⟨2, ![1650000, 40]⟩
abbrev S1x40 : Shape := ⟨2, ![1, 40]⟩
abbrev S50000x1 : Shape := ⟨2, ![50000, 1]⟩

abbrev nBuf : Space → Nat
  | .hbm => 129
  | .vmem => 0
  | .smem => 0
  | _ => 0

abbrev hbmTy0_0 (i : Nat) : BufTy := match i % 128 with
  | 0 => ⟨S50000x256, .f32⟩
  | 1 => ⟨S2x1600000, .i32⟩
  | 2 => ⟨S256x128, .f32⟩
  | 3 => ⟨S128, .f32⟩
  | 4 => ⟨S128x128, .f32⟩
  | 5 => ⟨S128, .f32⟩
  | 6 => ⟨S128x40, .f32⟩
  | 7 => ⟨S40, .f32⟩
  | 8 => ⟨S50000, .i32⟩
  | 9 => ⟨S1x1600000, .i32⟩
  | 10 => ⟨S1600000, .i32⟩
  | 11 => ⟨S1650000, .i32⟩
  | 12 => ⟨S1x1600000, .i32⟩
  | 13 => ⟨S1600000, .i32⟩
  | 14 => ⟨S1650000, .i32⟩
  | 15 => ⟨S_, .f32⟩
  | 16 => ⟨S1650000, .f32⟩
  | 17 => ⟨S_, .f32⟩
  | 18 => ⟨S50000, .f32⟩
  | 19 => ⟨S1650000x1, .i32⟩
  | 20 => ⟨S50000, .f32⟩
  | 21 => ⟨S_, .f32⟩
  | 22 => ⟨S50000, .f32⟩
  | 23 => ⟨S50000, .i1⟩
  | 24 => ⟨S50000, .f32⟩
  | 25 => ⟨S_, .f32⟩
  | 26 => ⟨S_, .f32⟩
  | 27 => ⟨S50000, .f32⟩
  | 28 => ⟨S50000, .f32⟩
  | 29 => ⟨S_, .i32⟩
  | 30 => ⟨S1650000, .i32⟩
  | 31 => ⟨S1650000, .i1⟩
  | 32 => ⟨S_, .i32⟩
  | 33 => ⟨S1650000, .i32⟩
  | 34 => ⟨S1650000, .i32⟩
  | 35 => ⟨S1650000, .i32⟩
  | 36 => ⟨S1650000x1, .i32⟩
  | 37 => ⟨S1650000, .f32⟩
  | 38 => ⟨S_, .i32⟩
  | 39 => ⟨S1650000, .i32⟩
  | 40 => ⟨S1650000, .i1⟩
  | 41 => ⟨S_, .i32⟩
  | 42 => ⟨S1650000, .i32⟩
  | 43 => ⟨S1650000, .i32⟩
  | 44 => ⟨S1650000, .i32⟩
  | 45 => ⟨S1650000x1, .i32⟩
  | 46 => ⟨S1650000, .f32⟩
  | 47 => ⟨S1650000, .f32⟩
  | 48 => ⟨S50000x128, .f32⟩
  | 49 => ⟨S_, .i32⟩
  | 50 => ⟨S1650000, .i32⟩
  | 51 => ⟨S1650000, .i1⟩
  | 52 => ⟨S_, .i32⟩
  | 53 => ⟨S1650000, .i32⟩
  | 54 => ⟨S1650000, .i32⟩
  | 55 => ⟨S1650000, .i32⟩
  | 56 => ⟨S1650000x1, .i32⟩
  | 57 => ⟨S1650000x128, .f32⟩
  | 58 => ⟨S1650000x1, .f32⟩
  | 59 => ⟨S1650000x128, .f32⟩
  | 60 => ⟨S1650000x128, .f32⟩
  | 61 => ⟨S_, .f32⟩
  | 62 => ⟨S50000x128, .f32⟩
  | 63 => ⟨S1650000x1, .i32⟩
  | 64 => ⟨S50000x128, .f32⟩
  | 65 => ⟨S1x128, .f32⟩
  | 66 => ⟨S50000x128, .f32⟩
  | 67 => ⟨S50000x128, .f32⟩
  | 68 => ⟨S_, .f32⟩
  | 69 => ⟨S50000x128, .f32⟩
  | 70 => ⟨S50000x128, .f32⟩
  | 71 => ⟨S50000x128, .f32⟩
  | 72 => ⟨S_, .i32⟩
  | 73 => ⟨S1650000, .i32⟩
  | 74 => ⟨S1650000, .i1⟩
  | 75 => ⟨S_, .i32⟩
  | 76 => ⟨S1650000, .i32⟩
  | 77 => ⟨S1650000, .i32⟩
  | 78 => ⟨S1650000, .i32⟩
  | 79 => ⟨S1650000x1, .i32⟩
  | 80 => ⟨S1650000x128, .f32⟩
  | 81 => ⟨S1650000x1, .f32⟩
  | 82 => ⟨S1650000x128, .f32⟩
  | 83 => ⟨S1650000x128, .f32⟩
  | 84 => ⟨S_, .f32⟩
  | 85 => ⟨S50000x128, .f32⟩
  | 86 => ⟨S1650000x1, .i32⟩
  | 87 => ⟨S50000x128, .f32⟩
  | 88 => ⟨S1x128, .f32⟩
  | 89 => ⟨S50000x128, .f32⟩
  | 90 => ⟨S50000x128, .f32⟩
  | 91 => ⟨S_, .f32⟩
  | 92 => ⟨S50000x128, .f32⟩
  | 93 => ⟨S50000x128, .f32⟩
  | 94 => ⟨S50000x40, .f32⟩
  | 95 => ⟨S_, .i32⟩
  | 96 => ⟨S1650000, .i32⟩
  | 97 => ⟨S1650000, .i1⟩
  | 98 => ⟨S_, .i32⟩
  | 99 => ⟨S1650000, .i32⟩
  | 100 => ⟨S1650000, .i32⟩
  | 101 => ⟨S1650000, .i32⟩
  | 102 => ⟨S1650000x1, .i32⟩
  | 103 => ⟨S1650000x40, .f32⟩
  | 104 => ⟨S1650000x1, .f32⟩
  | 105 => ⟨S1650000x40, .f32⟩
  | 106 => ⟨S1650000x40, .f32⟩
  | 107 => ⟨S_, .f32⟩
  | 108 => ⟨S50000x40, .f32⟩
  | 109 => ⟨S1650000x1, .i32⟩
  | 110 => ⟨S50000x40, .f32⟩
  | 111 => ⟨S1x40, .f32⟩
  | 112 => ⟨S50000x40, .f32⟩
  | 113 => ⟨S50000x40, .f32⟩
  | 114 => ⟨S_, .f32⟩
  | 115 => ⟨S50000, .f32⟩
  | 116 => ⟨S_, .f32⟩
  | 117 => ⟨S50000, .f32⟩
  | 118 => ⟨S50000, .f32⟩
  | 119 => ⟨S50000x1, .f32⟩
  | 120 => ⟨S50000x40, .f32⟩
  | 121 => ⟨S50000x40, .f32⟩
  | 122 => ⟨S50000x40, .f32⟩
  | 123 => ⟨S_, .f32⟩
  | 124 => ⟨S50000, .f32⟩
  | 125 => ⟨S50000x1, .f32⟩
  | 126 => ⟨S50000x1, .f32⟩
  | 127 => ⟨S50000x40, .f32⟩
  | _ => ⟨S50000x256, .f32⟩

abbrev hbmTy0_1 (i : Nat) : BufTy := match i % 128 with
  | 0 => ⟨S50000x40, .f32⟩
  | _ => ⟨S50000x256, .f32⟩

abbrev hbmTy (i : Nat) : BufTy := match i / 128 with
  | 0 => hbmTy0_0 i
  | 1 => hbmTy0_1 i
  | _ => ⟨S50000x256, .f32⟩

abbrev bufTy : (tb : Table) → Fin (tcTables nBuf tb) → BufTy
  | .hbm, ⟨i, _⟩ => hbmTy i
  | _, _ => ⟨S50000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_2 : Ref sig .tc := ⟨.hbm, 25, rfl⟩
abbrev main_call0_v0 : Ref sig .tc := ⟨.hbm, 26, rfl⟩
abbrev main_call0_v1 : Ref sig .tc := ⟨.hbm, 27, rfl⟩
abbrev main_v14 : Ref sig .tc := ⟨.hbm, 28, rfl⟩
abbrev main_c : Ref sig .tc := ⟨.hbm, 29, rfl⟩
abbrev main_v15 : Ref sig .tc := ⟨.hbm, 30, rfl⟩
abbrev main_v16 : Ref sig .tc := ⟨.hbm, 31, rfl⟩
abbrev main_c_3 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_c_4 : Ref sig .tc := ⟨.hbm, 38, rfl⟩
abbrev main_v22 : Ref sig .tc := ⟨.hbm, 39, rfl⟩
abbrev main_v23 : Ref sig .tc := ⟨.hbm, 40, rfl⟩
abbrev main_c_5 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_c_6 : Ref sig .tc := ⟨.hbm, 49, rfl⟩
abbrev main_v31 : Ref sig .tc := ⟨.hbm, 50, rfl⟩
abbrev main_v32 : Ref sig .tc := ⟨.hbm, 51, rfl⟩
abbrev main_c_7 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_cst_8 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_call1_cst : Ref sig .tc := ⟨.hbm, 68, rfl⟩
abbrev main_call1_v0 : Ref sig .tc := ⟨.hbm, 69, rfl⟩
abbrev main_v47 : Ref sig .tc := ⟨.hbm, 70, rfl⟩
abbrev main_v48 : Ref sig .tc := ⟨.hbm, 71, rfl⟩
abbrev main_c_9 : Ref sig .tc := ⟨.hbm, 72, rfl⟩
abbrev main_v49 : Ref sig .tc := ⟨.hbm, 73, rfl⟩
abbrev main_v50 : Ref sig .tc := ⟨.hbm, 74, rfl⟩
abbrev main_c_10 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_cst_11 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_call2_cst : Ref sig .tc := ⟨.hbm, 91, rfl⟩
abbrev main_call2_v0 : Ref sig .tc := ⟨.hbm, 92, rfl⟩
abbrev main_v65 : Ref sig .tc := ⟨.hbm, 93, rfl⟩
abbrev main_v66 : Ref sig .tc := ⟨.hbm, 94, rfl⟩
abbrev main_c_12 : Ref sig .tc := ⟨.hbm, 95, rfl⟩
abbrev main_v67 : Ref sig .tc := ⟨.hbm, 96, rfl⟩
abbrev main_v68 : Ref sig .tc := ⟨.hbm, 97, rfl⟩
abbrev main_c_13 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_cst_14 : Ref sig .tc := ⟨.hbm, 107, rfl⟩
abbrev main_v77 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev main_v81 : Ref sig .tc := ⟨.hbm, 112, rfl⟩
abbrev main_v82 : Ref sig .tc := ⟨.hbm, 113, rfl⟩
abbrev main_call3_cst : Ref sig .tc := ⟨.hbm, 114, rfl⟩
abbrev main_call3_v0 : Ref sig .tc := ⟨.hbm, 115, rfl⟩
abbrev main_call3_cst_0 : Ref sig .tc := ⟨.hbm, 116, rfl⟩
abbrev main_call3_v1 : Ref sig .tc := ⟨.hbm, 117, rfl⟩
abbrev main_call3_v2 : Ref sig .tc := ⟨.hbm, 118, rfl⟩
abbrev main_call3_v3 : Ref sig .tc := ⟨.hbm, 119, rfl⟩
abbrev main_call3_v4 : Ref sig .tc := ⟨.hbm, 120, rfl⟩
abbrev main_call3_v5 : Ref sig .tc := ⟨.hbm, 121, rfl⟩
abbrev main_call3_v6 : Ref sig .tc := ⟨.hbm, 122, rfl⟩
abbrev main_call3_cst_1 : Ref sig .tc := ⟨.hbm, 123, rfl⟩
abbrev main_call3_v7 : Ref sig .tc := ⟨.hbm, 124, rfl⟩
abbrev main_call3_v8 : Ref sig .tc := ⟨.hbm, 125, rfl⟩
abbrev main_call3_v9 : Ref sig .tc := ⟨.hbm, 126, rfl⟩
abbrev main_call3_v10 : Ref sig .tc := ⟨.hbm, 127, rfl⟩
abbrev main_v83 : Ref sig .tc := ⟨.hbm, 128, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S50000_S1650000_d0 : Shape.Concatenates [S1600000, S50000] S1650000 0
  slices_S2x1600000_S1x1600000_1_0 : S2x1600000.Slices ![1, 0] S1x1600000
  bcast_S_S1650000 : S_.BroadcastsInDim S1650000 (![] : Fin 0 → Fin S1650000.rank)
  bcast_S_S50000 : S_.BroadcastsInDim S50000 (![] : Fin 0 → Fin S50000.rank)
  bcast_S1650000_S1650000x1_0 : S1650000.BroadcastsInDim S1650000x1 (![0] : Fin 1 → Fin S1650000x1.rank)
  bcast_S1650000x1_S1650000x128_0_1 : S1650000x1.BroadcastsInDim S1650000x128 (![0, 1] : Fin 2 → Fin S1650000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S1650000x1_S1650000x40_0_1 : S1650000x1.BroadcastsInDim S1650000x40 (![0, 1] : Fin 2 → Fin S1650000x40.rank)
  bcast_S_S50000x40 : S_.BroadcastsInDim S50000x40 (![] : Fin 0 → Fin S50000x40.rank)
  bcast_S40_S1x40_1 : S40.BroadcastsInDim S1x40 (![1] : Fin 1 → Fin S1x40.rank)
  bcast_S1x40_S50000x40_0_1 : S1x40.BroadcastsInDim S50000x40 (![0, 1] : Fin 2 → Fin S50000x40.rank)
  reducesTo_S50000x40_S50000_d1 : S50000x40.ReducesTo [1] S50000
  h_S_ : 0 < S_.numel
  bcast_S50000_S50000x1_0 : S50000.BroadcastsInDim S50000x1 (![0] : Fin 1 → Fin S50000x1.rank)
  bcast_S50000x1_S50000x40_0_1 : S50000x1.BroadcastsInDim S50000x40 (![0, 1] : Fin 2 → Fin S50000x40.rank)
  scatter_S50000_S1650000x1_S1650000_n_0_0_1_wf : ScatterDims.WF S50000 S1650000x1 S1650000 [] [0] [0] 1
  gather_S50000_S1650000x1_S1650000_n_0_n_n_0_1_1_wf : GatherDims.WF S50000 S1650000x1 S1650000 [] [0] [] [0] [] 1 ![1]
  dot_S50000x256_S256x128_S50000x128_1_0_0_1_n_n_wf : DotDims.WF S50000x256 S256x128 S50000x128 [1] [0] [0] [1] [] []
  gather_S50000x128_S1650000x1_S1650000x128_1_0_n_n_0_1_1128_wf : GatherDims.WF S50000x128 S1650000x1 S1650000x128 [1] [0] [] [0] [] 1 ![1, 128]
  scatter_S50000x128_S1650000x1_S1650000x128_1_0_0_1_wf : ScatterDims.WF S50000x128 S1650000x1 S1650000x128 [1] [0] [0] 1
  dot_S50000x128_S128x128_S50000x128_1_0_0_1_n_n_wf : DotDims.WF S50000x128 S128x128 S50000x128 [1] [0] [0] [1] [] []
  dot_S50000x128_S128x40_S50000x40_1_0_0_1_n_n_wf : DotDims.WF S50000x128 S128x40 S50000x40 [1] [0] [0] [1] [] []
  gather_S50000x40_S1650000x1_S1650000x40_1_0_n_n_0_1_140_wf : GatherDims.WF S50000x40 S1650000x1 S1650000x40 [1] [0] [] [0] [] 1 ![1, 40]
  scatter_S50000x40_S1650000x1_S1650000x40_1_0_0_1_wf : ScatterDims.WF S50000x40 S1650000x1 S1650000x40 [1] [0] [0] 1

variable [Facts₀]

def scatter_S50000_S1650000x1_S1650000_n_0_0_1 : ScatterDims S50000 S1650000x1 S1650000 where
  updateWindowDims := []
  insertedWindowDims := [0]
  scatterDimsToOperandDims := [0]
  indexVectorDim := 1
  wf := scatter_S50000_S1650000x1_S1650000_n_0_0_1_wf
def gather_S50000_S1650000x1_S1650000_n_0_n_n_0_1_1 : GatherDims S50000 S1650000x1 S1650000 where
  offsetDims := []
  collapsedSliceDims := [0]
  operandBatchingDims := []
  startIndicesBatchingDims := []
  startIndexMap := [0]
  indexVectorDim := 1
  sliceSizes := ![1]
  wf := gather_S50000_S1650000x1_S1650000_n_0_n_n_0_1_1_wf
def dot_S50000x256_S256x128_S50000x128_1_0_0_1_n_n : DotDims S50000x256 S256x128 S50000x128 where
  lhsContracting := [1]
  rhsContracting := [0]
  lhsNonContracting := [0]
  rhsNonContracting := [1]
  lhsBatch := []
  rhsBatch := []
  wf := dot_S50000x256_S256x128_S50000x128_1_0_0_1_n_n_wf
def gather_S50000x128_S1650000x1_S1650000x128_1_0_n_n_0_1_1128 : GatherDims S50000x128 S1650000x1 S1650000x128 where
  offsetDims := [1]
  collapsedSliceDims := [0]
  operandBatchingDims := []
  startIndicesBatchingDims := []
  startIndexMap := [0]
  indexVectorDim := 1
  sliceSizes := ![1, 128]
  wf := gather_S50000x128_S1650000x1_S1650000x128_1_0_n_n_0_1_1128_wf
def scatter_S50000x128_S1650000x1_S1650000x128_1_0_0_1 : ScatterDims S50000x128 S1650000x1 S1650000x128 where
  updateWindowDims := [1]
  insertedWindowDims := [0]
  scatterDimsToOperandDims := [0]
  indexVectorDim := 1
  wf := scatter_S50000x128_S1650000x1_S1650000x128_1_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def dot_S50000x128_S128x40_S50000x40_1_0_0_1_n_n : DotDims S50000x128 S128x40 S50000x40 where
  lhsContracting := [1]
  rhsContracting := [0]
  lhsNonContracting := [0]
  rhsNonContracting := [1]
  lhsBatch := []
  rhsBatch := []
  wf := dot_S50000x128_S128x40_S50000x40_1_0_0_1_n_n_wf
def gather_S50000x40_S1650000x1_S1650000x40_1_0_n_n_0_1_140 : GatherDims S50000x40 S1650000x1 S1650000x40 where
  offsetDims := [1]
  collapsedSliceDims := [0]
  operandBatchingDims := []
  startIndicesBatchingDims := []
  startIndexMap := [0]
  indexVectorDim := 1
  sliceSizes := ![1, 40]
  wf := gather_S50000x40_S1650000x1_S1650000x40_1_0_n_n_0_1_140_wf
def scatter_S50000x40_S1650000x1_S1650000x40_1_0_0_1 : ScatterDims S50000x40 S1650000x1 S1650000x40 where
  updateWindowDims := [1]
  insertedWindowDims := [0]
  scatterDimsToOperandDims := [0]
  indexVectorDim := 1
  wf := scatter_S50000x40_S1650000x1_S1650000x40_1_0_0_1_wf

class Facts : Prop extends Facts₀ where

variable [Facts]
-- ==== Proof.KernelRun.lean ====
/-
  The idealized kernel program, run from any memory with zero counters, with its result buffer named.

  The program is six launches among stretches of host operations. Its frame certificate follows the buffers'
  contents from one boundary to the next: a stretch of host operations replaces each buffer it writes by the
  operation's value, a launch replaces each of its output arrays by what its grid points write back, and
  everything else stays. Here the last boundary's contents are read at the result buffer as well as at the
  eight arguments, so that the run ends with the result at the last boundary's contents of it.
-/
import proofs.«106951_j22333829939712_1_alg».proof.Proof.Gen.KernelIdeal.Frame

set_option maxRecDepth 16384

noncomputable section

namespace Cert.KernelIdeal.Out

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates without a fault; the result buffer ends at the last
    boundary's contents of it, and the eight arguments end as launched. -/
theorem run : θ_run defs (onTc (τ := τ) (main (F := F))) ⟨m, fun _ => 0, ρ⟩ (fun r => ∀ c : Dev nD,
      r.2.mem ((c.tc : Thread nD τ).loc main_v77) = W12 m ρ c (Proc.devRef .tc main_v77)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W12 m ρ c b)
    (hfin := fun c s' => by
      iintro ⟨⟨Hh, -⟩, HSI⟩
      unfold StableHlo.held
      imodintro
      iapply (pointsTo_read_all (Pipeline.ucRefs τ sig) (fun b => (((c : Thread nD τ)).1, b)) (W12 m ρ c) s')
      isplitl [Hh] <;> iassumption)
    (hQ := fun s h c =>
      ⟨h c _ (mem_uc main_v77 (by decide)),
       (h c _ (mem_uc main_arg0 (by decide))).trans (W12_main_arg0 m ρ c),
       (h c _ (mem_uc main_arg1 (by decide))).trans (W12_main_arg1 m ρ c),
       (h c _ (mem_uc main_arg2 (by decide))).trans (W12_main_arg2 m ρ c),
       (h c _ (mem_uc main_arg3 (by decide))).trans (W12_main_arg3 m ρ c),
       (h c _ (mem_uc main_arg4 (by decide))).trans (W12_main_arg4 m ρ c),
       (h c _ (mem_uc main_arg5 (by decide))).trans (W12_main_arg5 m ρ c),
       (h c _ (mem_uc main_arg6 (by decide))).trans (W12_main_arg6 m ρ c),
       (h c _ (mem_uc main_arg7 (by decide))).trans (W12_main_arg7 m ρ c)⟩)

end Cert.KernelIdeal.Out

end
-- ==== Proof.Layer.lean ====
/-
  The three layer operations of the network, as whole-array functions on the extended reals.

  A layer multiplies the node features by a weight matrix, aggregates over the graph's edges (an operation both
  programs share and this file does not mention), adds a bias to every row and applies either the rectifier
  or, in the last layer, the logarithm of the soft maximum along each row. Each operation is stated once, index
  by index, over arrays of any extents; both programs are shown to compute these functions.
-/
import Idealize.ShloMosaic.PureOps.Ideal
import Idealize.ShloMosaic.Lib.ValueIdx

noncomputable section

open scoped BigOperators

namespace Cert.Layer

open Idealize.ShloMosaic Idealize.ShloMosaic.ValueIdx

/-- The product of an `A × K` array of rows by a `K × B` matrix: entry `(r, q)` is the sum over `k` of
    `x (r, k) · w (k, q)`. -/
def dense {A K B : ℕ} (x : (⟨2, ![A, K]⟩ : Shape).Idx → EReal) (w : (⟨2, ![K, B]⟩ : Shape).Idx → EReal) :
    (⟨2, ![A, B]⟩ : Shape).Idx → EReal :=
  fun j => ∑ k : Fin K, x (ix2 (j 0) k) * w (ix2 k (j 1))

/-- A bias added to every row, then the rectifier: entry `(r, q)` is the larger of `a (r, q) + b q` and the
    value of the zero word. -/
def biasRelu {A B : ℕ} (a : (⟨2, ![A, B]⟩ : Shape).Idx → EReal) (b : (⟨1, ![B]⟩ : Shape).Idx → EReal) :
    (⟨2, ![A, B]⟩ : Shape).Idx → EReal :=
  fun j => max (a j + b (ix1 (j 1))) (Ideal.ofBits .f32 0x00000000#32)

/-- The largest entry of a row, folded from the value of the word of minus infinity. -/
def rowMax {B : ℕ} (y : Fin B → EReal) : EReal :=
  (Finset.univ : Finset (Fin B)).fold max (Ideal.ofBits .f32 0xFF800000#32) y

/-- The logarithm of the soft maximum of one row `y`, at entry `q`: with `M` the row's largest entry,
    `(y q - M) - log (∑ k, exp (y k - M))`. -/
def logSoftmaxRow {B : ℕ} (y : Fin B → EReal) (q : Fin B) : EReal :=
  (y q - rowMax y) - Ideal.log (∑ k : Fin B, Ideal.exp (y k - rowMax y))

/-- A bias added to every row, then the logarithm of the soft maximum along the row: entry `(r, q)` is that of
    the row `k ↦ a (r, k) + b k` at `q`. -/
def biasLogSoftmax {A B : ℕ} (a : (⟨2, ![A, B]⟩ : Shape).Idx → EReal) (b : (⟨1, ![B]⟩ : Shape).Idx → EReal) :
    (⟨2, ![A, B]⟩ : Shape).Idx → EReal :=
  fun j => logSoftmaxRow (fun k => a (ix2 (j 0) k) + b (ix1 k)) (j 1)

end Cert.Layer

end
-- ==== Proof.RefLayers.lean ====
/-
  The reference's layers are the layer operations of Layer.lean.

  The reference writes each layer with whole-array host operations: a contraction of two matrices; a bias laid out
  as one row, repeated down the rows and added, then the larger of the sum and zero; and for the last layer the
  row's maximum, kept as a column and repeated along the row, subtracted, then the logarithm of the row's sum of
  exponentials treated the same way. Read at an index, each is the corresponding function of Layer.lean. Nothing
  here needs the entries to be finite: no sum is split and no factor moved.
-/
import proofs.«106951_j22333829939712_1_alg».proof.Proof.RefRead
import proofs.«106951_j22333829939712_1_alg».proof.Proof.Layer
import Idealize.ShloMosaic.Lib.ValueIdx
import Idealize.ShloMosaic.PureOps.Ideal.Laws

set_option maxRecDepth 16384

noncomputable section

open scoped BigOperators

namespace Cert.ReferenceIdeal.Layers

open Cert.ReferenceIdeal Cert.ReferenceIdeal.Gen Cert.ReferenceIdeal.ReadP Cert.Layer
open Idealize.ShloMosaic Idealize.ShloMosaic.TcCoe Idealize.ShloMosaic.ValueIdx Idealize.SL.Sem

/-! ## The three products -/

/-- The reference's product, entry by entry, is the plain sum over the contracted coordinate. -/
theorem product_1 (x0 : (⟨S50000x256, .f32⟩ : BufTy).Contents (Elt Ideal)) (x2 : (⟨S256x128, .f32⟩ : BufTy).Contents (Elt Ideal)) :
    dense x0 x2 = val_main_v30 (F := Ideal) x0 x2 := by
  funext i
  rw [val_main_v30_apply]
  show ∑ k : Fin 256, x0 (ix2 (i 0) k) * x2 (ix2 k (i 1)) = _
  refine Finset.sum_congr rfl fun k _ => ?_
  rw [(funext fun a => Fin.ext (by match a with | ⟨0, _⟩ => rfl | ⟨1, _⟩ => rfl) : (ix2 (i 0) k : S50000x256.Idx) = lidx_main_v30 i k),
    (funext fun a => Fin.ext (by match a with | ⟨0, _⟩ => rfl | ⟨1, _⟩ => rfl) : (ix2 k (i 1) : S256x128.Idx) = ridx_main_v30 i k)]

/-- The reference's product, entry by entry, is the plain sum over the contracted coordinate. -/
theorem product_2 (x0 : (⟨S50000x256, .f32⟩ : BufTy).Contents (Elt Ideal)) (x1 : (⟨S2x1600000, .i32⟩ : BufTy).Contents (Elt Ideal)) (x2 : (⟨S256x128, .f32⟩ : BufTy).Contents (Elt Ideal)) (x3 : (⟨S128, .f32⟩ : BufTy).Contents (Elt Ideal)) (x4 : (⟨S128x128, .f32⟩ : BufTy).Contents (Elt Ideal)) :
    dense (val_main_v47 (F := Ideal) x0 x1 x2 x3) x4 = val_main_v48 (F := Ideal) x0 x1 x2 x3 x4 := by
  funext i
  rw [val_main_v48_apply]
  show ∑ k : Fin 128, (val_main_v47 (F := Ideal) x0 x1 x2 x3) (ix2 (i 0) k) * x4 (ix2 k (i 1)) = _
  refine Finset.sum_congr rfl fun k _ => ?_
  rw [(funext fun a => Fin.ext (by match a with | ⟨0, _⟩ => rfl | ⟨1, _⟩ => rfl) : (ix2 (i 0) k : S50000x128.Idx) = lidx_main_v48 i k),
    (funext fun a => Fin.ext (by match a with | ⟨0, _⟩ => rfl | ⟨1, _⟩ => rfl) : (ix2 k (i 1) : S128x128.Idx) = ridx_main_v48 i k)]

/-- The reference's product, entry by entry, is the plain sum over the contracted coordinate. -/
theorem product_3 (x0 : (⟨S50000x256, .f32⟩ : BufTy).Contents (Elt Ideal)) (x1 : (⟨S2x1600000, .i32⟩ : BufTy).Contents (Elt Ideal)) (x2 : (⟨S256x128, .f32⟩ : BufTy).Contents (Elt Ideal)) (x3 : (⟨S128, .f32⟩ : BufTy).Contents (Elt Ideal)) (x4 : (⟨S128x128, .f32⟩ : BufTy).Contents (Elt Ideal)) (x5 : (⟨S128, .f32⟩ : BufTy).Contents (Elt Ideal)) (x6 : (⟨S128x40, .f32⟩ : BufTy).Contents (Elt Ideal)) :
    dense (val_main_v65 (F := Ideal) x0 x1 x2 x3 x4 x5) x6 = val_main_v66 (F := Ideal) x0 x1 x2 x3 x4 x5 x6 := by
  funext i
  rw [val_main_v66_apply]
  show ∑ k : Fin 128, (val_main_v65 (F := Ideal) x0 x1 x2 x3 x4 x5) (ix2 (i 0) k) * x6 (ix2 k (i 1)) = _
  refine Finset.sum_congr rfl fun k _ => ?_
  rw [(funext fun a => Fin.ext (by match a with | ⟨0, _⟩ => rfl | ⟨1, _⟩ => rfl) : (ix2 (i 0) k : S50000x128.Idx) = lidx_main_v66 i k),
    (funext fun a => Fin.ext (by match a with | ⟨0, _⟩ => rfl | ⟨1, _⟩ => rfl) : (ix2 k (i 1) : S128x40.Idx) = ridx_main_v66 i k)]

/-! ## The two rectified layers -/

/-- The bias as one row, repeated down the rows and added, then the larger of the sum and zero. -/
theorem rectified_1 (x0 : (⟨S50000x256, .f32⟩ : BufTy).Contents (Elt Ideal)) (x1 : (⟨S2x1600000, .i32⟩ : BufTy).Contents (Elt Ideal)) (x2 : (⟨S256x128, .f32⟩ : BufTy).Contents (Elt Ideal)) (x3 : (⟨S128, .f32⟩ : BufTy).Contents (Elt Ideal)) :
    biasRelu (val_main_v43 (F := Ideal) x0 x1 x2) x3 = val_main_v47 (F := Ideal) x0 x1 x2 x3 := by
  funext i
  rw [val_main_v47_apply, val_main_v46_apply, val_main_v45_apply, val_main_v44_apply, val_main_call1_v0_apply, val_main_call1_cst_apply]
  show max ((val_main_v43 (F := Ideal) x0 x1 x2) i + x3 (ix1 (i 1))) (Ideal.ofBits .f32 0x00000000#32) = _
  rw [(funext fun a => Fin.ext (by match a with | ⟨0, _⟩ => rfl) : (ix1 (i 1) : S128.Idx) = idx_main_v44 (idx_main_v45 i))]
  rfl

/-- The same for the second layer. -/
theorem rectified_2 (x0 : (⟨S50000x256, .f32⟩ : BufTy).Contents (Elt Ideal)) (x1 : (⟨S2x1600000, .i32⟩ : BufTy).Contents (Elt Ideal)) (x2 : (⟨S256x128, .f32⟩ : BufTy).Contents (Elt Ideal)) (x3 : (⟨S128, .f32⟩ : BufTy).Contents (Elt Ideal)) (x4 : (⟨S128x128, .f32⟩ : BufTy).Contents (Elt Ideal)) (x5 : (⟨S128, .f32⟩ : BufTy).Contents (Elt Ideal)) :
    biasRelu (val_main_v61 (F := Ideal) x0 x1 x2 x3 x4) x5 = val_main_v65 (F := Ideal) x0 x1 x2 x3 x4 x5 := by
  funext i
  rw [val_main_v65_apply, val_main_v64_apply, val_main_v63_apply, val_main_v62_apply, val_main_call2_v0_apply, val_main_call2_cst_apply]
  show max ((val_main_v61 (F := Ideal) x0 x1 x2 x3 x4) i + x5 (ix1 (i 1))) (Ideal.ofBits .f32 0x00000000#32) = _
  rw [(funext fun a => Fin.ext (by match a with | ⟨0, _⟩ => rfl) : (ix1 (i 1) : S128.Idx) = idx_main_v62 (idx_main_v63 i))]
  rfl

end Cert.ReferenceIdeal.Layers

end
-- ==== Proof.RefLastLayer.lean ====
/-
  The reference's last layer is the bias and the logarithm of the soft maximum of Layer.lean.

  The reference adds the bias (laid out as one row and repeated down the rows), takes each row's maximum by a fold
  of the larger-of-two from minus infinity, takes the larger of that and minus infinity once more (which changes
  nothing, minus infinity being the least extended real), keeps it as a column, repeats it along the row and
  subtracts it; then it sums the exponentials along each row from zero, takes the logarithm of the column of sums,
  repeats it along the row and subtracts it. Read at the entry in row `r` and column `q`, that is the function
  `logSoftmaxRow` of the row `k ↦ aggregate (r, k) + bias k`, at `q`.
-/
import proofs.«106951_j22333829939712_1_alg».proof.Proof.RefRead
import proofs.«106951_j22333829939712_1_alg».proof.Proof.Layer
import Idealize.ShloMosaic.Lib.ValueIdx
import Idealize.ShloMosaic.PureOps.Ideal.Laws

set_option maxRecDepth 16384

noncomputable section

open scoped BigOperators

namespace Cert.ReferenceIdeal.LastLayer

open Cert.ReferenceIdeal Cert.ReferenceIdeal.Gen Cert.ReferenceIdeal.ReadP Cert.Layer
open Idealize.ShloMosaic Idealize.ShloMosaic.TcCoe Idealize.ShloMosaic.ValueIdx Idealize.SL.Sem

-- the aggregate over the edges is never opened here
attribute [local irreducible] val_main_v79

/-- The word of minus infinity is the least extended real. -/
theorem neg_inf_word : Ideal.ofBits .f32 0xFF800000#32 = (⊥ : EReal) := by simp [Ideal.ofBits, Ideal.ieee]

/-- The entry that a reduction along the rows reads for row `r` and position `k`. -/
theorem lifted (h : S50000x40.Reduces [1] S50000) (r : Fin 50000) (k : Fin 40) : h.lift (ix1 r) k = ix2 r k :=
  funext fun a => Fin.ext (by match a with | ⟨0, _⟩ => rfl | ⟨1, _⟩ => rfl)

variable (x0 : (⟨S50000x256, .f32⟩ : BufTy).Contents (Elt Ideal)) (x1 : (⟨S2x1600000, .i32⟩ : BufTy).Contents (Elt Ideal)) (x2 : (⟨S256x128, .f32⟩ : BufTy).Contents (Elt Ideal)) (x3 : (⟨S128, .f32⟩ : BufTy).Contents (Elt Ideal)) (x4 : (⟨S128x128, .f32⟩ : BufTy).Contents (Elt Ideal)) (x5 : (⟨S128, .f32⟩ : BufTy).Contents (Elt Ideal)) (x6 : (⟨S128x40, .f32⟩ : BufTy).Contents (Elt Ideal)) (x7 : (⟨S40, .f32⟩ : BufTy).Contents (Elt Ideal))

/-- The biased scores: the aggregate plus the bias of the column. -/
theorem biased_scores (r : Fin 50000) (k : Fin 40) :
    val_main_v82 (F := Ideal) x0 x1 x2 x3 x4 x5 x6 x7 (ix2 r k) = val_main_v79 (F := Ideal) x0 x1 x2 x3 x4 x5 x6 (ix2 r k) + x7 (ix1 k) := by
  rw [val_main_v82_apply, val_main_v81_apply, val_main_v80_apply]
  have e : idx_main_v80 (idx_main_v81 (ix2 r k)) = (ix1 k : S40.Idx) :=
    funext fun a => Fin.ext (by match a with | ⟨0, _⟩ => rfl)
  rw [e]
  rfl

/-- Taking the larger of the least extended real and `X` gives `X`. -/
theorem larger_of_least (w X : EReal) (hw : w = ⊥) : FloatOps.maximumf (F := Ideal) (φ := .f32) w X = X := by
  show max w X = X
  rw [hw]; exact max_eq_right bot_le

/-- The row maximum: the fold of the larger-of-two from minus infinity along the row; taking the larger of it and
    minus infinity once more changes nothing. -/
theorem row_maximum (r : Fin 50000) :
    val_main_call3_v2 (F := Ideal) x0 x1 x2 x3 x4 x5 x6 x7 (ix1 r)
      = rowMax fun k => val_main_v79 (F := Ideal) x0 x1 x2 x3 x4 x5 x6 (ix2 r k) + x7 (ix1 k) := by
  rw [val_main_call3_v2_apply, val_main_call3_v1_apply, val_main_call3_cst_0_apply]
  unfold val_main_call3_v0
  have hred := Host.reduce_eq_fold_single (FloatOps.maximumf (F := Ideal) (φ := .f32)) (val_main_v82 (F := Ideal) x0 x1 x2 x3 x4 x5 x6 x7)
    (val_main_call3_cst (F := Ideal)) reducesTo_S50000x40_S50000_d1 (by decide) h_S_ (ix1 r)
  -- the fold starts from the word of minus infinity, spelt as on the other side before anything is compared
  rw [val_main_call3_cst_apply] at hred
  refine (congrArg (FloatOps.maximumf (F := Ideal) (φ := .f32) (FloatOps.ofBits .f32 0xFF800000#32)) hred).trans ?_
  rw [Ideal.ofBits_def]
  refine (larger_of_least _ _ neg_inf_word).trans ?_
  unfold rowMax
  refine congrArg (fun f : Fin 40 → EReal => Finset.fold max (Ideal.ofBits .f32 0xFF800000#32) f Finset.univ) (funext fun k => ?_)
  rw [Function.comp_apply, lifted _ r k]
  exact biased_scores x0 x1 x2 x3 x4 x5 x6 x7 r k

/-- The scores with the row maximum subtracted. -/
theorem shifted_scores (r : Fin 50000) (k : Fin 40) :
    val_main_call3_v5 (F := Ideal) x0 x1 x2 x3 x4 x5 x6 x7 (ix2 r k)
      = (val_main_v79 (F := Ideal) x0 x1 x2 x3 x4 x5 x6 (ix2 r k) + x7 (ix1 k))
        - rowMax fun k' => val_main_v79 (F := Ideal) x0 x1 x2 x3 x4 x5 x6 (ix2 r k') + x7 (ix1 k') := by
  rw [val_main_call3_v5_apply, val_main_call3_v4_apply, val_main_call3_v3_apply, biased_scores]
  have e : idx_main_call3_v3 (idx_main_call3_v4 (ix2 r k)) = (ix1 r : S50000.Idx) :=
    funext fun a => Fin.ext (by match a with | ⟨0, _⟩ => rfl)
  rw [e, row_maximum, Ideal.subf_def]

/-- The logarithm of the row's sum of exponentials, as the column entry of row `r`. -/
theorem log_sum (r : Fin 50000) (q : Fin 40) :
    val_main_call3_v10 (F := Ideal) x0 x1 x2 x3 x4 x5 x6 x7 (ix2 r q)
      = Ideal.log (∑ k : Fin 40, Ideal.exp ((val_main_v79 (F := Ideal) x0 x1 x2 x3 x4 x5 x6 (ix2 r k) + x7 (ix1 k))
          - rowMax fun k' => val_main_v79 (F := Ideal) x0 x1 x2 x3 x4 x5 x6 (ix2 r k') + x7 (ix1 k'))) := by
  rw [val_main_call3_v10_apply, val_main_call3_v9_apply, val_main_call3_v8_apply]
  have e : idx_main_call3_v8 (idx_main_call3_v10 (ix2 r q)) = (ix1 r : S50000.Idx) :=
    funext fun a => Fin.ext (by match a with | ⟨0, _⟩ => rfl)
  rw [e, val_main_call3_v7_apply, val_main_call3_cst_1_apply, Ideal.hostUnary_log_def, Ideal.ofBits_def, Ideal.ofBits_zero_f32, zero_add]
  refine congrArg Ideal.log (Finset.sum_congr rfl fun k _ => ?_)
  have ek : idx_main_call3_v7 (ix1 r) k = (ix2 r k : S50000x40.Idx) :=
    funext fun a => Fin.ext (by match a with | ⟨0, _⟩ => rfl | ⟨1, _⟩ => rfl)
  rw [ek, val_main_call3_v6_apply, shifted_scores, Ideal.hostUnary_exp_def]

/-- The reference's last layer is `biasLogSoftmax` of the aggregate and the bias. -/
theorem log_softmax_3 :
    biasLogSoftmax (val_main_v79 (F := Ideal) x0 x1 x2 x3 x4 x5 x6) x7 = val_main_v83 (F := Ideal) x0 x1 x2 x3 x4 x5 x6 x7 := by
  funext i
  obtain ⟨r, q, rfl⟩ : ∃ (r : Fin 50000) (q : Fin 40), i = ix2 r q := ⟨i 0, i 1, eq_ix2 i⟩
  rw [val_main_v83_apply, shifted_scores, log_sum, Ideal.subf_def]
  rfl

end Cert.ReferenceIdeal.LastLayer

end
-- ==== Proof.Carried.lean ====
/-
  Buffers that the program fills once and reads again much later.

  The graph's two index arrays and its edge weights are computed before the first launch and read again before the
  third and the fifth; the weight matrices and biases are arguments, read by the launch or the host operation that
  needs them. Between the boundary where such a buffer is filled and the boundary where it is read, no host
  operation writes it and no launch has it among its arrays, so its contents are the same at both.
-/
import proofs.«106951_j22333829939712_1_alg».proof.Proof.Gen.KernelIdeal.Frame
import Idealize.ShloMosaic.Lib.StableHlo.Run

set_option maxRecDepth 16384

noncomputable section

namespace Cert.KernelIdeal.Carried

open Cert.KernelIdeal Cert.KernelIdeal.Gen
open Idealize.ShloMosaic Idealize.ShloMosaic.TcCoe Idealize.SL.Sem

variable {F : FTy → Type} [FloatOps F]
variable (m : (ℓ : Loc nD τ sig) → Buf (Elt F) ℓ) (ρ : Dev nD → PrngReg)

/-- Decides that no operation of a stretch of host operations writes a given buffer: each operation writes its one
    result buffer, and that buffer is another one. -/
macro "not_written" : tactic =>
  `(tactic| (simp only [hostOps0, hostOps0_1, hostOps0_2, hostOps1, hostOps3, hostOps5, List.drop_succ_cons, List.drop_zero,
      List.take_succ_cons, List.take_zero, List.flatten_cons, List.flatten_nil,
      List.append_nil, List.cons_append, List.nil_append, List.Forall, StableHlo.nullary_writes, StableHlo.unary_writes,
      StableHlo.binary_writes, StableHlo.ternary_writes, StableHlo.quaternary_writes, StableHlo.reshape_writes,
      StableHlo.binaryIndexed_writes, Finset.mem_singleton]
             repeat' apply And.intro
             all_goals exact StableHlo.devRef_ne_of_ne (by decide)))

/-- A buffer that none of the host operations before the first launch writes holds, at the first launch, what it
    held when the program started. -/
theorem from_start (c : Dev nD) (b : Ref sig .tc)
    (ha : (hostOps0 : List (HloOp τ sig (Elt F))).Forall fun op => Proc.devRef .tc b ∉ op.writes)
    (hb : (hostOps0_1 : List (HloOp τ sig (Elt F))).Forall fun op => Proc.devRef .tc b ∉ op.writes)
    (hc : (hostOps0_2 : List (HloOp τ sig (Elt F))).Forall fun op => Proc.devRef .tc b ∉ op.writes) :
    W3 m ρ c (Proc.devRef .tc b) = m ((c : Thread nD τ).loc b) :=
  calc W3 m ρ c (Proc.devRef .tc b)
    _ = W2 m ρ c (Proc.devRef .tc b) := StableHlo.after_of_forall_not_mem _ _ (List.forall_iff_forall_mem.mp hc)
    _ = W1 m ρ c (Proc.devRef .tc b) := StableHlo.after_of_forall_not_mem _ _ (List.forall_iff_forall_mem.mp hb)
    _ = W0 m ρ c (Proc.devRef .tc b) := StableHlo.after_of_forall_not_mem _ _ (List.forall_iff_forall_mem.mp ha)
    _ = m ((c : Thread nD τ).loc b) := rfl

/-! ## From the first launch to a later boundary

    A launch leaves every buffer that is none of its arrays as it found it, and a stretch of host operations leaves
    every buffer that none of its operations writes. Each lemma below carries a buffer from the first launch's entry
    to one later boundary, under the conditions for the launches and stretches in between. -/

theorem to_4 (c : Dev nD) (b : Ref sig .tc) (r0 : ∀ w, Pipeline.arrRef spec0 w ≠ b) :
    W4 m ρ c (Proc.devRef .tc b) = W3 m ρ c (Proc.devRef .tc b) := W4_of_ne m ρ c b r0

theorem to_6 (c : Dev nD) (b : Ref sig .tc) (r0 : ∀ w, Pipeline.arrRef spec0 w ≠ b) (h1 : (hostOps1 : List (HloOp τ sig (Elt F))).Forall fun op => Proc.devRef .tc b ∉ op.writes) (r1 : ∀ w, Pipeline.arrRef spec1 w ≠ b) :
    W6 m ρ c (Proc.devRef .tc b) = W3 m ρ c (Proc.devRef .tc b) :=
  calc W6 m ρ c (Proc.devRef .tc b)
    _ = W5 m ρ c (Proc.devRef .tc b) := W6_of_ne m ρ c b r1
    _ = W4 m ρ c (Proc.devRef .tc b) := StableHlo.after_of_forall_not_mem _ _ (List.forall_iff_forall_mem.mp h1)
    _ = W3 m ρ c (Proc.devRef .tc b) := to_4 m ρ c b r0

theorem to_7 (c : Dev nD) (b : Ref sig .tc) (r0 : ∀ w, Pipeline.arrRef spec0 w ≠ b) (h1 : (hostOps1 : List (HloOp τ sig (Elt F))).Forall fun op => Proc.devRef .tc b ∉ op.writes) (r1 : ∀ w, Pipeline.arrRef spec1 w ≠ b) (r2 : ∀ w, Pipeline.arrRef spec2 w ≠ b) :
    W7 m ρ c (Proc.devRef .tc b) = W3 m ρ c (Proc.devRef .tc b) :=
  (W7_of_ne m ρ c b r2).trans (to_6 m ρ c b r0 h1 r1)

theorem to_9 (c : Dev nD) (b : Ref sig .tc) (r0 : ∀ w, Pipeline.arrRef spec0 w ≠ b) (h1 : (hostOps1 : List (HloOp τ sig (Elt F))).Forall fun op => Proc.devRef .tc b ∉ op.writes) (r1 : ∀ w, Pipeline.arrRef spec1 w ≠ b) (r2 : ∀ w, Pipeline.arrRef spec2 w ≠ b) (h3 : (hostOps3 : List (HloOp τ sig (Elt F))).Forall fun op => Proc.devRef .tc b ∉ op.writes) (r3 : ∀ w, Pipeline.arrRef spec3 w ≠ b) :
    W9 m ρ c (Proc.devRef .tc b) = W3 m ρ c (Proc.devRef .tc b) :=
  calc W9 m ρ c (Proc.devRef .tc b)
    _ = W8 m ρ c (Proc.devRef .tc b) := W9_of_ne m ρ c b r3
    _ = W7 m ρ c (Proc.devRef .tc b) := StableHlo.after_of_forall_not_mem _ _ (List.forall_iff_forall_mem.mp h3)
    _ = W3 m ρ c (Proc.devRef .tc b) := to_7 m ρ c b r0 h1 r1 r2

theorem to_10 (c : Dev nD) (b : Ref sig .tc) (r0 : ∀ w, Pipeline.arrRef spec0 w ≠ b) (h1 : (hostOps1 : List (HloOp τ sig (Elt F))).Forall fun op => Proc.devRef .tc b ∉ op.writes) (r1 : ∀ w, Pipeline.arrRef spec1 w ≠ b) (r2 : ∀ w, Pipeline.arrRef spec2 w ≠ b) (h3 : (hostOps3 : List (HloOp τ sig (Elt F))).Forall fun op => Proc.devRef .tc b ∉ op.writes) (r3 : ∀ w, Pipeline.arrRef spec3 w ≠ b) (r4 : ∀ w, Pipeline.arrRef spec4 w ≠ b) :
    W10 m ρ c (Proc.devRef .tc b) = W3 m ρ c (Proc.devRef .tc b) :=
  (W10_of_ne m ρ c b r4).trans (to_9 m ρ c b r0 h1 r1 r2 h3 r3)

/-! ## The graph's arrays: the sources, the destinations and the edge weights, read before launches 1, 3 and 5 -/

theorem sources_4 (c : Dev nD) : W4 m ρ c (Proc.devRef .tc main_v3) = W3 m ρ c (Proc.devRef .tc main_v3) := to_4 m ρ c main_v3 (by decide)
theorem sources_7 (c : Dev nD) : W7 m ρ c (Proc.devRef .tc main_v3) = W3 m ρ c (Proc.devRef .tc main_v3) := to_7 m ρ c main_v3 (by decide) (by not_written) (by decide) (by decide)
theorem sources_10 (c : Dev nD) : W10 m ρ c (Proc.devRef .tc main_v3) = W3 m ρ c (Proc.devRef .tc main_v3) := to_10 m ρ c main_v3 (by decide) (by not_written) (by decide) (by decide) (by not_written) (by decide) (by decide)
theorem destinations_4 (c : Dev nD) : W4 m ρ c (Proc.devRef .tc main_v6) = W3 m ρ c (Proc.devRef .tc main_v6) := to_4 m ρ c main_v6 (by decide)
theorem destinations_7 (c : Dev nD) : W7 m ρ c (Proc.devRef .tc main_v6) = W3 m ρ c (Proc.devRef .tc main_v6) := to_7 m ρ c main_v6 (by decide) (by not_written) (by decide) (by decide)
theorem destinations_10 (c : Dev nD) : W10 m ρ c (Proc.devRef .tc main_v6) = W3 m ρ c (Proc.devRef .tc main_v6) := to_10 m ρ c main_v6 (by decide) (by not_written) (by decide) (by decide) (by not_written) (by decide) (by decide)
theorem weights_4 (c : Dev nD) : W4 m ρ c (Proc.devRef .tc main_v29) = W3 m ρ c (Proc.devRef .tc main_v29) := to_4 m ρ c main_v29 (by decide)
theorem weights_7 (c : Dev nD) : W7 m ρ c (Proc.devRef .tc main_v29) = W3 m ρ c (Proc.devRef .tc main_v29) := to_7 m ρ c main_v29 (by decide) (by not_written) (by decide) (by decide)
theorem weights_10 (c : Dev nD) : W10 m ρ c (Proc.devRef .tc main_v29) = W3 m ρ c (Proc.devRef .tc main_v29) := to_10 m ρ c main_v29 (by decide) (by not_written) (by decide) (by decide) (by not_written) (by decide) (by decide)

/-! ## The arguments the launches and the later host operations read -/

theorem arg0_at_first (c : Dev nD) : W3 m ρ c (Proc.devRef .tc main_arg0) = m ((c : Thread nD τ).loc main_arg0) :=
  from_start m ρ c main_arg0 (by not_written) (by not_written) (by not_written)
theorem arg1_at_start (c : Dev nD) : W0 m ρ c (Proc.devRef .tc main_arg1) = m ((c : Thread nD τ).loc main_arg1) := rfl
theorem arg2_at_first (c : Dev nD) : W3 m ρ c (Proc.devRef .tc main_arg2) = m ((c : Thread nD τ).loc main_arg2) :=
  from_start m ρ c main_arg2 (by not_written) (by not_written) (by not_written)
theorem arg3_at_first (c : Dev nD) : W3 m ρ c (Proc.devRef .tc main_arg3) = m ((c : Thread nD τ).loc main_arg3) :=
  from_start m ρ c main_arg3 (by not_written) (by not_written) (by not_written)
theorem arg4_at_first (c : Dev nD) : W3 m ρ c (Proc.devRef .tc main_arg4) = m ((c : Thread nD τ).loc main_arg4) :=
  from_start m ρ c main_arg4 (by not_written) (by not_written) (by not_written)
theorem arg5_at_first (c : Dev nD) : W3 m ρ c (Proc.devRef .tc main_arg5) = m ((c : Thread nD τ).loc main_arg5) :=
  from_start m ρ c main_arg5 (by not_written) (by not_written) (by not_written)
theorem arg6_at_first (c : Dev nD) : W3 m ρ c (Proc.devRef .tc main_arg6) = m ((c : Thread nD τ).loc main_arg6) :=
  from_start m ρ c main_arg6 (by not_written) (by not_written) (by not_written)
theorem arg7_at_first (c : Dev nD) : W3 m ρ c (Proc.devRef .tc main_arg7) = m ((c : Thread nD τ).loc main_arg7) :=
  from_start m ρ c main_arg7 (by not_written) (by not_written) (by not_written)

/-- Each argument where it is read: the first bias before launch 1, the second weight matrix at launch 2, the second
    bias before launch 3, the third weight matrix at launch 4, the third bias before launch 5. -/
theorem arg3_at_4 (c : Dev nD) : W4 m ρ c (Proc.devRef .tc main_arg3) = m ((c : Thread nD τ).loc main_arg3) :=
  (to_4 m ρ c main_arg3 (by decide)).trans (arg3_at_first m ρ c)
theorem arg4_at_6 (c : Dev nD) : W6 m ρ c (Proc.devRef .tc main_arg4) = m ((c : Thread nD τ).loc main_arg4) :=
  (to_6 m ρ c main_arg4 (by decide) (by not_written) (by decide)).trans (arg4_at_first m ρ c)
theorem arg5_at_7 (c : Dev nD) : W7 m ρ c (Proc.devRef .tc main_arg5) = m ((c : Thread nD τ).loc main_arg5) :=
  (to_7 m ρ c main_arg5 (by decide) (by not_written) (by decide) (by decide)).trans (arg5_at_first m ρ c)
theorem arg6_at_9 (c : Dev nD) : W9 m ρ c (Proc.devRef .tc main_arg6) = m ((c : Thread nD τ).loc main_arg6) :=
  (to_9 m ρ c main_arg6 (by decide) (by not_written) (by decide) (by decide) (by not_written) (by decide)).trans (arg6_at_first m ρ c)
theorem arg7_at_10 (c : Dev nD) : W10 m ρ c (Proc.devRef .tc main_arg7) = m ((c : Thread nD τ).loc main_arg7) :=
  (to_10 m ρ c main_arg7 (by decide) (by not_written) (by decide) (by decide) (by not_written) (by decide) (by decide)).trans (arg7_at_first m ρ c)

end Cert.KernelIdeal.Carried

end
-- ==== Proof.LibAfterAppend.lean ====
/-
  A line of host operations run in two stretches: the buffers after the whole line are the buffers after the second
  stretch, started from the buffers after the first. General in the operations; nothing here mentions a program.
-/
import Idealize.ShloMosaic.Lib.StableHlo.Run

namespace Cert.Lib.AfterAppend

open Idealize.ShloMosaic Idealize.ShloMosaic.StableHlo

variable {τ : Topo} {sig : RefSig} {Val : EltTy → Type}

/-- The contents after `l₁ ++ l₂` are the contents after `l₂` from the contents after `l₁`. -/
theorem after_append (l₁ l₂ : List (HloOp τ sig Val)) (V : Valuation τ sig Val) :
    after (l₁ ++ l₂) V = after l₂ (after l₁ V) := by
  induction l₁ generalizing V with
  | nil => rfl
  | cons op l ih => exact ih (op.result V)

end Cert.Lib.AfterAppend
-- ==== Proof.Graph.lean ====
/-
  The graph's arrays as the first launch finds them.

  Before the first launch the program builds, from the edge list, the array of source nodes and the array of
  destination nodes (each row of the edge list followed by the numbers of all nodes, for the self loops), counts
  the edges arriving at every node, takes the inverse square root of the count where it is positive, and gives every
  edge the product of that value at its two ends. The reference does the same, operation by operation, so each of
  these arrays is the reference's term for it, of the same edge list. The operations are read off the three
  stretches of host operations in order; the two joins of an edge row with the node numbers are read by hand, since
  a join carries a proof about the list of its parts and its parts cannot be rewritten in place.
-/
import proofs.«106951_j22333829939712_1_alg».proof.Proof.Gen.KernelIdeal.Frame
import proofs.«106951_j22333829939712_1_alg».proof.Proof.RefRead
import proofs.«106951_j22333829939712_1_alg».proof.Proof.Carried
import proofs.«106951_j22333829939712_1_alg».proof.Proof.LibAfterAppend
import Idealize.ShloMosaic.Lib.StableHlo.Run

set_option maxRecDepth 16384

noncomputable section

namespace Cert.KernelIdeal.Graph

open Cert.KernelIdeal Cert.KernelIdeal.Gen Cert.ReferenceIdeal.ReadP
open Idealize.ShloMosaic Idealize.ShloMosaic.TcCoe Idealize.SL.Sem Idealize.ShloMosaic.StableHlo

variable {F : FTy → Type} [FloatOps F]
variable (m : (ℓ : Loc nD τ sig) → Buf (Elt F) ℓ) (ρ : Dev nD → PrngReg)

/-- Joining a list of 1600000 indices with a list of 50000 respects equality of the two parts. -/
theorem join_congr {a a' : S1600000.Idx → BitVec 32} {b b' : S50000.Idx → BitVec 32} (ha : a = a') (hb : b = b') :
    concatenate S1650000 0 [⟨S1600000, a⟩, ⟨S50000, b⟩] concatenates_S1600000_S50000_S1650000_d0
      = concatenate S1650000 0 [⟨S1600000, a'⟩, ⟨S50000, b'⟩] concatenates_S1600000_S50000_S1650000_d0 := by
  subst ha hb; rfl

/-! ## The first stretch, cut after its seventh operation: the two joins, then the count and what follows -/

theorem cut (V : Valuation τ sig (Elt F)) :
    after (hostOps0 (F := F)) V = after ((hostOps0 (F := F)).drop 7) (after ((hostOps0 (F := F)).take 7) V) := by
  rw [← Cert.Lib.AfterAppend.after_append, List.take_append_drop]

/-- The sources: row 0 of the edge list, then every node's number. -/
theorem sources_joined (c : Dev nD) :
    after ((hostOps0 (F := F)).take 7) (W0 m ρ c) (Proc.devRef .tc main_v3) = val_main_v3 (F := F) (m ((c : Thread nD τ).loc main_arg1)) := by
  simp only [hostOps0, List.take_succ_cons, List.take_zero]
  after_results
  unfold val_main_v3
  refine join_congr ?_ ?_
  · after_results; rfl
  · first | rfl | (after_results; rfl)

/-- The destinations: row 1 of the edge list, then every node's number. -/
theorem destinations_joined (c : Dev nD) :
    after ((hostOps0 (F := F)).take 7) (W0 m ρ c) (Proc.devRef .tc main_v6) = val_main_v6 (F := F) (m ((c : Thread nD τ).loc main_arg1)) := by
  simp only [hostOps0, List.take_succ_cons, List.take_zero]
  after_results
  unfold val_main_v6
  refine join_congr ?_ ?_
  · after_results; rfl
  · first | rfl | (after_results; rfl)

/-- The rest of the first stretch writes neither. -/
theorem rest_keeps (V : Valuation τ sig (Elt F)) (b : Ref sig .tc)
    (hb : ((hostOps0 (F := F)).drop 7).Forall fun op => Proc.devRef .tc b ∉ op.writes) :
    after ((hostOps0 (F := F)).drop 7) V (Proc.devRef .tc b) = V (Proc.devRef .tc b) :=
  after_of_forall_not_mem _ _ (List.forall_iff_forall_mem.mp hb)

theorem sources_1 (c : Dev nD) : W1 m ρ c (Proc.devRef .tc main_v3) = val_main_v3 (F := F) (m ((c : Thread nD τ).loc main_arg1)) := by
  show after hostOps0 (W0 m ρ c) (Proc.devRef .tc main_v3) = _
  rw [cut, rest_keeps _ main_v3 (by not_written), sources_joined]

theorem destinations_1 (c : Dev nD) : W1 m ρ c (Proc.devRef .tc main_v6) = val_main_v6 (F := F) (m ((c : Thread nD τ).loc main_arg1)) := by
  show after hostOps0 (W0 m ρ c) (Proc.devRef .tc main_v6) = _
  rw [cut, rest_keeps _ main_v6 (by not_written), destinations_joined]

/-- Where a node's count of arriving edges is positive. -/
theorem count_positive_1 (c : Dev nD) : W1 m ρ c (Proc.devRef .tc main_v12) = val_main_v12 (F := F) (m ((c : Thread nD τ).loc main_arg1)) := by
  show after hostOps0 (W0 m ρ c) (Proc.devRef .tc main_v12) = _
  rw [cut]
  have h6 := destinations_joined m ρ c
  generalize after ((hostOps0 (F := F)).take 7) (W0 m ρ c) = Wp at h6 ⊢
  simp only [hostOps0, List.drop_succ_cons, List.drop_zero]
  after_results_simp
  rw [h6]
  rfl

/-- The inverse square root of the count. -/
theorem count_rsqrt_1 (c : Dev nD) : W1 m ρ c (Proc.devRef .tc main_v13) = val_main_v13 (F := F) (m ((c : Thread nD τ).loc main_arg1)) := by
  show after hostOps0 (W0 m ρ c) (Proc.devRef .tc main_v13) = _
  rw [cut]
  have h6 := destinations_joined m ρ c
  generalize after ((hostOps0 (F := F)).take 7) (W0 m ρ c) = Wp at h6 ⊢
  simp only [hostOps0, List.drop_succ_cons, List.drop_zero]
  after_results_simp
  rw [h6]
  rfl

/-- The zero that replaces it where the count is not positive. -/
theorem zero_1 (c : Dev nD) : W1 m ρ c (Proc.devRef .tc main_cst_2) = val_main_cst_2 (F := F) := by
  show after hostOps0 (W0 m ρ c) (Proc.devRef .tc main_cst_2) = _
  rw [cut]
  generalize after ((hostOps0 (F := F)).take 7) (W0 m ρ c) = Wp
  simp only [hostOps0, List.drop_succ_cons, List.drop_zero]
  after_results_simp
  rfl

/-! ## The second stretch: the choice between the two -/

theorem node_scale_2 (c : Dev nD) : W2 m ρ c (Proc.devRef .tc main_v14) = val_main_v14 (F := F) (m ((c : Thread nD τ).loc main_arg1)) := by
  show after hostOps0_1 (W1 m ρ c) (Proc.devRef .tc main_v14) = _
  have h12 := count_positive_1 m ρ c
  have h13 := count_rsqrt_1 m ρ c
  have hz := zero_1 m ρ c
  generalize W1 m ρ c = V1 at h12 h13 hz ⊢
  after_results_simp
  rw [h12, h13, hz]
  rfl

theorem sources_2 (c : Dev nD) : W2 m ρ c (Proc.devRef .tc main_v3) = val_main_v3 (F := F) (m ((c : Thread nD τ).loc main_arg1)) :=
  (after_of_forall_not_mem (b := (Proc.devRef .tc main_v3)) _ _ (List.forall_iff_forall_mem.mp (by not_written))).trans (sources_1 m ρ c)

theorem destinations_2 (c : Dev nD) : W2 m ρ c (Proc.devRef .tc main_v6) = val_main_v6 (F := F) (m ((c : Thread nD τ).loc main_arg1)) :=
  (after_of_forall_not_mem (b := (Proc.devRef .tc main_v6)) _ _ (List.forall_iff_forall_mem.mp (by not_written))).trans (destinations_1 m ρ c)

/-! ## The third stretch: the value at an edge's two ends, multiplied -/

theorem weights_3 (c : Dev nD) : W3 m ρ c (Proc.devRef .tc main_v29) = val_main_v29 (F := F) (m ((c : Thread nD τ).loc main_arg1)) := by
  show after hostOps0_2 (W2 m ρ c) (Proc.devRef .tc main_v29) = _
  have h14 := node_scale_2 m ρ c
  have h3 := sources_2 m ρ c
  have h6 := destinations_2 m ρ c
  generalize W2 m ρ c = V2 at h14 h3 h6 ⊢
  after_results_simp
  rw [h14, h3, h6]
  rfl

theorem sources_3 (c : Dev nD) : W3 m ρ c (Proc.devRef .tc main_v3) = val_main_v3 (F := F) (m ((c : Thread nD τ).loc main_arg1)) :=
  (after_of_forall_not_mem (b := (Proc.devRef .tc main_v3)) _ _ (List.forall_iff_forall_mem.mp (by not_written))).trans (sources_2 m ρ c)

theorem destinations_3 (c : Dev nD) : W3 m ρ c (Proc.devRef .tc main_v6) = val_main_v6 (F := F) (m ((c : Thread nD τ).loc main_arg1)) :=
  (after_of_forall_not_mem (b := (Proc.devRef .tc main_v6)) _ _ (List.forall_iff_forall_mem.mp (by not_written))).trans (destinations_2 m ρ c)

end Cert.KernelIdeal.Graph

end
-- ==== Proof.LibPlainDot.lean ====
/-
  A general fact about contractions of two matrices at the ideal instance.

  A dot of an [A,K] operand by a [K,B] operand whose dimension numbers contract the left operand's axis 1 with the
  right operand's axis 0, keep the left operand's axis 0 as the result's rows and the right operand's axis 1 as its
  columns, and have no batch axis, reads its operands at (row, k) and (k, column) as k runs over the contracted axis.
  Its sum over the contraction's index set is therefore the plain sum over `k : Fin K` of
  `l(row, k) * r(k, column)`.  The four coordinate facts are hypotheses: for a concrete dimension record each is a
  one-line evaluation.  No finiteness is used: only the re-indexing of one finite sum on the extended reals.
-/
import Idealize.ShloMosaic.PureOps.Ideal.Laws
import Idealize.ShloMosaic.Lib.ValueIdx

noncomputable section

open scoped BigOperators

namespace Cert.LibPlainDot

open Idealize.ShloMosaic Idealize.ShloMosaic.ValueIdx

/-- The sum over a one-axis contraction's index set, re-indexed by the contracted coordinate. -/
theorem contr_sum {A K B : Nat} (d : DotDims ⟨2, ![A, K]⟩ ⟨2, ![K, B]⟩ ⟨2, ![A, B]⟩)
    (hr : d.contr.rank = 1) (hs : d.contr.size ⟨0, by omega⟩ = K)
    (hl0 : ∀ (j : (⟨2, ![A, B]⟩ : Shape).Idx) (q : d.contr.Idx), (d.lhsIdx j q 0).val = (j 0).val)
    (hl1 : ∀ (j : (⟨2, ![A, B]⟩ : Shape).Idx) (q : d.contr.Idx), (d.lhsIdx j q 1).val = (q ⟨0, by omega⟩).val)
    (hr0 : ∀ (j : (⟨2, ![A, B]⟩ : Shape).Idx) (q : d.contr.Idx), (d.rhsIdx j q 0).val = (q ⟨0, by omega⟩).val)
    (hr1 : ∀ (j : (⟨2, ![A, B]⟩ : Shape).Idx) (q : d.contr.Idx), (d.rhsIdx j q 1).val = (j 1).val)
    (l : (⟨2, ![A, K]⟩ : Shape).Idx → EReal) (r : (⟨2, ![K, B]⟩ : Shape).Idx → EReal) (j : (⟨2, ![A, B]⟩ : Shape).Idx) :
    ∑ k : d.contr.Idx, l (d.lhsIdx j k) * r (d.rhsIdx j k) = ∑ k : Fin K, l (ix2 (j 0) k) * r (ix2 k (j 1)) := by
  rw [← Equiv.sum_comp (contrEquiv1 d K hr hs).symm]
  refine Finset.sum_congr rfl fun k _ => ?_
  have hk := contrEquiv1_symm_val d K hr hs k
  have el : d.lhsIdx j ((contrEquiv1 d K hr hs).symm k) = ix2 (j 0) k := funext fun a => Fin.ext (by
    match a with
    | ⟨0, _⟩ => exact hl0 _ _
    | ⟨1, _⟩ => exact (hl1 _ _).trans hk)
  have er : d.rhsIdx j ((contrEquiv1 d K hr hs).symm k) = ix2 k (j 1) := funext fun a => Fin.ext (by
    match a with
    | ⟨0, _⟩ => exact (hr0 _ _).trans hk
    | ⟨1, _⟩ => exact hr1 _ _)
  rw [el, er]
  rfl

end Cert.LibPlainDot

end
-- ==== Proof.Dense0.lean ====
/-
  Launch 0 of the program: a block of 5000 rows of the node features times a weight matrix.

  The launch has ten grid points. Point `t` reads rows `5000·t … 5000·t + 4999` of the features and the whole
  weight matrix, and writes back the product of the two, which is rows `5000·t … 5000·t + 4999` of the product of
  ALL the rows by the matrix: an entry of a product of matrices depends on one row of the left factor only. The ten
  blocks of rows fill the output array, so it ends holding that whole product.
-/
import proofs.«106951_j22333829939712_1_alg».proof.Proof.Gen.KernelIdeal.Frame
import proofs.«106951_j22333829939712_1_alg».proof.Proof.Layer
import proofs.«106951_j22333829939712_1_alg».proof.Proof.LibPlainDot
import Idealize.ShloMosaic.Lib.Pipeline.Value
import Idealize.ShloMosaic.Lib.ValueIdx
import Idealize.ShloMosaic.PureOps.Ideal.Laws

set_option maxRecDepth 16384

noncomputable section

open scoped BigOperators

namespace Cert.KernelIdeal.Dense0

open Cert.KernelIdeal Cert.KernelIdeal.Gen Cert.Layer
open Idealize.ShloMosaic Idealize.ShloMosaic.TcCoe Idealize.ShloMosaic.ValueIdx Idealize.SL.Sem
open Idealize.ShloMosaic.Pipeline (Dat Cfg Window)

theorem zeros : (![0, 0] : Fin 2 → Nat) = fun _ => 0 := funext fun a => by fin_cases a <;> rfl

/-! ## The dimension record of the block product: rows × contraction, contraction × columns -/

theorem lhs_row (j : S5000x128.Idx) (q : dot_S5000x256_S256x128_S5000x128_1_0_0_1_n_n.contr.Idx) : (dot_S5000x256_S256x128_S5000x128_1_0_0_1_n_n.lhsIdx j q 0).val = (j 0).val := by
  unfold DotDims.lhsIdx
  rw [dif_neg (show ¬(0 : Fin S5000x256.rank) ∈ dot_S5000x256_S256x128_S5000x128_1_0_0_1_n_n.lhsBatch by decide), dif_pos (show (0 : Fin S5000x256.rank) ∈ dot_S5000x256_S256x128_S5000x128_1_0_0_1_n_n.lhsNonContracting by decide)]
  rfl
theorem lhs_contr (j : S5000x128.Idx) (q : dot_S5000x256_S256x128_S5000x128_1_0_0_1_n_n.contr.Idx) : (dot_S5000x256_S256x128_S5000x128_1_0_0_1_n_n.lhsIdx j q 1).val = (q ⟨0, by decide⟩).val :=
  dot_S5000x256_S256x128_S5000x128_1_0_0_1_n_n.lhsIdx_val_of_single rfl j q
theorem rhs_contr (j : S5000x128.Idx) (q : dot_S5000x256_S256x128_S5000x128_1_0_0_1_n_n.contr.Idx) : (dot_S5000x256_S256x128_S5000x128_1_0_0_1_n_n.rhsIdx j q 0).val = (q ⟨0, by decide⟩).val :=
  dot_S5000x256_S256x128_S5000x128_1_0_0_1_n_n.rhsIdx_val_of_single rfl j q
theorem rhs_col (j : S5000x128.Idx) (q : dot_S5000x256_S256x128_S5000x128_1_0_0_1_n_n.contr.Idx) : (dot_S5000x256_S256x128_S5000x128_1_0_0_1_n_n.rhsIdx j q 1).val = (j 1).val := by
  unfold DotDims.rhsIdx
  rw [dif_neg (show ¬(1 : Fin S256x128.rank) ∈ dot_S5000x256_S256x128_S5000x128_1_0_0_1_n_n.rhsBatch by decide), dif_pos (show (1 : Fin S256x128.rank) ∈ dot_S5000x256_S256x128_S5000x128_1_0_0_1_n_n.rhsNonContracting by decide)]
  rfl

/-! ## What a grid point computes, at an entry of its block -/

/-- Entry `(p, q)` of the block product is the sum over `k` of the rows' block at `(p, k)` times the matrix at
    `(k, q)`: narrowing the factors to sixteen bits changes nothing on the extended reals, and the accumulator starts
    at zero. -/
theorem block_product (x0 : Vec Ideal S5000x256 .f32) (x1 : Vec Ideal S256x128 .f32) (p : Fin 5000) (q : Fin 128) :
    k0_pay1 (F := Ideal) x0 x1 (ix2 p q) = ∑ k : Fin 256, x0 (ix2 p k) * x1 (ix2 k q) := by
  unfold k0_pay1
  simp only [matmul]
  rw [Ideal.matmul_constant_zero_apply]
  exact Cert.LibPlainDot.contr_sum dot_S5000x256_S256x128_S5000x128_1_0_0_1_n_n rfl rfl lhs_row lhs_contr rhs_contr rhs_col x0 x1 (ix2 p q)

/-! ## Where the blocks sit in the arrays -/

/-- Point `t` reads and writes the block of rows number `t` (the rows' window and the output's move together down
    axis 0 and never along axis 1); the matrix's window never moves. -/
theorem block_positions : ∀ t : Fin cfg0.N,
    win0_0.index t (0 : Fin 2) = win0_2.index t (0 : Fin 2) ∧ win0_0.index t (1 : Fin 2) = 0
    ∧ win0_1.index t (0 : Fin 2) = 0 ∧ win0_1.index t (1 : Fin 2) = 0
    ∧ win0_2.index t (1 : Fin 2) = 0 ∧ win0_2.index t (0 : Fin 2) ≤ 9 :=
  (by decide +kernel : ∀ t : Fin grid0.N, _)

/-- Every one of the ten blocks of rows is some point's. -/
theorem block_of_rows : ∀ b : Fin 10, ∃ t : Fin cfg0.N, win0_2.index t = ![b.val, 0] :=
  (by decide +kernel : ∀ b : Fin 10, ∃ t : Fin grid0.N, win0_2.index t = ![b.val, 0])

variable (V : (c : Dev nD) → (b : Ref sig .tc) → Buf (Elt Ideal) ((c : Thread nD τ).loc b))

/-- What point `t` writes back is block `t` of the whole product. -/
theorem written_back (c : Dev nD) (t : Fin cfg0.N) :
    (dat0 V c).flushed 2 t = ((cfg0.win 2).blk t).view.read (Elt Ideal) (dense (V c main_arg0) (V c main_arg2)) := by
  show (cfg0.win 2).cut (grid0.coords t) ((dat0 V c).after 2 t) = _
  rw [after0_2]
  unfold out0_2
  rw [View.canon_unit_zero zeros]
  simp only [View.ld_unit_zero (S := S5000x256) zeros, View.ld_unit_zero (S := S256x128) zeros]
  obtain ⟨e0, e1, e2, e3, e4, e5⟩ := block_positions t
  funext j
  obtain ⟨p, q, rfl⟩ : ∃ (p : Fin 5000) (q : Fin 128), j = ix2 p q := ⟨j 0, j 1, eq_ix2 j⟩
  refine (block_product (iblk0 V c 0 t) (iblk0 V c 1 t) p q).trans ?_
  show _ = dense (V c main_arg0) (V c main_arg2) (((cfg0.win 2).blk t).view.emb (ix2 p q))
  unfold dense
  refine Finset.sum_congr rfl fun k _ => ?_
  have h0 : iblk0 V c 0 t (ix2 p k) = V c main_arg0 (ix2 ((((cfg0.win 2).blk t).view.emb (ix2 p q)) 0) k) := by
    show V c main_arg0 (((cfg0.win 0).blk t).view.emb (ix2 p k)) = _
    refine congrArg (V c main_arg0) (funext fun a => Fin.ext ?_)
    match a with
    | ⟨0, _⟩ => show win0_0.index t (0 : Fin 2) * 5000 + 1 * p.val = win0_2.index t (0 : Fin 2) * 5000 + 1 * p.val; omega
    | ⟨1, _⟩ => show win0_0.index t (1 : Fin 2) * 256 + 1 * k.val = k.val; omega
  have h1 : iblk0 V c 1 t (ix2 k q) = V c main_arg2 (ix2 k ((((cfg0.win 2).blk t).view.emb (ix2 p q)) 1)) := by
    show V c main_arg2 (((cfg0.win 1).blk t).view.emb (ix2 k q)) = _
    refine congrArg (V c main_arg2) (funext fun a => Fin.ext ?_)
    match a with
    | ⟨0, _⟩ => show win0_1.index t (0 : Fin 2) * 256 + 1 * k.val = k.val; omega
    | ⟨1, _⟩ => show win0_1.index t (1 : Fin 2) * 128 + 1 * q.val = win0_2.index t (1 : Fin 2) * 128 + 1 * q.val; omega
  rw [h0, h1]

/-- An index of the output array is in point `t`'s block iff each coordinate is in the block's range on its axis. -/
theorem in_block (t : Fin cfg0.N) (i : S50000x128.Idx) :
    i ∈ ((cfg0.win 2).blk t).view.set ↔ ∀ a : Fin 2, win0_2.index t a * S5000x128.size a ≤ (i a).val ∧ (i a).val < win0_2.index t a * S5000x128.size a + S5000x128.size a := by
  show i ∈ ((View.whole main_v30).slice (win0_2.rect t)).set ↔ _
  rw [View.set_slice_whole, Rect.mem_set_unit]
  exact Iff.rfl

/-- Every index of the output array is in the block of the point that handles its row's block of 5000. -/
theorem blocks_fill (i : S50000x128.Idx) :
    ∃ t : Fin cfg0.N, (cfg0.win 2).flush t = true ∧ i ∈ ((cfg0.win 2).blk t).view.set := by
  have hi0 : (i 0).val < 50000 := (i 0).isLt
  have hi1 : (i 1).val < 128 := (i 1).isLt
  obtain ⟨t, ht⟩ := block_of_rows ⟨(i 0).val / 5000, by omega⟩
  have q0 : win0_2.index t (0 : Fin 2) = (i 0).val / 5000 := congrFun ht 0
  have q1 : win0_2.index t (1 : Fin 2) = 0 := congrFun ht 1
  refine ⟨t, flush0_2 t, ?_⟩
  rw [in_block]
  intro a
  match a with
  | ⟨0, _⟩ => show win0_2.index t (0 : Fin 2) * 5000 ≤ (i 0).val ∧ (i 0).val < win0_2.index t (0 : Fin 2) * 5000 + 5000; omega
  | ⟨1, _⟩ => show win0_2.index t (1 : Fin 2) * 128 ≤ (i 1).val ∧ (i 1).val < win0_2.index t (1 : Fin 2) * 128 + 128; omega

/-- After the launch the output array holds the whole product of the rows by the matrix, as the launch found them. -/
theorem output (c : Dev nD) : (dat0 V c).arrAt 2 cfg0.N = dense (V c main_arg0) (V c main_arg2) :=
  (dat0 V c).arrAt_eq_of_cover 2 _ (fun t _ => written_back V c t) (blocks_fill)

end Cert.KernelIdeal.Dense0

end
-- ==== Proof.Dense2.lean ====
/-
  Launch 2 of the program: a block of 5000 rows of the node features times a weight matrix.

  The launch has ten grid points. Point `t` reads rows `5000·t … 5000·t + 4999` of the features and the whole
  weight matrix, and writes back the product of the two, which is rows `5000·t … 5000·t + 4999` of the product of
  ALL the rows by the matrix: an entry of a product of matrices depends on one row of the left factor only. The ten
  blocks of rows fill the output array, so it ends holding that whole product.
-/
import proofs.«106951_j22333829939712_1_alg».proof.Proof.Gen.KernelIdeal.Frame
import proofs.«106951_j22333829939712_1_alg».proof.Proof.Layer
import proofs.«106951_j22333829939712_1_alg».proof.Proof.LibPlainDot
import Idealize.ShloMosaic.Lib.Pipeline.Value
import Idealize.ShloMosaic.Lib.ValueIdx
import Idealize.ShloMosaic.PureOps.Ideal.Laws

set_option maxRecDepth 16384

noncomputable section

open scoped BigOperators

namespace Cert.KernelIdeal.Dense2

open Cert.KernelIdeal Cert.KernelIdeal.Gen Cert.Layer
open Idealize.ShloMosaic Idealize.ShloMosaic.TcCoe Idealize.ShloMosaic.ValueIdx Idealize.SL.Sem
open Idealize.ShloMosaic.Pipeline (Dat Cfg Window)

theorem zeros : (![0, 0] : Fin 2 → Nat) = fun _ => 0 := funext fun a => by fin_cases a <;> rfl

/-! ## The dimension record of the block product: rows × contraction, contraction × columns -/

theorem lhs_row (j : S5000x128.Idx) (q : dot_S5000x128_S128x128_S5000x128_1_0_0_1_n_n.contr.Idx) : (dot_S5000x128_S128x128_S5000x128_1_0_0_1_n_n.lhsIdx j q 0).val = (j 0).val := by
  unfold DotDims.lhsIdx
  rw [dif_neg (show ¬(0 : Fin S5000x128.rank) ∈ dot_S5000x128_S128x128_S5000x128_1_0_0_1_n_n.lhsBatch by decide), dif_pos (show (0 : Fin S5000x128.rank) ∈ dot_S5000x128_S128x128_S5000x128_1_0_0_1_n_n.lhsNonContracting by decide)]
  rfl
theorem lhs_contr (j : S5000x128.Idx) (q : dot_S5000x128_S128x128_S5000x128_1_0_0_1_n_n.contr.Idx) : (dot_S5000x128_S128x128_S5000x128_1_0_0_1_n_n.lhsIdx j q 1).val = (q ⟨0, by decide⟩).val :=
  dot_S5000x128_S128x128_S5000x128_1_0_0_1_n_n.lhsIdx_val_of_single rfl j q
theorem rhs_contr (j : S5000x128.Idx) (q : dot_S5000x128_S128x128_S5000x128_1_0_0_1_n_n.contr.Idx) : (dot_S5000x128_S128x128_S5000x128_1_0_0_1_n_n.rhsIdx j q 0).val = (q ⟨0, by decide⟩).val :=
  dot_S5000x128_S128x128_S5000x128_1_0_0_1_n_n.rhsIdx_val_of_single rfl j q
theorem rhs_col (j : S5000x128.Idx) (q : dot_S5000x128_S128x128_S5000x128_1_0_0_1_n_n.contr.Idx) : (dot_S5000x128_S128x128_S5000x128_1_0_0_1_n_n.rhsIdx j q 1).val = (j 1).val := by
  unfold DotDims.rhsIdx
  rw [dif_neg (show ¬(1 : Fin S128x128.rank) ∈ dot_S5000x128_S128x128_S5000x128_1_0_0_1_n_n.rhsBatch by decide), dif_pos (show (1 : Fin S128x128.rank) ∈ dot_S5000x128_S128x128_S5000x128_1_0_0_1_n_n.rhsNonContracting by decide)]
  rfl

/-! ## What a grid point computes, at an entry of its block -/

/-- Entry `(p, q)` of the block product is the sum over `k` of the rows' block at `(p, k)` times the matrix at
    `(k, q)`: narrowing the factors to sixteen bits changes nothing on the extended reals, and the accumulator starts
    at zero. -/
theorem block_product (x0 : Vec Ideal S5000x128 .f32) (x1 : Vec Ideal S128x128 .f32) (p : Fin 5000) (q : Fin 128) :
    k2_pay1 (F := Ideal) x0 x1 (ix2 p q) = ∑ k : Fin 128, x0 (ix2 p k) * x1 (ix2 k q) := by
  unfold k2_pay1
  rw [shapeCast_self]
  simp only [matmul]
  rw [Ideal.matmul_constant_zero_apply]
  exact Cert.LibPlainDot.contr_sum dot_S5000x128_S128x128_S5000x128_1_0_0_1_n_n rfl rfl lhs_row lhs_contr rhs_contr rhs_col x0 x1 (ix2 p q)

/-! ## Where the blocks sit in the arrays -/

/-- Point `t` reads and writes the block of rows number `t` (the rows' window and the output's move together down
    axis 0 and never along axis 1); the matrix's window never moves. -/
theorem block_positions : ∀ t : Fin cfg2.N,
    win2_0.index t (0 : Fin 2) = win2_2.index t (0 : Fin 2) ∧ win2_0.index t (1 : Fin 2) = 0
    ∧ win2_1.index t (0 : Fin 2) = 0 ∧ win2_1.index t (1 : Fin 2) = 0
    ∧ win2_2.index t (1 : Fin 2) = 0 ∧ win2_2.index t (0 : Fin 2) ≤ 9 :=
  (by decide +kernel : ∀ t : Fin grid2.N, _)

/-- Every one of the ten blocks of rows is some point's. -/
theorem block_of_rows : ∀ b : Fin 10, ∃ t : Fin cfg2.N, win2_2.index t = ![b.val, 0] :=
  (by decide +kernel : ∀ b : Fin 10, ∃ t : Fin grid2.N, win2_2.index t = ![b.val, 0])

variable (V : (c : Dev nD) → (b : Ref sig .tc) → Buf (Elt Ideal) ((c : Thread nD τ).loc b))

/-- What point `t` writes back is block `t` of the whole product. -/
theorem written_back (c : Dev nD) (t : Fin cfg2.N) :
    (dat2 V c).flushed 2 t = ((cfg2.win 2).blk t).view.read (Elt Ideal) (dense (V c main_v45) (V c main_arg4)) := by
  show (cfg2.win 2).cut (grid2.coords t) ((dat2 V c).after 2 t) = _
  rw [after2_2]
  unfold out2_2
  rw [View.canon_unit_zero zeros]
  simp only [View.ld_unit_zero (S := S5000x128) zeros, View.ld_unit_zero (S := S128x128) zeros]
  obtain ⟨e0, e1, e2, e3, e4, e5⟩ := block_positions t
  funext j
  obtain ⟨p, q, rfl⟩ : ∃ (p : Fin 5000) (q : Fin 128), j = ix2 p q := ⟨j 0, j 1, eq_ix2 j⟩
  refine (block_product (iblk2 V c 0 t) (iblk2 V c 1 t) p q).trans ?_
  show _ = dense (V c main_v45) (V c main_arg4) (((cfg2.win 2).blk t).view.emb (ix2 p q))
  unfold dense
  refine Finset.sum_congr rfl fun k _ => ?_
  have h0 : iblk2 V c 0 t (ix2 p k) = V c main_v45 (ix2 ((((cfg2.win 2).blk t).view.emb (ix2 p q)) 0) k) := by
    show V c main_v45 (((cfg2.win 0).blk t).view.emb (ix2 p k)) = _
    refine congrArg (V c main_v45) (funext fun a => Fin.ext ?_)
    match a with
    | ⟨0, _⟩ => show win2_0.index t (0 : Fin 2) * 5000 + 1 * p.val = win2_2.index t (0 : Fin 2) * 5000 + 1 * p.val; omega
    | ⟨1, _⟩ => show win2_0.index t (1 : Fin 2) * 128 + 1 * k.val = k.val; omega
  have h1 : iblk2 V c 1 t (ix2 k q) = V c main_arg4 (ix2 k ((((cfg2.win 2).blk t).view.emb (ix2 p q)) 1)) := by
    show V c main_arg4 (((cfg2.win 1).blk t).view.emb (ix2 k q)) = _
    refine congrArg (V c main_arg4) (funext fun a => Fin.ext ?_)
    match a with
    | ⟨0, _⟩ => show win2_1.index t (0 : Fin 2) * 128 + 1 * k.val = k.val; omega
    | ⟨1, _⟩ => show win2_1.index t (1 : Fin 2) * 128 + 1 * q.val = win2_2.index t (1 : Fin 2) * 128 + 1 * q.val; omega
  rw [h0, h1]

/-- An index of the output array is in point `t`'s block iff each coordinate is in the block's range on its axis. -/
theorem in_block (t : Fin cfg2.N) (i : S50000x128.Idx) :
    i ∈ ((cfg2.win 2).blk t).view.set ↔ ∀ a : Fin 2, win2_2.index t a * S5000x128.size a ≤ (i a).val ∧ (i a).val < win2_2.index t a * S5000x128.size a + S5000x128.size a := by
  show i ∈ ((View.whole main_v46).slice (win2_2.rect t)).set ↔ _
  rw [View.set_slice_whole, Rect.mem_set_unit]
  exact Iff.rfl

/-- Every index of the output array is in the block of the point that handles its row's block of 5000. -/
theorem blocks_fill (i : S50000x128.Idx) :
    ∃ t : Fin cfg2.N, (cfg2.win 2).flush t = true ∧ i ∈ ((cfg2.win 2).blk t).view.set := by
  have hi0 : (i 0).val < 50000 := (i 0).isLt
  have hi1 : (i 1).val < 128 := (i 1).isLt
  obtain ⟨t, ht⟩ := block_of_rows ⟨(i 0).val / 5000, by omega⟩
  have q0 : win2_2.index t (0 : Fin 2) = (i 0).val / 5000 := congrFun ht 0
  have q1 : win2_2.index t (1 : Fin 2) = 0 := congrFun ht 1
  refine ⟨t, flush2_2 t, ?_⟩
  rw [in_block]
  intro a
  match a with
  | ⟨0, _⟩ => show win2_2.index t (0 : Fin 2) * 5000 ≤ (i 0).val ∧ (i 0).val < win2_2.index t (0 : Fin 2) * 5000 + 5000; omega
  | ⟨1, _⟩ => show win2_2.index t (1 : Fin 2) * 128 ≤ (i 1).val ∧ (i 1).val < win2_2.index t (1 : Fin 2) * 128 + 128; omega

/-- After the launch the output array holds the whole product of the rows by the matrix, as the launch found them. -/
theorem output (c : Dev nD) : (dat2 V c).arrAt 2 cfg2.N = dense (V c main_v45) (V c main_arg4) :=
  (dat2 V c).arrAt_eq_of_cover 2 _ (fun t _ => written_back V c t) (blocks_fill)

end Cert.KernelIdeal.Dense2

end
-- ==== Proof.Dense4.lean ====
/-
  Launch 4 of the program: a block of 5000 rows of the node features times a weight matrix.

  The launch has ten grid points. Point `t` reads rows `5000·t … 5000·t + 4999` of the features and the whole
  weight matrix, and writes back the product of the two, which is rows `5000·t … 5000·t + 4999` of the product of
  ALL the rows by the matrix: an entry of a product of matrices depends on one row of the left factor only. The ten
  blocks of rows fill the output array, so it ends holding that whole product.
-/
import proofs.«106951_j22333829939712_1_alg».proof.Proof.Gen.KernelIdeal.Frame
import proofs.«106951_j22333829939712_1_alg».proof.Proof.Layer
import proofs.«106951_j22333829939712_1_alg».proof.Proof.LibPlainDot
import Idealize.ShloMosaic.Lib.Pipeline.Value
import Idealize.ShloMosaic.Lib.ValueIdx
import Idealize.ShloMosaic.PureOps.Ideal.Laws

set_option maxRecDepth 16384

noncomputable section

open scoped BigOperators

namespace Cert.KernelIdeal.Dense4

open Cert.KernelIdeal Cert.KernelIdeal.Gen Cert.Layer
open Idealize.ShloMosaic Idealize.ShloMosaic.TcCoe Idealize.ShloMosaic.ValueIdx Idealize.SL.Sem
open Idealize.ShloMosaic.Pipeline (Dat Cfg Window)

theorem zeros : (![0, 0] : Fin 2 → Nat) = fun _ => 0 := funext fun a => by fin_cases a <;> rfl

/-! ## The dimension record of the block product: rows × contraction, contraction × columns -/

theorem lhs_row (j : S5000x40.Idx) (q : dot_S5000x128_S128x40_S5000x40_1_0_0_1_n_n.contr.Idx) : (dot_S5000x128_S128x40_S5000x40_1_0_0_1_n_n.lhsIdx j q 0).val = (j 0).val := by
  unfold DotDims.lhsIdx
  rw [dif_neg (show ¬(0 : Fin S5000x128.rank) ∈ dot_S5000x128_S128x40_S5000x40_1_0_0_1_n_n.lhsBatch by decide), dif_pos (show (0 : Fin S5000x128.rank) ∈ dot_S5000x128_S128x40_S5000x40_1_0_0_1_n_n.lhsNonContracting by decide)]
  rfl
theorem lhs_contr (j : S5000x40.Idx) (q : dot_S5000x128_S128x40_S5000x40_1_0_0_1_n_n.contr.Idx) : (dot_S5000x128_S128x40_S5000x40_1_0_0_1_n_n.lhsIdx j q 1).val = (q ⟨0, by decide⟩).val :=
  dot_S5000x128_S128x40_S5000x40_1_0_0_1_n_n.lhsIdx_val_of_single rfl j q
theorem rhs_contr (j : S5000x40.Idx) (q : dot_S5000x128_S128x40_S5000x40_1_0_0_1_n_n.contr.Idx) : (dot_S5000x128_S128x40_S5000x40_1_0_0_1_n_n.rhsIdx j q 0).val = (q ⟨0, by decide⟩).val :=
  dot_S5000x128_S128x40_S5000x40_1_0_0_1_n_n.rhsIdx_val_of_single rfl j q
theorem rhs_col (j : S5000x40.Idx) (q : dot_S5000x128_S128x40_S5000x40_1_0_0_1_n_n.contr.Idx) : (dot_S5000x128_S128x40_S5000x40_1_0_0_1_n_n.rhsIdx j q 1).val = (j 1).val := by
  unfold DotDims.rhsIdx
  rw [dif_neg (show ¬(1 : Fin S128x40.rank) ∈ dot_S5000x128_S128x40_S5000x40_1_0_0_1_n_n.rhsBatch by decide), dif_pos (show (1 : Fin S128x40.rank) ∈ dot_S5000x128_S128x40_S5000x40_1_0_0_1_n_n.rhsNonContracting by decide)]
  rfl

/-! ## What a grid point computes, at an entry of its block -/

/-- Entry `(p, q)` of the block product is the sum over `k` of the rows' block at `(p, k)` times the matrix at
    `(k, q)`: narrowing the factors to sixteen bits changes nothing on the extended reals, and the accumulator starts
    at zero. -/
theorem block_product (x0 : Vec Ideal S5000x128 .f32) (x1 : Vec Ideal S128x40 .f32) (p : Fin 5000) (q : Fin 40) :
    k4_pay1 (F := Ideal) x0 x1 (ix2 p q) = ∑ k : Fin 128, x0 (ix2 p k) * x1 (ix2 k q) := by
  unfold k4_pay1
  rw [shapeCast_self]
  simp only [matmul]
  rw [Ideal.matmul_constant_zero_apply]
  exact Cert.LibPlainDot.contr_sum dot_S5000x128_S128x40_S5000x40_1_0_0_1_n_n rfl rfl lhs_row lhs_contr rhs_contr rhs_col x0 x1 (ix2 p q)

/-! ## Where the blocks sit in the arrays -/

/-- Point `t` reads and writes the block of rows number `t` (the rows' window and the output's move together down
    axis 0 and never along axis 1); the matrix's window never moves. -/
theorem block_positions : ∀ t : Fin cfg4.N,
    win4_0.index t (0 : Fin 2) = win4_2.index t (0 : Fin 2) ∧ win4_0.index t (1 : Fin 2) = 0
    ∧ win4_1.index t (0 : Fin 2) = 0 ∧ win4_1.index t (1 : Fin 2) = 0
    ∧ win4_2.index t (1 : Fin 2) = 0 ∧ win4_2.index t (0 : Fin 2) ≤ 9 :=
  (by decide +kernel : ∀ t : Fin grid4.N, _)

/-- Every one of the ten blocks of rows is some point's. -/
theorem block_of_rows : ∀ b : Fin 10, ∃ t : Fin cfg4.N, win4_2.index t = ![b.val, 0] :=
  (by decide +kernel : ∀ b : Fin 10, ∃ t : Fin grid4.N, win4_2.index t = ![b.val, 0])

variable (V : (c : Dev nD) → (b : Ref sig .tc) → Buf (Elt Ideal) ((c : Thread nD τ).loc b))

/-- What point `t` writes back is block `t` of the whole product. -/
theorem written_back (c : Dev nD) (t : Fin cfg4.N) :
    (dat4 V c).flushed 2 t = ((cfg4.win 2).blk t).view.read (Elt Ideal) (dense (V c main_v61) (V c main_arg6)) := by
  show (cfg4.win 2).cut (grid4.coords t) ((dat4 V c).after 2 t) = _
  rw [after4_2]
  unfold out4_2
  rw [View.canon_unit_zero zeros]
  simp only [View.ld_unit_zero (S := S5000x128) zeros, View.ld_unit_zero (S := S128x40) zeros]
  obtain ⟨e0, e1, e2, e3, e4, e5⟩ := block_positions t
  funext j
  obtain ⟨p, q, rfl⟩ : ∃ (p : Fin 5000) (q : Fin 40), j = ix2 p q := ⟨j 0, j 1, eq_ix2 j⟩
  refine (block_product (iblk4 V c 0 t) (iblk4 V c 1 t) p q).trans ?_
  show _ = dense (V c main_v61) (V c main_arg6) (((cfg4.win 2).blk t).view.emb (ix2 p q))
  unfold dense
  refine Finset.sum_congr rfl fun k _ => ?_
  have h0 : iblk4 V c 0 t (ix2 p k) = V c main_v61 (ix2 ((((cfg4.win 2).blk t).view.emb (ix2 p q)) 0) k) := by
    show V c main_v61 (((cfg4.win 0).blk t).view.emb (ix2 p k)) = _
    refine congrArg (V c main_v61) (funext fun a => Fin.ext ?_)
    match a with
    | ⟨0, _⟩ => show win4_0.index t (0 : Fin 2) * 5000 + 1 * p.val = win4_2.index t (0 : Fin 2) * 5000 + 1 * p.val; omega
    | ⟨1, _⟩ => show win4_0.index t (1 : Fin 2) * 128 + 1 * k.val = k.val; omega
  have h1 : iblk4 V c 1 t (ix2 k q) = V c main_arg6 (ix2 k ((((cfg4.win 2).blk t).view.emb (ix2 p q)) 1)) := by
    show V c main_arg6 (((cfg4.win 1).blk t).view.emb (ix2 k q)) = _
    refine congrArg (V c main_arg6) (funext fun a => Fin.ext ?_)
    match a with
    | ⟨0, _⟩ => show win4_1.index t (0 : Fin 2) * 128 + 1 * k.val = k.val; omega
    | ⟨1, _⟩ => show win4_1.index t (1 : Fin 2) * 40 + 1 * q.val = win4_2.index t (1 : Fin 2) * 40 + 1 * q.val; omega
  rw [h0, h1]

/-- An index of the output array is in point `t`'s block iff each coordinate is in the block's range on its axis. -/
theorem in_block (t : Fin cfg4.N) (i : S50000x40.Idx) :
    i ∈ ((cfg4.win 2).blk t).view.set ↔ ∀ a : Fin 2, win4_2.index t a * S5000x40.size a ≤ (i a).val ∧ (i a).val < win4_2.index t a * S5000x40.size a + S5000x40.size a := by
  show i ∈ ((View.whole main_v62).slice (win4_2.rect t)).set ↔ _
  rw [View.set_slice_whole, Rect.mem_set_unit]
  exact Iff.rfl

/-- Every index of the output array is in the block of the point that handles its row's block of 5000. -/
theorem blocks_fill (i : S50000x40.Idx) :
    ∃ t : Fin cfg4.N, (cfg4.win 2).flush t = true ∧ i ∈ ((cfg4.win 2).blk t).view.set := by
  have hi0 : (i 0).val < 50000 := (i 0).isLt
  have hi1 : (i 1).val < 40 := (i 1).isLt
  obtain ⟨t, ht⟩ := block_of_rows ⟨(i 0).val / 5000, by omega⟩
  have q0 : win4_2.index t (0 : Fin 2) = (i 0).val / 5000 := congrFun ht 0
  have q1 : win4_2.index t (1 : Fin 2) = 0 := congrFun ht 1
  refine ⟨t, flush4_2 t, ?_⟩
  rw [in_block]
  intro a
  match a with
  | ⟨0, _⟩ => show win4_2.index t (0 : Fin 2) * 5000 ≤ (i 0).val ∧ (i 0).val < win4_2.index t (0 : Fin 2) * 5000 + 5000; omega
  | ⟨1, _⟩ => show win4_2.index t (1 : Fin 2) * 40 ≤ (i 1).val ∧ (i 1).val < win4_2.index t (1 : Fin 2) * 40 + 40; omega

/-- After the launch the output array holds the whole product of the rows by the matrix, as the launch found them. -/
theorem output (c : Dev nD) : (dat4 V c).arrAt 2 cfg4.N = dense (V c main_v61) (V c main_arg6) :=
  (dat4 V c).arrAt_eq_of_cover 2 _ (fun t _ => written_back V c t) (blocks_fill)

end Cert.KernelIdeal.Dense4

end
-- ==== Proof.Rectify1.lean ====
/-
  Launch 1 of the program: a bias added to every row of a block of 5000 rows, then the rectifier.

  The launch has ten grid points. Point `t` reads rows `5000·t … 5000·t + 4999` of the aggregated features and
  the one-row array of the bias, and writes back, entry by entry, the larger of the sum and zero. The operation acts
  on each entry by itself, so block `t` of the result is the operation applied to block `t`; the ten blocks fill
  the output array, which therefore ends holding the operation applied to the whole array.
-/
import proofs.«106951_j22333829939712_1_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Rectify1

open Cert.KernelIdeal Cert.KernelIdeal.Gen
open Idealize.ShloMosaic Idealize.ShloMosaic.TcCoe Idealize.ShloMosaic.ValueIdx Idealize.SL.Sem
open Idealize.ShloMosaic.Pipeline (Dat Cfg Window)

theorem zeros : (![0, 0] : Fin 2 → Nat) = fun _ => 0 := funext fun a => by fin_cases a <;> rfl

/-- The operation on whole arrays: entry `(r, q)` is the larger of `a (r, q) + row (0, q)` and the value of the
    zero word. -/
def rectified (a : S50000x128.Idx → EReal) (row : S1x128.Idx → EReal) : S50000x128.Idx → EReal :=
  fun i => max (a i + row (ix2 (0 : Fin 1) (i 1))) (Ideal.ofBits .f32 0x00000000#32)

/-! ## What a grid point computes, at an entry of its block -/

/-- Entry `(p, q)` of the point's result: the bias row is repeated down the block's rows, the sum is taken entry by
    entry, and the larger of it and zero is kept. -/
theorem block_entry (x0 : Vec Ideal S5000x128 .f32) (x1 : Vec Ideal S1x128 .f32) (p : Fin 5000) (q : Fin 128) :
    k1_pay1 (F := Ideal) x0 x1 (ix2 p q) = max (x0 (ix2 p q) + x1 (ix2 (0 : Fin 1) q)) (Ideal.ofBits .f32 0x00000000#32) := by
  unfold k1_pay1
  rw [shapeCast_self, shapeCast_self]
  show max (x0 (ix2 p q) + broadcastTo S5000x128 x1 broadcasts_S1x128_S5000x128 (ix2 p q)) (Ideal.ofBits .f32 0x00000000#32) = _
  rw [broadcastTo_1b_ab_apply x1 broadcasts_S1x128_S5000x128 p q]

/-! ## Where the blocks sit in the arrays -/

/-- Point `t` reads and writes the block of rows number `t`; the bias row's window never moves. -/
theorem block_positions : ∀ t : Fin cfg1.N,
    win1_0.index t (0 : Fin 2) = win1_2.index t (0 : Fin 2) ∧ win1_0.index t (1 : Fin 2) = win1_2.index t (1 : Fin 2)
    ∧ win1_1.index t (0 : Fin 2) = 0 ∧ win1_1.index t (1 : Fin 2) = 0
    ∧ win1_2.index t (1 : Fin 2) = 0 ∧ win1_2.index t (0 : Fin 2) ≤ 9 :=
  (by decide +kernel : ∀ t : Fin grid1.N, _)

/-- Every one of the ten blocks of rows is some point's. -/
theorem block_of_rows : ∀ b : Fin 10, ∃ t : Fin cfg1.N, win1_2.index t = ![b.val, 0] :=
  (by decide +kernel : ∀ b : Fin 10, ∃ t : Fin grid1.N, win1_2.index t = ![b.val, 0])

variable (V : (c : Dev nD) → (b : Ref sig .tc) → Buf (Elt Ideal) ((c : Thread nD τ).loc b))

/-- What point `t` writes back is block `t` of the operation applied to the whole array. -/
theorem written_back (c : Dev nD) (t : Fin cfg1.N) :
    (dat1 V c).flushed 2 t = ((cfg1.win 2).blk t).view.read (Elt Ideal) (rectified (V c main_v43) (V c main_v44)) := by
  show (cfg1.win 2).cut (grid1.coords t) ((dat1 V c).after 2 t) = _
  rw [after1_2]
  unfold out1_2
  rw [View.canon_unit_zero zeros]
  simp only [View.ld_unit_zero (S := S5000x128) zeros, View.ld_unit_zero (S := S1x128) zeros]
  obtain ⟨e0, e1, e2, e3, e4, e5⟩ := block_positions t
  funext j
  obtain ⟨p, q, rfl⟩ : ∃ (p : Fin 5000) (q : Fin 128), j = ix2 p q := ⟨j 0, j 1, eq_ix2 j⟩
  refine (block_entry (iblk1 V c 0 t) (iblk1 V c 1 t) p q).trans ?_
  show _ = rectified (V c main_v43) (V c main_v44) (((cfg1.win 2).blk t).view.emb (ix2 p q))
  unfold rectified
  have h0 : iblk1 V c 0 t (ix2 p q) = V c main_v43 (((cfg1.win 2).blk t).view.emb (ix2 p q)) := by
    show V c main_v43 (((cfg1.win 0).blk t).view.emb (ix2 p q)) = _
    refine congrArg (V c main_v43) (funext fun a => Fin.ext ?_)
    match a with
    | ⟨0, _⟩ => show win1_0.index t (0 : Fin 2) * 5000 + 1 * p.val = win1_2.index t (0 : Fin 2) * 5000 + 1 * p.val; omega
    | ⟨1, _⟩ => show win1_0.index t (1 : Fin 2) * 128 + 1 * q.val = win1_2.index t (1 : Fin 2) * 128 + 1 * q.val; omega
  have h1 : iblk1 V c 1 t (ix2 (0 : Fin 1) q) = V c main_v44 (ix2 (0 : Fin 1) ((((cfg1.win 2).blk t).view.emb (ix2 p q)) 1)) := by
    show V c main_v44 (((cfg1.win 1).blk t).view.emb (ix2 (0 : Fin 1) q)) = _
    refine congrArg (V c main_v44) (funext fun a => Fin.ext ?_)
    match a with
    | ⟨0, _⟩ => show win1_1.index t (0 : Fin 2) * 1 + 1 * 0 = 0; omega
    | ⟨1, _⟩ => show win1_1.index t (1 : Fin 2) * 128 + 1 * q.val = win1_2.index t (1 : Fin 2) * 128 + 1 * q.val; omega
  rw [h0, h1]

/-- An index of the output array is in point `t`'s block iff each coordinate is in the block's range on its axis. -/
theorem in_block (t : Fin cfg1.N) (i : S50000x128.Idx) :
    i ∈ ((cfg1.win 2).blk t).view.set ↔ ∀ a : Fin 2, win1_2.index t a * S5000x128.size a ≤ (i a).val ∧ (i a).val < win1_2.index t a * S5000x128.size a + S5000x128.size a := by
  show i ∈ ((View.whole main_v45).slice (win1_2.rect t)).set ↔ _
  rw [View.set_slice_whole, Rect.mem_set_unit]
  exact Iff.rfl

/-- Every index of the output array is in the block of the point that handles its row's block of 5000. -/
theorem blocks_fill (i : S50000x128.Idx) :
    ∃ t : Fin cfg1.N, (cfg1.win 2).flush t = true ∧ i ∈ ((cfg1.win 2).blk t).view.set := by
  have hi0 : (i 0).val < 50000 := (i 0).isLt
  have hi1 : (i 1).val < 128 := (i 1).isLt
  obtain ⟨t, ht⟩ := block_of_rows ⟨(i 0).val / 5000, by omega⟩
  have q0 : win1_2.index t (0 : Fin 2) = (i 0).val / 5000 := congrFun ht 0
  have q1 : win1_2.index t (1 : Fin 2) = 0 := congrFun ht 1
  refine ⟨t, flush1_2 t, ?_⟩
  rw [in_block]
  intro a
  match a with
  | ⟨0, _⟩ => show win1_2.index t (0 : Fin 2) * 5000 ≤ (i 0).val ∧ (i 0).val < win1_2.index t (0 : Fin 2) * 5000 + 5000; omega
  | ⟨1, _⟩ => show win1_2.index t (1 : Fin 2) * 128 ≤ (i 1).val ∧ (i 1).val < win1_2.index t (1 : Fin 2) * 128 + 128; omega

/-- After the launch the output array holds the operation applied to the two arrays as the launch found them. -/
theorem output (c : Dev nD) : (dat1 V c).arrAt 2 cfg1.N = rectified (V c main_v43) (V c main_v44) :=
  (dat1 V c).arrAt_eq_of_cover 2 _ (fun t _ => written_back V c t) (blocks_fill)

end Cert.KernelIdeal.Rectify1

end
-- ==== Proof.Rectify3.lean ====
/-
  Launch 3 of the program: a bias added to every row of a block of 5000 rows, then the rectifier.

  The launch has ten grid points. Point `t` reads rows `5000·t … 5000·t + 4999` of the aggregated features and
  the one-row array of the bias, and writes back, entry by entry, the larger of the sum and zero. The operation acts
  on each entry by itself, so block `t` of the result is the operation applied to block `t`; the ten blocks fill
  the output array, which therefore ends holding the operation applied to the whole array.
-/
import proofs.«106951_j22333829939712_1_alg».proof.Proof.Gen.KernelIdeal.Frame
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Rectify3

open Cert.KernelIdeal Cert.KernelIdeal.Gen
open Idealize.ShloMosaic Idealize.ShloMosaic.TcCoe Idealize.ShloMosaic.ValueIdx Idealize.SL.Sem
open Idealize.ShloMosaic.Pipeline (Dat Cfg Window)

theorem zeros : (![0, 0] : Fin 2 → Nat) = fun _ => 0 := funext fun a => by fin_cases a <;> rfl

/-- The operation on whole arrays: entry `(r, q)` is the larger of `a (r, q) + row (0, q)` and the value of the
    zero word. -/
def rectified (a : S50000x128.Idx → EReal) (row : S1x128.Idx → EReal) : S50000x128.Idx → EReal :=
  fun i => max (a i + row (ix2 (0 : Fin 1) (i 1))) (Ideal.ofBits .f32 0x00000000#32)

/-! ## What a grid point computes, at an entry of its block -/

/-- Entry `(p, q)` of the point's result: the bias row is repeated down the block's rows, the sum is taken entry by
    entry, and the larger of it and zero is kept. -/
theorem block_entry (x0 : Vec Ideal S5000x128 .f32) (x1 : Vec Ideal S1x128 .f32) (p : Fin 5000) (q : Fin 128) :
    k3_pay1 (F := Ideal) x0 x1 (ix2 p q) = max (x0 (ix2 p q) + x1 (ix2 (0 : Fin 1) q)) (Ideal.ofBits .f32 0x00000000#32) := by
  unfold k3_pay1
  rw [shapeCast_self, shapeCast_self]
  show max (x0 (ix2 p q) + broadcastTo S5000x128 x1 broadcasts_S1x128_S5000x128 (ix2 p q)) (Ideal.ofBits .f32 0x00000000#32) = _
  rw [broadcastTo_1b_ab_apply x1 broadcasts_S1x128_S5000x128 p q]

/-! ## Where the blocks sit in the arrays -/

/-- Point `t` reads and writes the block of rows number `t`; the bias row's window never moves. -/
theorem block_positions : ∀ t : Fin cfg3.N,
    win3_0.index t (0 : Fin 2) = win3_2.index t (0 : Fin 2) ∧ win3_0.index t (1 : Fin 2) = win3_2.index t (1 : Fin 2)
    ∧ win3_1.index t (0 : Fin 2) = 0 ∧ win3_1.index t (1 : Fin 2) = 0
    ∧ win3_2.index t (1 : Fin 2) = 0 ∧ win3_2.index t (0 : Fin 2) ≤ 9 :=
  (by decide +kernel : ∀ t : Fin grid3.N, _)

/-- Every one of the ten blocks of rows is some point's. -/
theorem block_of_rows : ∀ b : Fin 10, ∃ t : Fin cfg3.N, win3_2.index t = ![b.val, 0] :=
  (by decide +kernel : ∀ b : Fin 10, ∃ t : Fin grid3.N, win3_2.index t = ![b.val, 0])

variable (V : (c : Dev nD) → (b : Ref sig .tc) → Buf (Elt Ideal) ((c : Thread nD τ).loc b))

/-- What point `t` writes back is block `t` of the operation applied to the whole array. -/
theorem written_back (c : Dev nD) (t : Fin cfg3.N) :
    (dat3 V c).flushed 2 t = ((cfg3.win 2).blk t).view.read (Elt Ideal) (rectified (V c main_v59) (V c main_v60)) := by
  show (cfg3.win 2).cut (grid3.coords t) ((dat3 V c).after 2 t) = _
  rw [after3_2]
  unfold out3_2
  rw [View.canon_unit_zero zeros]
  simp only [View.ld_unit_zero (S := S5000x128) zeros, View.ld_unit_zero (S := S1x128) zeros]
  obtain ⟨e0, e1, e2, e3, e4, e5⟩ := block_positions t
  funext j
  obtain ⟨p, q, rfl⟩ : ∃ (p : Fin 5000) (q : Fin 128), j = ix2 p q := ⟨j 0, j 1, eq_ix2 j⟩
  refine (block_entry (iblk3 V c 0 t) (iblk3 V c 1 t) p q).trans ?_
  show _ = rectified (V c main_v59) (V c main_v60) (((cfg3.win 2).blk t).view.emb (ix2 p q))
  unfold rectified
  have h0 : iblk3 V c 0 t (ix2 p q) = V c main_v59 (((cfg3.win 2).blk t).view.emb (ix2 p q)) := by
    show V c main_v59 (((cfg3.win 0).blk t).view.emb (ix2 p q)) = _
    refine congrArg (V c main_v59) (funext fun a => Fin.ext ?_)
    match a with
    | ⟨0, _⟩ => show win3_0.index t (0 : Fin 2) * 5000 + 1 * p.val = win3_2.index t (0 : Fin 2) * 5000 + 1 * p.val; omega
    | ⟨1, _⟩ => show win3_0.index t (1 : Fin 2) * 128 + 1 * q.val = win3_2.index t (1 : Fin 2) * 128 + 1 * q.val; omega
  have h1 : iblk3 V c 1 t (ix2 (0 : Fin 1) q) = V c main_v60 (ix2 (0 : Fin 1) ((((cfg3.win 2).blk t).view.emb (ix2 p q)) 1)) := by
    show V c main_v60 (((cfg3.win 1).blk t).view.emb (ix2 (0 : Fin 1) q)) = _
    refine congrArg (V c main_v60) (funext fun a => Fin.ext ?_)
    match a with
    | ⟨0, _⟩ => show win3_1.index t (0 : Fin 2) * 1 + 1 * 0 = 0; omega
    | ⟨1, _⟩ => show win3_1.index t (1 : Fin 2) * 128 + 1 * q.val = win3_2.index t (1 : Fin 2) * 128 + 1 * q.val; omega
  rw [h0, h1]

/-- An index of the output array is in point `t`'s block iff each coordinate is in the block's range on its axis. -/
theorem in_block (t : Fin cfg3.N) (i : S50000x128.Idx) :
    i ∈ ((cfg3.win 2).blk t).view.set ↔ ∀ a : Fin 2, win3_2.index t a * S5000x128.size a ≤ (i a).val ∧ (i a).val < win3_2.index t a * S5000x128.size a + S5000x128.size a := by
  show i ∈ ((View.whole main_v61).slice (win3_2.rect t)).set ↔ _
  rw [View.set_slice_whole, Rect.mem_set_unit]
  exact Iff.rfl

/-- Every index of the output array is in the block of the point that handles its row's block of 5000. -/
theorem blocks_fill (i : S50000x128.Idx) :
    ∃ t : Fin cfg3.N, (cfg3.win 2).flush t = true ∧ i ∈ ((cfg3.win 2).blk t).view.set := by
  have hi0 : (i 0).val < 50000 := (i 0).isLt
  have hi1 : (i 1).val < 128 := (i 1).isLt
  obtain ⟨t, ht⟩ := block_of_rows ⟨(i 0).val / 5000, by omega⟩
  have q0 : win3_2.index t (0 : Fin 2) = (i 0).val / 5000 := congrFun ht 0
  have q1 : win3_2.index t (1 : Fin 2) = 0 := congrFun ht 1
  refine ⟨t, flush3_2 t, ?_⟩
  rw [in_block]
  intro a
  match a with
  | ⟨0, _⟩ => show win3_2.index t (0 : Fin 2) * 5000 ≤ (i 0).val ∧ (i 0).val < win3_2.index t (0 : Fin 2) * 5000 + 5000; omega
  | ⟨1, _⟩ => show win3_2.index t (1 : Fin 2) * 128 ≤ (i 1).val ∧ (i 1).val < win3_2.index t (1 : Fin 2) * 128 + 128; omega

/-- After the launch the output array holds the operation applied to the two arrays as the launch found them. -/
theorem output (c : Dev nD) : (dat3 V c).arrAt 2 cfg3.N = rectified (V c main_v59) (V c main_v60) :=
  (dat3 V c).arrAt_eq_of_cover 2 _ (fun t _ => written_back V c t) (blocks_fill)

end Cert.KernelIdeal.Rectify3

end
-- ==== Proof.LibKeepdims.lean ====
/-
  Two layout operations of a row-wise reduction kept as a column, read at an index.

  A sum along the rows of an a × b array is a vector of length a; kept as an a × 1 column it is the same vector
  (entry (i, 0) is entry i), and broadcast back to a × b every entry of row p is the column's entry (p, 0).
  General in the extents; nothing here mentions a program.
-/
import Idealize.ShloMosaic.Lib.Pipeline.Value
import Idealize.ShloMosaic.Lib.ValueIdx

namespace Cert.Lib.Keepdims

open Idealize.ShloMosaic Idealize.ShloMosaic.ValueIdx

variable {α : Type}

/-- An `[a]` array cast to the column `[a, 1]` reads, at `(i, u)`, the operand at `i`, whatever the unit
    coordinate `u`: both sit at row-major position `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Lib.Keepdims
-- ==== Proof.LogSoftmax5.lean ====
/-
  Launch 5 of the program: a bias added to every row of a block of 5000 rows, then the logarithm of the soft maximum
  along each row.

  The launch has ten grid points. Point `t` reads rows `5000·t … 5000·t + 4999` of the aggregated features and the
  one-row array of the bias. In each row it adds the bias, subtracts the row's largest entry, and subtracts the
  logarithm of the sum of the exponentials of what is left. Every entry of the result depends on its own row only, so
  block `t` of the result is the operation applied to block `t`; the ten blocks fill the output array, which ends
  holding the operation applied, row by row, to the whole array.
-/
import proofs.«106951_j22333829939712_1_alg».proof.Proof.Gen.KernelIdeal.Frame
import proofs.«106951_j22333829939712_1_alg».proof.Proof.Layer
import proofs.«106951_j22333829939712_1_alg».proof.Proof.LibKeepdims
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open scoped BigOperators

namespace Cert.KernelIdeal.LogSoftmax5

open Cert.KernelIdeal Cert.KernelIdeal.Gen Cert.Layer
open Idealize.ShloMosaic Idealize.ShloMosaic.TcCoe Idealize.ShloMosaic.ValueIdx Idealize.SL.Sem
open Idealize.ShloMosaic.Pipeline (Dat Cfg Window)

theorem zeros : (![0, 0] : Fin 2 → Nat) = fun _ => 0 := funext fun a => by fin_cases a <;> rfl

/-! ## The two reductions along a row -/

/-- The entry of a row-wise reduction's operand that the reduction reads for row `p` and position `k`. -/
theorem lifted (p : Fin 5000) (k : Fin 40) : reduces_S5000x40_S5000.lift (ix1 p) k = ix2 p k :=
  funext fun a => Fin.ext (by match a with | ⟨0, _⟩ => rfl | ⟨1, _⟩ => rfl)

/-- The largest entry of row `p`, folded from minus infinity. -/
theorem row_max (y : FVec Ideal S5000x40 .f32) (p : Fin 5000) :
    multiReduction .maximumf [1] S5000 y 0xFF800000#32 reduces_S5000x40_S5000 (.inl rfl) rfl (ix1 p)
      = rowMax fun k => y (ix2 p k) := by
  refine (Ideal.multiReduction_maximumf_single y 0xFF800000#32 reduces_S5000x40_S5000 (.inl rfl) rfl (ix1 p)).trans ?_
  unfold rowMax
  refine congrArg (fun f : Fin 40 → EReal => Finset.fold max (Ideal.ofBits .f32 0xFF800000#32) f Finset.univ) (funext fun k => ?_)
  exact congrArg y (lifted p k)

/-- The sum of row `p`. -/
theorem row_sum (z : FVec Ideal S5000x40 .f32) (p : Fin 5000) :
    multiReduction .add [1] S5000 z 0x00000000#32 reduces_S5000x40_S5000 (.inl rfl) rfl (ix1 p)
      = ∑ k : Fin 40, z (ix2 p k) := by
  refine (Ideal.multiReduction_add_single z 0x00000000#32 reduces_S5000x40_S5000 (.inl rfl) rfl (ix1 p)).trans ?_
  exact Finset.sum_congr rfl fun k _ => congrArg z (lifted p k)

/-! ## What a grid point computes, in three steps -/

/-- The block with the bias row added to every row. -/
def biased (x0 : Vec Ideal S5000x40 .f32) (x1 : Vec Ideal S1x40 .f32) : FVec Ideal S5000x40 .f32 :=
  addf x0 (broadcastTo S5000x40 x1 broadcasts_S1x40_S5000x40)

theorem biased_apply (x0 : Vec Ideal S5000x40 .f32) (x1 : Vec Ideal S1x40 .f32) (p : Fin 5000) (k : Fin 40) :
    biased x0 x1 (ix2 p k) = x0 (ix2 p k) + x1 (ix2 (0 : Fin 1) k) := by
  unfold biased
  show x0 (ix2 p k) + broadcastTo S5000x40 x1 broadcasts_S1x40_S5000x40 (ix2 p k) = _
  rw [broadcastTo_1b_ab_apply x1 broadcasts_S1x40_S5000x40 p k]

/-- Each row with its largest entry subtracted: the maximum is taken along the row, kept as a column, and repeated
    along the row. -/
def shifted (y : FVec Ideal S5000x40 .f32) : FVec Ideal S5000x40 .f32 :=
  subf y (broadcastTo S5000x40 (shapeCast S5000x1 (multiReduction .maximumf [1] S5000 y 0xFF800000#32 reduces_S5000x40_S5000 (.inl rfl) rfl) shapeCasts_S5000_S5000x1) broadcasts_S5000x1_S5000x40)

theorem shifted_apply (y : FVec Ideal S5000x40 .f32) (p : Fin 5000) (k : Fin 40) :
    shifted y (ix2 p k) = y (ix2 p k) - rowMax fun k' => y (ix2 p k') := by
  unfold shifted
  show y (ix2 p k) - broadcastTo S5000x40 (shapeCast S5000x1 (multiReduction .maximumf [1] S5000 y 0xFF800000#32 reduces_S5000x40_S5000 (.inl rfl) rfl) shapeCasts_S5000_S5000x1) broadcasts_S5000x1_S5000x40 (ix2 p k) = _
  rw [Cert.Lib.Keepdims.broadcastTo_a1_ab_apply _ broadcasts_S5000x1_S5000x40 p k,
    Cert.Lib.Keepdims.shapeCast_a_a1_apply _ shapeCasts_S5000_S5000x1 p (0 : Fin 1), row_max]

/-- Each row with the logarithm of the sum of its exponentials subtracted: the sum is taken along the row, kept as a
    column, its logarithm taken, and repeated along the row. -/
def normalized (s : FVec Ideal S5000x40 .f32) : FVec Ideal S5000x40 .f32 :=
  subf s (broadcastTo S5000x40 (log (shapeCast S5000x1 (multiReduction .add [1] S5000 (exp s) 0x00000000#32 reduces_S5000x40_S5000 (.inl rfl) rfl) shapeCasts_S5000_S5000x1)) broadcasts_S5000x1_S5000x40)

theorem normalized_apply (s : FVec Ideal S5000x40 .f32) (p : Fin 5000) (q : Fin 40) :
    normalized s (ix2 p q) = s (ix2 p q) - Ideal.log (∑ k : Fin 40, Ideal.exp (s (ix2 p k))) := by
  unfold normalized
  show s (ix2 p q) - broadcastTo S5000x40 (log (shapeCast S5000x1 (multiReduction .add [1] S5000 (exp s) 0x00000000#32 reduces_S5000x40_S5000 (.inl rfl) rfl) shapeCasts_S5000_S5000x1)) broadcasts_S5000x1_S5000x40 (ix2 p q) = _
  rw [Cert.Lib.Keepdims.broadcastTo_a1_ab_apply _ broadcasts_S5000x1_S5000x40 p q]
  show s (ix2 p q) - Ideal.log (shapeCast S5000x1 (multiReduction .add [1] S5000 (exp s) 0x00000000#32 reduces_S5000x40_S5000 (.inl rfl) rfl) shapeCasts_S5000_S5000x1 (ix2 p (0 : Fin 1))) = _
  rw [Cert.Lib.Keepdims.shapeCast_a_a1_apply _ shapeCasts_S5000_S5000x1 p (0 : Fin 1), row_sum]
  rfl

/-- The point's result is the three steps in order. -/
theorem steps (x0 : Vec Ideal S5000x40 .f32) (x1 : Vec Ideal S1x40 .f32) :
    k5_pay1 (F := Ideal) x0 x1 = normalized (shifted (biased x0 x1)) := by
  unfold k5_pay1
  rw [shapeCast_self, shapeCast_self]
  rfl

/-- Entry `(p, q)` of the point's result is the logarithm of the soft maximum of row `p` of the block with the bias
    added, at `q`. -/
theorem block_entry (x0 : Vec Ideal S5000x40 .f32) (x1 : Vec Ideal S1x40 .f32) (p : Fin 5000) (q : Fin 40) :
    k5_pay1 (F := Ideal) x0 x1 (ix2 p q) = logSoftmaxRow (fun k => x0 (ix2 p k) + x1 (ix2 (0 : Fin 1) k)) q := by
  rw [steps, normalized_apply]
  unfold logSoftmaxRow
  simp only [shifted_apply, biased_apply]

/-- The operation on whole arrays. -/
def normalizedRows (a : S50000x40.Idx → EReal) (row : S1x40.Idx → EReal) : S50000x40.Idx → EReal :=
  fun i => logSoftmaxRow (fun k => a (ix2 (i 0) k) + row (ix2 (0 : Fin 1) k)) (i 1)

/-! ## Where the blocks sit in the arrays -/

/-- Point `t` reads and writes the block of rows number `t`; the bias row's window never moves. -/
theorem block_positions : ∀ t : Fin cfg5.N,
    win5_0.index t (0 : Fin 2) = win5_2.index t (0 : Fin 2) ∧ win5_0.index t (1 : Fin 2) = 0
    ∧ win5_1.index t (0 : Fin 2) = 0 ∧ win5_1.index t (1 : Fin 2) = 0
    ∧ win5_2.index t (1 : Fin 2) = 0 ∧ win5_2.index t (0 : Fin 2) ≤ 9 :=
  (by decide +kernel : ∀ t : Fin grid5.N, _)

/-- Every one of the ten blocks of rows is some point's. -/
theorem block_of_rows : ∀ b : Fin 10, ∃ t : Fin cfg5.N, win5_2.index t = ![b.val, 0] :=
  (by decide +kernel : ∀ b : Fin 10, ∃ t : Fin grid5.N, win5_2.index t = ![b.val, 0])

variable (V : (c : Dev nD) → (b : Ref sig .tc) → Buf (Elt Ideal) ((c : Thread nD τ).loc b))

/-- What point `t` writes back is block `t` of the operation applied to the whole array. -/
theorem written_back (c : Dev nD) (t : Fin cfg5.N) :
    (dat5 V c).flushed 2 t = ((cfg5.win 2).blk t).view.read (Elt Ideal) (normalizedRows (V c main_v75) (V c main_v76)) := by
  show (cfg5.win 2).cut (grid5.coords t) ((dat5 V c).after 2 t) = _
  rw [after5_2]
  unfold out5_2
  rw [View.canon_unit_zero zeros]
  simp only [View.ld_unit_zero (S := S5000x40) zeros, View.ld_unit_zero (S := S1x40) zeros]
  obtain ⟨e0, e1, e2, e3, e4, e5⟩ := block_positions t
  funext j
  obtain ⟨p, q, rfl⟩ : ∃ (p : Fin 5000) (q : Fin 40), j = ix2 p q := ⟨j 0, j 1, eq_ix2 j⟩
  refine (block_entry (iblk5 V c 0 t) (iblk5 V c 1 t) p q).trans ?_
  show _ = normalizedRows (V c main_v75) (V c main_v76) (((cfg5.win 2).blk t).view.emb (ix2 p q))
  unfold normalizedRows
  have h0 : ∀ k : Fin 40, iblk5 V c 0 t (ix2 p k) = V c main_v75 (ix2 ((((cfg5.win 2).blk t).view.emb (ix2 p q)) 0) k) := fun k => by
    show V c main_v75 (((cfg5.win 0).blk t).view.emb (ix2 p k)) = _
    refine congrArg (V c main_v75) (funext fun a => Fin.ext ?_)
    match a with
    | ⟨0, _⟩ => show win5_0.index t (0 : Fin 2) * 5000 + 1 * p.val = win5_2.index t (0 : Fin 2) * 5000 + 1 * p.val; omega
    | ⟨1, _⟩ => show win5_0.index t (1 : Fin 2) * 40 + 1 * k.val = k.val; omega
  have h1 : ∀ k : Fin 40, iblk5 V c 1 t (ix2 (0 : Fin 1) k) = V c main_v76 (ix2 (0 : Fin 1) k) := fun k => by
    show V c main_v76 (((cfg5.win 1).blk t).view.emb (ix2 (0 : Fin 1) k)) = _
    refine congrArg (V c main_v76) (funext fun a => Fin.ext ?_)
    match a with
    | ⟨0, _⟩ => show win5_1.index t (0 : Fin 2) * 1 + 1 * 0 = 0; omega
    | ⟨1, _⟩ => show win5_1.index t (1 : Fin 2) * 40 + 1 * k.val = k.val; omega
  have hq : (((cfg5.win 2).blk t).view.emb (ix2 p q)) 1 = q :=
    Fin.ext (by show win5_2.index t (1 : Fin 2) * 40 + 1 * q.val = q.val; omega)
  rw [hq]
  refine congrArg (fun y : Fin 40 → EReal => logSoftmaxRow y q) (funext fun k => ?_)
  rw [h0 k, h1 k]

/-- An index of the output array is in point `t`'s block iff each coordinate is in the block's range on its axis. -/
theorem in_block (t : Fin cfg5.N) (i : S50000x40.Idx) :
    i ∈ ((cfg5.win 2).blk t).view.set ↔ ∀ a : Fin 2, win5_2.index t a * S5000x40.size a ≤ (i a).val ∧ (i a).val < win5_2.index t a * S5000x40.size a + S5000x40.size a := by
  show i ∈ ((View.whole main_v77).slice (win5_2.rect t)).set ↔ _
  rw [View.set_slice_whole, Rect.mem_set_unit]
  exact Iff.rfl

/-- Every index of the output array is in the block of the point that handles its row's block of 5000. -/
theorem blocks_fill (i : S50000x40.Idx) :
    ∃ t : Fin cfg5.N, (cfg5.win 2).flush t = true ∧ i ∈ ((cfg5.win 2).blk t).view.set := by
  have hi0 : (i 0).val < 50000 := (i 0).isLt
  have hi1 : (i 1).val < 40 := (i 1).isLt
  obtain ⟨t, ht⟩ := block_of_rows ⟨(i 0).val / 5000, by omega⟩
  have q0 : win5_2.index t (0 : Fin 2) = (i 0).val / 5000 := congrFun ht 0
  have q1 : win5_2.index t (1 : Fin 2) = 0 := congrFun ht 1
  refine ⟨t, flush5_2 t, ?_⟩
  rw [in_block]
  intro a
  match a with
  | ⟨0, _⟩ => show win5_2.index t (0 : Fin 2) * 5000 ≤ (i 0).val ∧ (i 0).val < win5_2.index t (0 : Fin 2) * 5000 + 5000; omega
  | ⟨1, _⟩ => show win5_2.index t (1 : Fin 2) * 40 ≤ (i 1).val ∧ (i 1).val < win5_2.index t (1 : Fin 2) * 40 + 40; omega

/-- After the launch the output array holds the operation applied to the two arrays as the launch found them. -/
theorem output (c : Dev nD) : (dat5 V c).arrAt 2 cfg5.N = normalizedRows (V c main_v75) (V c main_v76) :=
  (dat5 V c).arrAt_eq_of_cover 2 _ (fun t _ => written_back V c t) (blocks_fill)

end Cert.KernelIdeal.LogSoftmax5

end
-- ==== Proof.Stages.lean ====
/-
  The idealized kernel program's result, boundary by boundary.

  Each launch's output array and each stretch of host operations is read in turn, from the first launch to the
  last, and at every boundary the array the next step reads is the reference's term for the same array, of the same
  arguments: the products of launches 0, 2 and 4 are the reference's three contractions, the outputs of launches 1
  and 3 its two rectified layers, the three stretches of host operations between them its three aggregations over
  the edges (the same operations on both sides, never opened), and the output of launch 5 its last layer. So the
  result buffer ends at the reference's result term of the kernel's own arguments.
-/
import proofs.«106951_j22333829939712_1_alg».proof.Proof.Gen.KernelIdeal.Frame
import proofs.«106951_j22333829939712_1_alg».proof.Proof.RefRead
import proofs.«106951_j22333829939712_1_alg».proof.Proof.RefLayers
import proofs.«106951_j22333829939712_1_alg».proof.Proof.RefLastLayer
import proofs.«106951_j22333829939712_1_alg».proof.Proof.Layer
import proofs.«106951_j22333829939712_1_alg».proof.Proof.Carried
import proofs.«106951_j22333829939712_1_alg».proof.Proof.Graph
import proofs.«106951_j22333829939712_1_alg».proof.Proof.Dense0
import proofs.«106951_j22333829939712_1_alg».proof.Proof.Dense2
import proofs.«106951_j22333829939712_1_alg».proof.Proof.Dense4
import proofs.«106951_j22333829939712_1_alg».proof.Proof.Rectify1
import proofs.«106951_j22333829939712_1_alg».proof.Proof.Rectify3
import proofs.«106951_j22333829939712_1_alg».proof.Proof.LogSoftmax5
import Idealize.ShloMosaic.Lib.StableHlo.Run
import Idealize.ShloMosaic.Lib.ValueIdx
import Idealize.ShloMosaic.Lib.ValueLayout

set_option maxRecDepth 16384

noncomputable section

namespace Cert.KernelIdeal.Stages

open Cert.KernelIdeal Cert.KernelIdeal.Gen Cert.ReferenceIdeal.ReadP Cert.Layer
open Idealize.ShloMosaic Idealize.ShloMosaic.TcCoe Idealize.ShloMosaic.ValueIdx Idealize.SL.Sem Idealize.ShloMosaic.StableHlo

/-! ## The bias row against the bias vector -/

/-- With the bias laid out as one row by a change of shape, the rectified layer of launch 1 is `biasRelu`. -/
theorem rectify1_row (a : S50000x128.Idx → EReal) (b : S128.Idx → EReal) :
    Rectify1.rectified a (shapeCast S1x128 b shapeCasts_S128_S1x128) = biasRelu a b := by
  funext i
  show max (a i + shapeCast S1x128 b shapeCasts_S128_S1x128 (ix2 (0 : Fin 1) (i 1))) (Ideal.ofBits .f32 0x00000000#32)
    = max (a i + b (ix1 (i 1))) (Ideal.ofBits .f32 0x00000000#32)
  rw [shapeCast_a_1a_apply b shapeCasts_S128_S1x128 (0 : Fin 1) (i 1)]

/-- The same for launch 3. -/
theorem rectify3_row (a : S50000x128.Idx → EReal) (b : S128.Idx → EReal) :
    Rectify3.rectified a (shapeCast S1x128 b shapeCasts_S128_S1x128) = biasRelu a b := by
  funext i
  show max (a i + shapeCast S1x128 b shapeCasts_S128_S1x128 (ix2 (0 : Fin 1) (i 1))) (Ideal.ofBits .f32 0x00000000#32)
    = max (a i + b (ix1 (i 1))) (Ideal.ofBits .f32 0x00000000#32)
  rw [shapeCast_a_1a_apply b shapeCasts_S128_S1x128 (0 : Fin 1) (i 1)]

/-- With the bias laid out as one row, the last layer of launch 5 is `biasLogSoftmax`. -/
theorem log_softmax_row (a : S50000x40.Idx → EReal) (b : S40.Idx → EReal) :
    LogSoftmax5.normalizedRows a (shapeCast S1x40 b shapeCasts_S40_S1x40) = biasLogSoftmax a b := by
  funext i
  show logSoftmaxRow (fun k => a (ix2 (i 0) k) + shapeCast S1x40 b shapeCasts_S40_S1x40 (ix2 (0 : Fin 1) k)) (i 1)
    = logSoftmaxRow (fun k => a (ix2 (i 0) k) + b (ix1 k)) (i 1)
  refine congrArg (fun y : Fin 40 → EReal => logSoftmaxRow y (i 1)) (funext fun k => ?_)
  rw [shapeCast_a_1a_apply b shapeCasts_S40_S1x40 (0 : Fin 1) k]

variable (m : (ℓ : Loc nD τ sig) → Buf (Elt Ideal) ℓ) (ρ : Dev nD → PrngReg) (c : Dev nD)

/-! ## The graph's arrays where the three aggregations read them -/

theorem sources_at_4 : W4 m ρ c (Proc.devRef .tc main_v3) = val_main_v3 (F := Ideal) (m ((c : Thread nD τ).loc main_arg1)) := (Carried.sources_4 m ρ c).trans (Graph.sources_3 m ρ c)
theorem destinations_at_4 : W4 m ρ c (Proc.devRef .tc main_v6) = val_main_v6 (F := Ideal) (m ((c : Thread nD τ).loc main_arg1)) := (Carried.destinations_4 m ρ c).trans (Graph.destinations_3 m ρ c)
theorem weights_at_4 : W4 m ρ c (Proc.devRef .tc main_v29) = val_main_v29 (F := Ideal) (m ((c : Thread nD τ).loc main_arg1)) := (Carried.weights_4 m ρ c).trans (Graph.weights_3 m ρ c)
theorem sources_at_7 : W7 m ρ c (Proc.devRef .tc main_v3) = val_main_v3 (F := Ideal) (m ((c : Thread nD τ).loc main_arg1)) := (Carried.sources_7 m ρ c).trans (Graph.sources_3 m ρ c)
theorem destinations_at_7 : W7 m ρ c (Proc.devRef .tc main_v6) = val_main_v6 (F := Ideal) (m ((c : Thread nD τ).loc main_arg1)) := (Carried.destinations_7 m ρ c).trans (Graph.destinations_3 m ρ c)
theorem weights_at_7 : W7 m ρ c (Proc.devRef .tc main_v29) = val_main_v29 (F := Ideal) (m ((c : Thread nD τ).loc main_arg1)) := (Carried.weights_7 m ρ c).trans (Graph.weights_3 m ρ c)
theorem sources_at_10 : W10 m ρ c (Proc.devRef .tc main_v3) = val_main_v3 (F := Ideal) (m ((c : Thread nD τ).loc main_arg1)) := (Carried.sources_10 m ρ c).trans (Graph.sources_3 m ρ c)
theorem destinations_at_10 : W10 m ρ c (Proc.devRef .tc main_v6) = val_main_v6 (F := Ideal) (m ((c : Thread nD τ).loc main_arg1)) := (Carried.destinations_10 m ρ c).trans (Graph.destinations_3 m ρ c)
theorem weights_at_10 : W10 m ρ c (Proc.devRef .tc main_v29) = val_main_v29 (F := Ideal) (m ((c : Thread nD τ).loc main_arg1)) := (Carried.weights_10 m ρ c).trans (Graph.weights_3 m ρ c)

/-! ## The first layer -/

/-- Launch 0: the node features times the first weight matrix. -/
theorem features_1 : W4 m ρ c (Proc.devRef .tc main_v30) = val_main_v30 (F := Ideal) (m ((c : Thread nD τ).loc main_arg0)) (m ((c : Thread nD τ).loc main_arg2)) := by
  refine (W4_arr m ρ c 2).trans ?_
  refine (Dense0.output (V3 m ρ) c).trans ?_
  show dense (W3 m ρ c (Proc.devRef .tc main_arg0)) (W3 m ρ c (Proc.devRef .tc main_arg2)) = _
  rw [Carried.arg0_at_first, Carried.arg2_at_first]
  exact Cert.ReferenceIdeal.Layers.product_1 _ _

/-- The first aggregation over the edges: the same host operations as the reference's, on the same arrays. -/
theorem aggregate_1 : W5 m ρ c (Proc.devRef .tc main_v43) = val_main_v43 (F := Ideal) (m ((c : Thread nD τ).loc main_arg0)) (m ((c : Thread nD τ).loc main_arg1)) (m ((c : Thread nD τ).loc main_arg2)) := by
  show after hostOps1 (W4 m ρ c) (Proc.devRef .tc main_v43) = _
  after_results_simp
  rw [features_1,
    sources_at_4,
    destinations_at_4,
    weights_at_4]
  rfl

/-- The first bias as one row. -/
theorem bias_row_1 : W5 m ρ c (Proc.devRef .tc main_v44) = shapeCast S1x128 (m ((c : Thread nD τ).loc main_arg3)) shapeCasts_S128_S1x128 := by
  show after hostOps1 (W4 m ρ c) (Proc.devRef .tc main_v44) = _
  after_results_simp
  rw [Carried.arg3_at_4]
  rfl

/-- Launch 1: the bias and the rectifier. -/
theorem hidden_1 : W6 m ρ c (Proc.devRef .tc main_v45) = val_main_v47 (F := Ideal) (m ((c : Thread nD τ).loc main_arg0)) (m ((c : Thread nD τ).loc main_arg1)) (m ((c : Thread nD τ).loc main_arg2)) (m ((c : Thread nD τ).loc main_arg3)) := by
  refine (W6_arr m ρ c 2).trans ?_
  refine (Rectify1.output (V5 m ρ) c).trans ?_
  show Rectify1.rectified (W5 m ρ c (Proc.devRef .tc main_v43)) (W5 m ρ c (Proc.devRef .tc main_v44)) = _
  rw [aggregate_1, bias_row_1, rectify1_row]
  exact Cert.ReferenceIdeal.Layers.rectified_1 _ _ _ _

/-! ## The second layer -/

/-- Launch 2: the hidden features times the second weight matrix. -/
theorem features_2 : W7 m ρ c (Proc.devRef .tc main_v46) = val_main_v48 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  refine (W7_arr m ρ c 2).trans ?_
  refine (Dense2.output (V6 m ρ) c).trans ?_
  show dense (W6 m ρ c (Proc.devRef .tc main_v45)) (W6 m ρ c (Proc.devRef .tc main_arg4)) = _
  rw [hidden_1, Carried.arg4_at_6]
  exact Cert.ReferenceIdeal.Layers.product_2 _ _ _ _ _

/-- The second aggregation over the edges. -/
theorem aggregate_2 : W8 m ρ c (Proc.devRef .tc main_v59) = val_main_v61 (F := Ideal) (m ((c : Thread nD τ).loc main_arg0)) (m ((c : Thread nD τ).loc main_arg1)) (m ((c : Thread nD τ).loc main_arg2)) (m ((c : Thread nD τ).loc main_arg3)) (m ((c : Thread nD τ).loc main_arg4)) := by
  show after hostOps3 (W7 m ρ c) (Proc.devRef .tc main_v59) = _
  after_results_simp
  rw [features_2,
    sources_at_7,
    destinations_at_7,
    weights_at_7]
  rfl

/-- The second bias as one row. -/
theorem bias_row_2 : W8 m ρ c (Proc.devRef .tc main_v60) = shapeCast S1x128 (m ((c : Thread nD τ).loc main_arg5)) shapeCasts_S128_S1x128 := by
  show after hostOps3 (W7 m ρ c) (Proc.devRef .tc main_v60) = _
  after_results_simp
  rw [Carried.arg5_at_7]
  rfl

/-- Launch 3: the bias and the rectifier. -/
theorem hidden_2 : W9 m ρ c (Proc.devRef .tc main_v61) = val_main_v65 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) := by
  refine (W9_arr m ρ c 2).trans ?_
  refine (Rectify3.output (V8 m ρ) c).trans ?_
  show Rectify3.rectified (W8 m ρ c (Proc.devRef .tc main_v59)) (W8 m ρ c (Proc.devRef .tc main_v60)) = _
  rw [aggregate_2, bias_row_2, rectify3_row]
  exact Cert.ReferenceIdeal.Layers.rectified_2 _ _ _ _ _ _

/-! ## The third layer -/

/-- Launch 4: the hidden features times the third weight matrix. -/
theorem features_3 : W10 m ρ c (Proc.devRef .tc main_v62) = val_main_v66 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  refine (W10_arr m ρ c 2).trans ?_
  refine (Dense4.output (V9 m ρ) c).trans ?_
  show dense (W9 m ρ c (Proc.devRef .tc main_v61)) (W9 m ρ c (Proc.devRef .tc main_arg6)) = _
  rw [hidden_2, Carried.arg6_at_9]
  exact Cert.ReferenceIdeal.Layers.product_3 _ _ _ _ _ _ _

/-- The third aggregation over the edges. -/
theorem aggregate_3 : W11 m ρ c (Proc.devRef .tc main_v75) = val_main_v79 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) := by
  show after hostOps5 (W10 m ρ c) (Proc.devRef .tc main_v75) = _
  after_results_simp
  rw [features_3,
    sources_at_10,
    destinations_at_10,
    weights_at_10]
  rfl

/-- The third bias as one row. -/
theorem bias_row_3 : W11 m ρ c (Proc.devRef .tc main_v76) = shapeCast S1x40 (m ((c : Thread nD τ).loc main_arg7)) shapeCasts_S40_S1x40 := by
  show after hostOps5 (W10 m ρ c) (Proc.devRef .tc main_v76) = _
  after_results_simp
  rw [Carried.arg7_at_10]
  rfl

/-- Launch 5: the bias and the logarithm of the soft maximum. The program's result buffer ends at the reference's
    result term of the program's own arguments. -/
theorem result : W12 m ρ c (Proc.devRef .tc main_v77) = val_main_v83 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) := by
  refine (W12_arr m ρ c 2).trans ?_
  refine (LogSoftmax5.output (V11 m ρ) c).trans ?_
  show LogSoftmax5.normalizedRows (W11 m ρ c (Proc.devRef .tc main_v75)) (W11 m ρ c (Proc.devRef .tc main_v76)) = _
  rw [aggregate_3, bias_row_3, log_softmax_row]
  exact Cert.ReferenceIdeal.LastLayer.log_softmax_3 _ _ _ _ _ _ _ _

end Cert.KernelIdeal.Stages

end
-- ==== Proof.RefValue.lean ====
/-
  The idealized reference program, run from any memory with zero counters, with its result read.

  The program is a straight line of 121 host operations. Every weakly fair execution terminates with each buffer at
  the operations' results folded over the launch contents. The fold is read in eleven segments, cut where the
  kernel's program has its launches: the two joins that build the arrays of source and destination nodes (read by
  hand, since a join carries a proof about the list of its parts); the edge weights; then for each of the three
  layers the product, the aggregation over the edges, and the bias with the rectifier or, last, the logarithm of
  the soft maximum. After each segment the buffer it produces is the term that the operation-by-operation reading
  names for it, of the launch contents of the arguments, and the buffers that later segments read are carried along
  unchanged. The program changes none of its eight arguments.
-/
import proofs.«106951_j22333829939712_1_alg».proof.Proof.RefRun
import proofs.«106951_j22333829939712_1_alg».proof.Proof.RefRead
import proofs.«106951_j22333829939712_1_alg».proof.Proof.LibAfterAppend
import Idealize.ShloMosaic.Lib.StableHlo.Run

set_option maxRecDepth 16384

noncomputable section

namespace Cert.ReferenceIdeal.Result

open Cert.ReferenceIdeal Cert.ReferenceIdeal.Gen Cert.ReferenceIdeal.ValueP Cert.ReferenceIdeal.ReadP
open Idealize.ShloMosaic Idealize.ShloMosaic.TcCoe Idealize.SL.Sem Idealize.ShloMosaic.StableHlo

variable {F : FTy → Type} [FloatOps F]

/-! ## The line in eleven segments -/

abbrev seg1 : List (HloOp τ sig (Elt F)) := ((ops (F := F)).drop 0).take 7
abbrev seg2 : List (HloOp τ sig (Elt F)) := ((ops (F := F)).drop 7).take 33
abbrev seg3 : List (HloOp τ sig (Elt F)) := ((ops (F := F)).drop 40).take 1
abbrev seg4 : List (HloOp τ sig (Elt F)) := ((ops (F := F)).drop 41).take 16
abbrev seg5 : List (HloOp τ sig (Elt F)) := ((ops (F := F)).drop 57).take 6
abbrev seg6 : List (HloOp τ sig (Elt F)) := ((ops (F := F)).drop 63).take 1
abbrev seg7 : List (HloOp τ sig (Elt F)) := ((ops (F := F)).drop 64).take 16
abbrev seg8 : List (HloOp τ sig (Elt F)) := ((ops (F := F)).drop 80).take 6
abbrev seg9 : List (HloOp τ sig (Elt F)) := ((ops (F := F)).drop 86).take 1
abbrev seg10 : List (HloOp τ sig (Elt F)) := ((ops (F := F)).drop 87).take 16
abbrev seg11 : List (HloOp τ sig (Elt F)) := ((ops (F := F)).drop 103).take 18

/-- The segments, end to end, are the line. -/
theorem segments : (ops (F := F)) = seg1 ++ seg2 ++ seg3 ++ seg4 ++ seg5 ++ seg6 ++ seg7 ++ seg8 ++ seg9 ++ seg10 ++ seg11 := by
  simp only [seg1, seg2, seg3, seg4, seg5, seg6, seg7, seg8, seg9, seg10, seg11, ops, List.drop_succ_cons, List.drop_zero, List.take_succ_cons, List.take_zero, List.cons_append, List.nil_append]

variable (m : (ℓ : Loc nD τ sig) → Buf (Elt F) ℓ) (ρ : Dev nD → PrngReg)

/-- The buffers after each segment. -/
def U0 (c : Dev nD) : Valuation τ sig (Elt F) := launchContents m c
def U1 (c : Dev nD) : Valuation τ sig (Elt F) := after (seg1 (F := F)) (U0 m c)
def U2 (c : Dev nD) : Valuation τ sig (Elt F) := after (seg2 (F := F)) (U1 m c)
def U3 (c : Dev nD) : Valuation τ sig (Elt F) := after (seg3 (F := F)) (U2 m c)
def U4 (c : Dev nD) : Valuation τ sig (Elt F) := after (seg4 (F := F)) (U3 m c)
def U5 (c : Dev nD) : Valuation τ sig (Elt F) := after (seg5 (F := F)) (U4 m c)
def U6 (c : Dev nD) : Valuation τ sig (Elt F) := after (seg6 (F := F)) (U5 m c)
def U7 (c : Dev nD) : Valuation τ sig (Elt F) := after (seg7 (F := F)) (U6 m c)
def U8 (c : Dev nD) : Valuation τ sig (Elt F) := after (seg8 (F := F)) (U7 m c)
def U9 (c : Dev nD) : Valuation τ sig (Elt F) := after (seg9 (F := F)) (U8 m c)
def U10 (c : Dev nD) : Valuation τ sig (Elt F) := after (seg10 (F := F)) (U9 m c)
def U11 (c : Dev nD) : Valuation τ sig (Elt F) := after (seg11 (F := F)) (U10 m c)

/-- After the whole line the buffers are those after the eleventh segment. -/
theorem whole (c : Dev nD) : after (ops (F := F)) (launchContents m c) = U11 m c := by
  conv_lhs => rw [segments]
  simp only [Cert.Lib.AfterAppend.after_append]
  rfl

/-- A buffer that no operation of a list writes keeps its contents. -/
theorem kept (l : List (HloOp τ sig (Elt F))) (V : Valuation τ sig (Elt F)) (b : Ref sig .tc)
    (hb : l.Forall fun op => Proc.devRef .tc b ∉ op.writes) : after l V (Proc.devRef .tc b) = V (Proc.devRef .tc b) :=
  after_of_forall_not_mem _ _ (List.forall_iff_forall_mem.mp hb)

/-- Decides that no operation of a segment writes a given buffer: each writes its one result buffer, another one. -/
macro "segment_leaves" : tactic =>
  `(tactic| (simp only [seg1, seg2, seg3, seg4, seg5, seg6, seg7, seg8, seg9, seg10, seg11, ops, List.drop_succ_cons, List.drop_zero, List.take_succ_cons, List.take_zero,
      List.Forall, StableHlo.nullary_writes, StableHlo.unary_writes, StableHlo.binary_writes, StableHlo.ternary_writes,
      StableHlo.quaternary_writes, StableHlo.reshape_writes, StableHlo.binaryIndexed_writes, Finset.mem_singleton]
             repeat' apply And.intro
             all_goals exact StableHlo.devRef_ne_of_ne (by decide)))

/-! ### After segment 1: the sources and the destinations -/

/-- Joining a list of 1600000 indices with a list of 50000 respects equality of the two parts. -/
theorem join_congr {a a' : S1600000.Idx → BitVec 32} {b b' : S50000.Idx → BitVec 32} (ha : a = a') (hb : b = b') :
    concatenate S1650000 0 [⟨S1600000, a⟩, ⟨S50000, b⟩] concatenates_S1600000_S50000_S1650000_d0
      = concatenate S1650000 0 [⟨S1600000, a'⟩, ⟨S50000, b'⟩] concatenates_S1600000_S50000_S1650000_d0 := by
  subst ha hb; rfl

/-- The sources: row 0 of the edge list, then every node's number. -/
theorem v3_1 (c : Dev nD) : U1 m c (Proc.devRef .tc main_v3) = val_main_v3 (F := F) (m ((c.tc : Thread nD τ).loc main_arg1)) := by
  show after (seg1 (F := F)) (launchContents m c) (Proc.devRef .tc main_v3) = _
  simp only [seg1, ops, List.drop_zero, List.take_succ_cons, List.take_zero]
  after_results
  unfold val_main_v3
  refine join_congr ?_ ?_
  · after_results; rfl
  · first | rfl | (after_results; rfl)

/-- The destinations: row 1 of the edge list, then every node's number. -/
theorem v6_1 (c : Dev nD) : U1 m c (Proc.devRef .tc main_v6) = val_main_v6 (F := F) (m ((c.tc : Thread nD τ).loc main_arg1)) := by
  show after (seg1 (F := F)) (launchContents m c) (Proc.devRef .tc main_v6) = _
  simp only [seg1, ops, List.drop_zero, List.take_succ_cons, List.take_zero]
  after_results
  unfold val_main_v6
  refine join_congr ?_ ?_
  · after_results; rfl
  · first | rfl | (after_results; rfl)

theorem arg0_1 (c : Dev nD) : U1 m c (Proc.devRef .tc main_arg0) = m ((c.tc : Thread nD τ).loc main_arg0) :=
  (kept (seg1 (F := F)) (launchContents m c) main_arg0 (by segment_leaves)).trans rfl
theorem arg2_1 (c : Dev nD) : U1 m c (Proc.devRef .tc main_arg2) = m ((c.tc : Thread nD τ).loc main_arg2) :=
  (kept (seg1 (F := F)) (launchContents m c) main_arg2 (by segment_leaves)).trans rfl
theorem arg3_1 (c : Dev nD) : U1 m c (Proc.devRef .tc main_arg3) = m ((c.tc : Thread nD τ).loc main_arg3) :=
  (kept (seg1 (F := F)) (launchContents m c) main_arg3 (by segment_leaves)).trans rfl
theorem arg4_1 (c : Dev nD) : U1 m c (Proc.devRef .tc main_arg4) = m ((c.tc : Thread nD τ).loc main_arg4) :=
  (kept (seg1 (F := F)) (launchContents m c) main_arg4 (by segment_leaves)).trans rfl
theorem arg5_1 (c : Dev nD) : U1 m c (Proc.devRef .tc main_arg5) = m ((c.tc : Thread nD τ).loc main_arg5) :=
  (kept (seg1 (F := F)) (launchContents m c) main_arg5 (by segment_leaves)).trans rfl
theorem arg6_1 (c : Dev nD) : U1 m c (Proc.devRef .tc main_arg6) = m ((c.tc : Thread nD τ).loc main_arg6) :=
  (kept (seg1 (F := F)) (launchContents m c) main_arg6 (by segment_leaves)).trans rfl
theorem arg7_1 (c : Dev nD) : U1 m c (Proc.devRef .tc main_arg7) = m ((c.tc : Thread nD τ).loc main_arg7) :=
  (kept (seg1 (F := F)) (launchContents m c) main_arg7 (by segment_leaves)).trans rfl

/-! ### After segment 2: the edge weights -/

theorem v29_2 (c : Dev nD) : U2 m c (Proc.devRef .tc main_v29) = val_main_v29 (F := F) (m ((c.tc : Thread nD τ).loc main_arg1)) := by
  show after (seg2 (F := F)) (U1 m c) (Proc.devRef .tc main_v29) = _
  simp only [seg2, ops, List.drop_succ_cons, List.drop_zero, List.take_succ_cons, List.take_zero]
  after_results_simp
  rw [v3_1 m c, v6_1 m c]
  rfl
theorem v3_2 (c : Dev nD) : U2 m c (Proc.devRef .tc main_v3) = val_main_v3 (F := F) (m ((c.tc : Thread nD τ).loc main_arg1)) :=
  (kept (seg2 (F := F)) (U1 m c) main_v3 (by segment_leaves)).trans (v3_1 m c)
theorem v6_2 (c : Dev nD) : U2 m c (Proc.devRef .tc main_v6) = val_main_v6 (F := F) (m ((c.tc : Thread nD τ).loc main_arg1)) :=
  (kept (seg2 (F := F)) (U1 m c) main_v6 (by segment_leaves)).trans (v6_1 m c)
theorem arg0_2 (c : Dev nD) : U2 m c (Proc.devRef .tc main_arg0) = m ((c.tc : Thread nD τ).loc main_arg0) :=
  (kept (seg2 (F := F)) (U1 m c) main_arg0 (by segment_leaves)).trans (arg0_1 m c)
theorem arg2_2 (c : Dev nD) : U2 m c (Proc.devRef .tc main_arg2) = m ((c.tc : Thread nD τ).loc main_arg2) :=
  (kept (seg2 (F := F)) (U1 m c) main_arg2 (by segment_leaves)).trans (arg2_1 m c)
theorem arg3_2 (c : Dev nD) : U2 m c (Proc.devRef .tc main_arg3) = m ((c.tc : Thread nD τ).loc main_arg3) :=
  (kept (seg2 (F := F)) (U1 m c) main_arg3 (by segment_leaves)).trans (arg3_1 m c)
theorem arg4_2 (c : Dev nD) : U2 m c (Proc.devRef .tc main_arg4) = m ((c.tc : Thread nD τ).loc main_arg4) :=
  (kept (seg2 (F := F)) (U1 m c) main_arg4 (by segment_leaves)).trans (arg4_1 m c)
theorem arg5_2 (c : Dev nD) : U2 m c (Proc.devRef .tc main_arg5) = m ((c.tc : Thread nD τ).loc main_arg5) :=
  (kept (seg2 (F := F)) (U1 m c) main_arg5 (by segment_leaves)).trans (arg5_1 m c)
theorem arg6_2 (c : Dev nD) : U2 m c (Proc.devRef .tc main_arg6) = m ((c.tc : Thread nD τ).loc main_arg6) :=
  (kept (seg2 (F := F)) (U1 m c) main_arg6 (by segment_leaves)).trans (arg6_1 m c)
theorem arg7_2 (c : Dev nD) : U2 m c (Proc.devRef .tc main_arg7) = m ((c.tc : Thread nD τ).loc main_arg7) :=
  (kept (seg2 (F := F)) (U1 m c) main_arg7 (by segment_leaves)).trans (arg7_1 m c)

/-! ### After segment 3: the first product -/

theorem v30_3 (c : Dev nD) : U3 m c (Proc.devRef .tc main_v30) = val_main_v30 (F := F) (m ((c.tc : Thread nD τ).loc main_arg0)) (m ((c.tc : Thread nD τ).loc main_arg2)) := by
  show after (seg3 (F := F)) (U2 m c) (Proc.devRef .tc main_v30) = _
  simp only [seg3, ops, List.drop_succ_cons, List.drop_zero, List.take_succ_cons, List.take_zero]
  after_results_simp
  rw [arg0_2 m c, arg2_2 m c]
  rfl
theorem v3_3 (c : Dev nD) : U3 m c (Proc.devRef .tc main_v3) = val_main_v3 (F := F) (m ((c.tc : Thread nD τ).loc main_arg1)) :=
  (kept (seg3 (F := F)) (U2 m c) main_v3 (by segment_leaves)).trans (v3_2 m c)
theorem v6_3 (c : Dev nD) : U3 m c (Proc.devRef .tc main_v6) = val_main_v6 (F := F) (m ((c.tc : Thread nD τ).loc main_arg1)) :=
  (kept (seg3 (F := F)) (U2 m c) main_v6 (by segment_leaves)).trans (v6_2 m c)
theorem v29_3 (c : Dev nD) : U3 m c (Proc.devRef .tc main_v29) = val_main_v29 (F := F) (m ((c.tc : Thread nD τ).loc main_arg1)) :=
  (kept (seg3 (F := F)) (U2 m c) main_v29 (by segment_leaves)).trans (v29_2 m c)
theorem arg3_3 (c : Dev nD) : U3 m c (Proc.devRef .tc main_arg3) = m ((c.tc : Thread nD τ).loc main_arg3) :=
  (kept (seg3 (F := F)) (U2 m c) main_arg3 (by segment_leaves)).trans (arg3_2 m c)
theorem arg4_3 (c : Dev nD) : U3 m c (Proc.devRef .tc main_arg4) = m ((c.tc : Thread nD τ).loc main_arg4) :=
  (kept (seg3 (F := F)) (U2 m c) main_arg4 (by segment_leaves)).trans (arg4_2 m c)
theorem arg5_3 (c : Dev nD) : U3 m c (Proc.devRef .tc main_arg5) = m ((c.tc : Thread nD τ).loc main_arg5) :=
  (kept (seg3 (F := F)) (U2 m c) main_arg5 (by segment_leaves)).trans (arg5_2 m c)
theorem arg6_3 (c : Dev nD) : U3 m c (Proc.devRef .tc main_arg6) = m ((c.tc : Thread nD τ).loc main_arg6) :=
  (kept (seg3 (F := F)) (U2 m c) main_arg6 (by segment_leaves)).trans (arg6_2 m c)
theorem arg7_3 (c : Dev nD) : U3 m c (Proc.devRef .tc main_arg7) = m ((c.tc : Thread nD τ).loc main_arg7) :=
  (kept (seg3 (F := F)) (U2 m c) main_arg7 (by segment_leaves)).trans (arg7_2 m c)

/-! ### After segment 4: the first aggregation -/

theorem v43_4 (c : Dev nD) : U4 m c (Proc.devRef .tc main_v43) = val_main_v43 (F := F) (m ((c.tc : Thread nD τ).loc main_arg0)) (m ((c.tc : Thread nD τ).loc main_arg1)) (m ((c.tc : Thread nD τ).loc main_arg2)) := by
  show after (seg4 (F := F)) (U3 m c) (Proc.devRef .tc main_v43) = _
  simp only [seg4, ops, List.drop_succ_cons, List.drop_zero, List.take_succ_cons, List.take_zero]
  after_results_simp
  rw [v30_3 m c, v3_3 m c, v6_3 m c, v29_3 m c]
  rfl
theorem v3_4 (c : Dev nD) : U4 m c (Proc.devRef .tc main_v3) = val_main_v3 (F := F) (m ((c.tc : Thread nD τ).loc main_arg1)) :=
  (kept (seg4 (F := F)) (U3 m c) main_v3 (by segment_leaves)).trans (v3_3 m c)
theorem v6_4 (c : Dev nD) : U4 m c (Proc.devRef .tc main_v6) = val_main_v6 (F := F) (m ((c.tc : Thread nD τ).loc main_arg1)) :=
  (kept (seg4 (F := F)) (U3 m c) main_v6 (by segment_leaves)).trans (v6_3 m c)
theorem v29_4 (c : Dev nD) : U4 m c (Proc.devRef .tc main_v29) = val_main_v29 (F := F) (m ((c.tc : Thread nD τ).loc main_arg1)) :=
  (kept (seg4 (F := F)) (U3 m c) main_v29 (by segment_leaves)).trans (v29_3 m c)
theorem arg3_4 (c : Dev nD) : U4 m c (Proc.devRef .tc main_arg3) = m ((c.tc : Thread nD τ).loc main_arg3) :=
  (kept (seg4 (F := F)) (U3 m c) main_arg3 (by segment_leaves)).trans (arg3_3 m c)
theorem arg4_4 (c : Dev nD) : U4 m c (Proc.devRef .tc main_arg4) = m ((c.tc : Thread nD τ).loc main_arg4) :=
  (kept (seg4 (F := F)) (U3 m c) main_arg4 (by segment_leaves)).trans (arg4_3 m c)
theorem arg5_4 (c : Dev nD) : U4 m c (Proc.devRef .tc main_arg5) = m ((c.tc : Thread nD τ).loc main_arg5) :=
  (kept (seg4 (F := F)) (U3 m c) main_arg5 (by segment_leaves)).trans (arg5_3 m c)
theorem arg6_4 (c : Dev nD) : U4 m c (Proc.devRef .tc main_arg6) = m ((c.tc : Thread nD τ).loc main_arg6) :=
  (kept (seg4 (F := F)) (U3 m c) main_arg6 (by segment_leaves)).trans (arg6_3 m c)
theorem arg7_4 (c : Dev nD) : U4 m c (Proc.devRef .tc main_arg7) = m ((c.tc : Thread nD τ).loc main_arg7) :=
  (kept (seg4 (F := F)) (U3 m c) main_arg7 (by segment_leaves)).trans (arg7_3 m c)

/-! ### After segment 5: the first rectified layer -/

theorem v47_5 (c : Dev nD) : U5 m c (Proc.devRef .tc main_v47) = val_main_v47 (F := F) (m ((c.tc : Thread nD τ).loc main_arg0)) (m ((c.tc : Thread nD τ).loc main_arg1)) (m ((c.tc : Thread nD τ).loc main_arg2)) (m ((c.tc : Thread nD τ).loc main_arg3)) := by
  show after (seg5 (F := F)) (U4 m c) (Proc.devRef .tc main_v47) = _
  simp only [seg5, ops, List.drop_succ_cons, List.drop_zero, List.take_succ_cons, List.take_zero]
  after_results_simp
  rw [v43_4 m c, arg3_4 m c]
  rfl
theorem v3_5 (c : Dev nD) : U5 m c (Proc.devRef .tc main_v3) = val_main_v3 (F := F) (m ((c.tc : Thread nD τ).loc main_arg1)) :=
  (kept (seg5 (F := F)) (U4 m c) main_v3 (by segment_leaves)).trans (v3_4 m c)
theorem v6_5 (c : Dev nD) : U5 m c (Proc.devRef .tc main_v6) = val_main_v6 (F := F) (m ((c.tc : Thread nD τ).loc main_arg1)) :=
  (kept (seg5 (F := F)) (U4 m c) main_v6 (by segment_leaves)).trans (v6_4 m c)
theorem v29_5 (c : Dev nD) : U5 m c (Proc.devRef .tc main_v29) = val_main_v29 (F := F) (m ((c.tc : Thread nD τ).loc main_arg1)) :=
  (kept (seg5 (F := F)) (U4 m c) main_v29 (by segment_leaves)).trans (v29_4 m c)
theorem arg4_5 (c : Dev nD) : U5 m c (Proc.devRef .tc main_arg4) = m ((c.tc : Thread nD τ).loc main_arg4) :=
  (kept (seg5 (F := F)) (U4 m c) main_arg4 (by segment_leaves)).trans (arg4_4 m c)
theorem arg5_5 (c : Dev nD) : U5 m c (Proc.devRef .tc main_arg5) = m ((c.tc : Thread nD τ).loc main_arg5) :=
  (kept (seg5 (F := F)) (U4 m c) main_arg5 (by segment_leaves)).trans (arg5_4 m c)
theorem arg6_5 (c : Dev nD) : U5 m c (Proc.devRef .tc main_arg6) = m ((c.tc : Thread nD τ).loc main_arg6) :=
  (kept (seg5 (F := F)) (U4 m c) main_arg6 (by segment_leaves)).trans (arg6_4 m c)
theorem arg7_5 (c : Dev nD) : U5 m c (Proc.devRef .tc main_arg7) = m ((c.tc : Thread nD τ).loc main_arg7) :=
  (kept (seg5 (F := F)) (U4 m c) main_arg7 (by segment_leaves)).trans (arg7_4 m c)

/-! ### After segment 6: the second product -/

theorem v48_6 (c : Dev nD) : U6 m c (Proc.devRef .tc main_v48) = val_main_v48 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  show after (seg6 (F := F)) (U5 m c) (Proc.devRef .tc main_v48) = _
  simp only [seg6, ops, List.drop_succ_cons, List.drop_zero, List.take_succ_cons, List.take_zero]
  after_results_simp
  rw [v47_5 m c, arg4_5 m c]
  rfl
theorem v3_6 (c : Dev nD) : U6 m c (Proc.devRef .tc main_v3) = val_main_v3 (F := F) (m ((c.tc : Thread nD τ).loc main_arg1)) :=
  (kept (seg6 (F := F)) (U5 m c) main_v3 (by segment_leaves)).trans (v3_5 m c)
theorem v6_6 (c : Dev nD) : U6 m c (Proc.devRef .tc main_v6) = val_main_v6 (F := F) (m ((c.tc : Thread nD τ).loc main_arg1)) :=
  (kept (seg6 (F := F)) (U5 m c) main_v6 (by segment_leaves)).trans (v6_5 m c)
theorem v29_6 (c : Dev nD) : U6 m c (Proc.devRef .tc main_v29) = val_main_v29 (F := F) (m ((c.tc : Thread nD τ).loc main_arg1)) :=
  (kept (seg6 (F := F)) (U5 m c) main_v29 (by segment_leaves)).trans (v29_5 m c)
theorem arg5_6 (c : Dev nD) : U6 m c (Proc.devRef .tc main_arg5) = m ((c.tc : Thread nD τ).loc main_arg5) :=
  (kept (seg6 (F := F)) (U5 m c) main_arg5 (by segment_leaves)).trans (arg5_5 m c)
theorem arg6_6 (c : Dev nD) : U6 m c (Proc.devRef .tc main_arg6) = m ((c.tc : Thread nD τ).loc main_arg6) :=
  (kept (seg6 (F := F)) (U5 m c) main_arg6 (by segment_leaves)).trans (arg6_5 m c)
theorem arg7_6 (c : Dev nD) : U6 m c (Proc.devRef .tc main_arg7) = m ((c.tc : Thread nD τ).loc main_arg7) :=
  (kept (seg6 (F := F)) (U5 m c) main_arg7 (by segment_leaves)).trans (arg7_5 m c)

/-! ### After segment 7: the second aggregation -/

theorem v61_7 (c : Dev nD) : U7 m c (Proc.devRef .tc main_v61) = val_main_v61 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  show after (seg7 (F := F)) (U6 m c) (Proc.devRef .tc main_v61) = _
  simp only [seg7, ops, List.drop_succ_cons, List.drop_zero, List.take_succ_cons, List.take_zero]
  after_results_simp
  rw [v48_6 m c, v3_6 m c, v6_6 m c, v29_6 m c]
  rfl
theorem v3_7 (c : Dev nD) : U7 m c (Proc.devRef .tc main_v3) = val_main_v3 (F := F) (m ((c.tc : Thread nD τ).loc main_arg1)) :=
  (kept (seg7 (F := F)) (U6 m c) main_v3 (by segment_leaves)).trans (v3_6 m c)
theorem v6_7 (c : Dev nD) : U7 m c (Proc.devRef .tc main_v6) = val_main_v6 (F := F) (m ((c.tc : Thread nD τ).loc main_arg1)) :=
  (kept (seg7 (F := F)) (U6 m c) main_v6 (by segment_leaves)).trans (v6_6 m c)
theorem v29_7 (c : Dev nD) : U7 m c (Proc.devRef .tc main_v29) = val_main_v29 (F := F) (m ((c.tc : Thread nD τ).loc main_arg1)) :=
  (kept (seg7 (F := F)) (U6 m c) main_v29 (by segment_leaves)).trans (v29_6 m c)
theorem arg5_7 (c : Dev nD) : U7 m c (Proc.devRef .tc main_arg5) = m ((c.tc : Thread nD τ).loc main_arg5) :=
  (kept (seg7 (F := F)) (U6 m c) main_arg5 (by segment_leaves)).trans (arg5_6 m c)
theorem arg6_7 (c : Dev nD) : U7 m c (Proc.devRef .tc main_arg6) = m ((c.tc : Thread nD τ).loc main_arg6) :=
  (kept (seg7 (F := F)) (U6 m c) main_arg6 (by segment_leaves)).trans (arg6_6 m c)
theorem arg7_7 (c : Dev nD) : U7 m c (Proc.devRef .tc main_arg7) = m ((c.tc : Thread nD τ).loc main_arg7) :=
  (kept (seg7 (F := F)) (U6 m c) main_arg7 (by segment_leaves)).trans (arg7_6 m c)

/-! ### After segment 8: the second rectified layer -/

theorem v65_8 (c : Dev nD) : U8 m c (Proc.devRef .tc main_v65) = val_main_v65 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) := by
  show after (seg8 (F := F)) (U7 m c) (Proc.devRef .tc main_v65) = _
  simp only [seg8, ops, List.drop_succ_cons, List.drop_zero, List.take_succ_cons, List.take_zero]
  after_results_simp
  rw [v61_7 m c, arg5_7 m c]
  rfl
theorem v3_8 (c : Dev nD) : U8 m c (Proc.devRef .tc main_v3) = val_main_v3 (F := F) (m ((c.tc : Thread nD τ).loc main_arg1)) :=
  (kept (seg8 (F := F)) (U7 m c) main_v3 (by segment_leaves)).trans (v3_7 m c)
theorem v6_8 (c : Dev nD) : U8 m c (Proc.devRef .tc main_v6) = val_main_v6 (F := F) (m ((c.tc : Thread nD τ).loc main_arg1)) :=
  (kept (seg8 (F := F)) (U7 m c) main_v6 (by segment_leaves)).trans (v6_7 m c)
theorem v29_8 (c : Dev nD) : U8 m c (Proc.devRef .tc main_v29) = val_main_v29 (F := F) (m ((c.tc : Thread nD τ).loc main_arg1)) :=
  (kept (seg8 (F := F)) (U7 m c) main_v29 (by segment_leaves)).trans (v29_7 m c)
theorem arg6_8 (c : Dev nD) : U8 m c (Proc.devRef .tc main_arg6) = m ((c.tc : Thread nD τ).loc main_arg6) :=
  (kept (seg8 (F := F)) (U7 m c) main_arg6 (by segment_leaves)).trans (arg6_7 m c)
theorem arg7_8 (c : Dev nD) : U8 m c (Proc.devRef .tc main_arg7) = m ((c.tc : Thread nD τ).loc main_arg7) :=
  (kept (seg8 (F := F)) (U7 m c) main_arg7 (by segment_leaves)).trans (arg7_7 m c)

/-! ### After segment 9: the third product -/

theorem v66_9 (c : Dev nD) : U9 m c (Proc.devRef .tc main_v66) = val_main_v66 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) := by
  show after (seg9 (F := F)) (U8 m c) (Proc.devRef .tc main_v66) = _
  simp only [seg9, ops, List.drop_succ_cons, List.drop_zero, List.take_succ_cons, List.take_zero]
  after_results_simp
  rw [v65_8 m c, arg6_8 m c]
  rfl
theorem v3_9 (c : Dev nD) : U9 m c (Proc.devRef .tc main_v3) = val_main_v3 (F := F) (m ((c.tc : Thread nD τ).loc main_arg1)) :=
  (kept (seg9 (F := F)) (U8 m c) main_v3 (by segment_leaves)).trans (v3_8 m c)
theorem v6_9 (c : Dev nD) : U9 m c (Proc.devRef .tc main_v6) = val_main_v6 (F := F) (m ((c.tc : Thread nD τ).loc main_arg1)) :=
  (kept (seg9 (F := F)) (U8 m c) main_v6 (by segment_leaves)).trans (v6_8 m c)
theorem v29_9 (c : Dev nD) : U9 m c (Proc.devRef .tc main_v29) = val_main_v29 (F := F) (m ((c.tc : Thread nD τ).loc main_arg1)) :=
  (kept (seg9 (F := F)) (U8 m c) main_v29 (by segment_leaves)).trans (v29_8 m c)
theorem arg7_9 (c : Dev nD) : U9 m c (Proc.devRef .tc main_arg7) = m ((c.tc : Thread nD τ).loc main_arg7) :=
  (kept (seg9 (F := F)) (U8 m c) main_arg7 (by segment_leaves)).trans (arg7_8 m c)

/-! ### After segment 10: the third aggregation -/

theorem v79_10 (c : Dev nD) : U10 m c (Proc.devRef .tc main_v79) = val_main_v79 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) := by
  show after (seg10 (F := F)) (U9 m c) (Proc.devRef .tc main_v79) = _
  simp only [seg10, ops, List.drop_succ_cons, List.drop_zero, List.take_succ_cons, List.take_zero]
  after_results_simp
  rw [v66_9 m c, v3_9 m c, v6_9 m c, v29_9 m c]
  rfl
theorem arg7_10 (c : Dev nD) : U10 m c (Proc.devRef .tc main_arg7) = m ((c.tc : Thread nD τ).loc main_arg7) :=
  (kept (seg10 (F := F)) (U9 m c) main_arg7 (by segment_leaves)).trans (arg7_9 m c)

end Cert.ReferenceIdeal.Result

end
-- ==== Proof.RefResult.lean ====
/-
  The idealized reference program's last segment and its run.

  The last eighteen operations are the bias and the logarithm of the soft maximum; read from the buffers after the
  tenth segment they give the result buffer as the term that the operation-by-operation reading names for it. With
  that, every weakly fair execution of the reference ends with its result buffer at that term of the launch contents
  of its arguments, and with the arguments as launched, since no operation of the line writes an argument.
-/
import proofs.«106951_j22333829939712_1_alg».proof.Proof.RefValue

set_option maxRecDepth 16384

noncomputable section

namespace Cert.ReferenceIdeal.Result

open Cert.ReferenceIdeal Cert.ReferenceIdeal.Gen Cert.ReferenceIdeal.ValueP Cert.ReferenceIdeal.ReadP
open Idealize.ShloMosaic Idealize.ShloMosaic.TcCoe Idealize.SL.Sem Idealize.ShloMosaic.StableHlo

variable {F : FTy → Type} [FloatOps F]
variable (m : (ℓ : Loc nD τ sig) → Buf (Elt F) ℓ) (ρ : Dev nD → PrngReg)

/-! ### The last segment, in six pieces: the biased scores; the row maximum; the larger of it and minus infinity;
    the scores with that subtracted; the row sum of the exponentials; its logarithm subtracted -/

abbrev seg11a : List (HloOp τ sig (Elt F)) := ((ops (F := F)).drop 103).take 3
abbrev seg11b1 : List (HloOp τ sig (Elt F)) := ((ops (F := F)).drop 106).take 2
abbrev seg11b2 : List (HloOp τ sig (Elt F)) := ((ops (F := F)).drop 108).take 3
abbrev seg11c : List (HloOp τ sig (Elt F)) := ((ops (F := F)).drop 111).take 3
abbrev seg11d : List (HloOp τ sig (Elt F)) := ((ops (F := F)).drop 114).take 3
abbrev seg11e : List (HloOp τ sig (Elt F)) := ((ops (F := F)).drop 117).take 4

/-- The six pieces, end to end, are the last segment. -/
theorem last_pieces : (seg11 (F := F)) = seg11a ++ seg11b1 ++ seg11b2 ++ seg11c ++ seg11d ++ seg11e := by
  simp only [seg11, seg11a, seg11b1, seg11b2, seg11c, seg11d, seg11e, ops, List.drop_succ_cons, List.drop_zero, List.take_succ_cons, List.take_zero, List.cons_append, List.nil_append]

/-- The buffers after each piece. -/
def U11a (c : Dev nD) : Valuation τ sig (Elt F) := after (seg11a (F := F)) (U10 m c)
def U11b1 (c : Dev nD) : Valuation τ sig (Elt F) := after (seg11b1 (F := F)) (U11a m c)
def U11b2 (c : Dev nD) : Valuation τ sig (Elt F) := after (seg11b2 (F := F)) (U11b1 m c)
def U11c (c : Dev nD) : Valuation τ sig (Elt F) := after (seg11c (F := F)) (U11b2 m c)
def U11d (c : Dev nD) : Valuation τ sig (Elt F) := after (seg11d (F := F)) (U11c m c)
def U11e (c : Dev nD) : Valuation τ sig (Elt F) := after (seg11e (F := F)) (U11d m c)

theorem last_whole (c : Dev nD) : U11 m c = U11e m c := by
  show after (seg11 (F := F)) (U10 m c) = _
  rw [last_pieces]
  simp only [Cert.Lib.AfterAppend.after_append]
  rfl

/-- Decides that no operation of a piece writes a given buffer. -/
macro "last_leaves" : tactic =>
  `(tactic| (simp only [seg11a, seg11b1, seg11b2, seg11c, seg11d, seg11e, ops, List.drop_succ_cons, List.drop_zero, List.take_succ_cons, List.take_zero,
      List.Forall, StableHlo.nullary_writes, StableHlo.unary_writes, StableHlo.binary_writes, StableHlo.ternary_writes,
      StableHlo.quaternary_writes, StableHlo.reshape_writes, StableHlo.binaryIndexed_writes, Finset.mem_singleton]
             repeat' apply And.intro
             all_goals exact StableHlo.devRef_ne_of_ne (by decide)))

set_option maxRecDepth 65536 in
theorem scores_a (c : Dev nD) : U11a m c (Proc.devRef .tc main_v82) = val_main_v82 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) := by
  show after (seg11a (F := F)) (U10 m c) (Proc.devRef .tc main_v82) = _
  simp only [seg11a, ops, List.drop_succ_cons, List.drop_zero, List.take_succ_cons, List.take_zero]
  after_results_simp
  rw [v79_10 m c, arg7_10 m c]
  rfl

/-- The row maximum of the biased scores, folded from minus infinity. The operation belongs to a called function,
    whose every value sits in a buffer of the value's own type, so the buffer holds the value itself. -/
theorem row_max_b1 (c : Dev nD) : U11b1 m c (Proc.devRef .tc main_call3_v0) = val_main_call3_v0 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) := by
  show after (seg11b1 (F := F)) (U11a m c) (Proc.devRef .tc main_call3_v0) = _
  simp only [seg11b1, ops, List.drop_succ_cons, List.drop_zero, List.take_succ_cons, List.take_zero]
  after_results_simp
  rw [scores_a m c]
  unfold val_main_call3_v0 val_main_call3_cst
  refine (cast_eq _ _).trans ?_
  exact congrArg₂ (fun (x : (⟨S50000x40, .f32⟩ : BufTy).Contents (Elt F)) (v : (⟨S_, .f32⟩ : BufTy).Contents (Elt F)) =>
      Host.reduce FloatOps.maximumf x v reducesTo_S50000x40_S50000_d1 h_S_)
    (cast_eq _ _) ((cast_eq _ _).trans (cast_eq _ _))
theorem scores_b1 (c : Dev nD) : U11b1 m c (Proc.devRef .tc main_v82) = val_main_v82 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) :=
  (kept (seg11b1 (F := F)) (U11a m c) main_v82 (by last_leaves)).trans (scores_a m c)

/-- The larger of the row maximum and minus infinity, repeated for every row. -/
theorem row_max_b2 (c : Dev nD) : U11b2 m c (Proc.devRef .tc main_call3_v2) = val_main_call3_v2 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) := by
  show after (seg11b2 (F := F)) (U11b1 m c) (Proc.devRef .tc main_call3_v2) = _
  simp only [seg11b2, ops, List.drop_succ_cons, List.drop_zero, List.take_succ_cons, List.take_zero]
  after_results_simp
  rw [row_max_b1 m c]
  unfold val_main_call3_v2 val_main_call3_v1 val_main_call3_cst_0
  refine (cast_eq _ _).trans ?_
  refine congrArg₂ maximumf ?_ (cast_eq _ _)
  refine (cast_eq _ _).trans ((cast_eq _ _).trans ?_)
  refine congrArg (fun v : (⟨S_, .f32⟩ : BufTy).Contents (Elt F) => broadcastInDim S50000 ![] bcast_S_S50000 v) ?_
  exact (cast_eq _ _).trans (cast_eq _ _)
theorem scores_b2 (c : Dev nD) : U11b2 m c (Proc.devRef .tc main_v82) = val_main_v82 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) :=
  (kept (seg11b2 (F := F)) (U11b1 m c) main_v82 (by last_leaves)).trans (scores_b1 m c)

set_option maxRecDepth 65536 in
theorem shifted_c (c : Dev nD) : U11c m c (Proc.devRef .tc main_call3_v5) = val_main_call3_v5 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) := by
  show after (seg11c (F := F)) (U11b2 m c) (Proc.devRef .tc main_call3_v5) = _
  simp only [seg11c, ops, List.drop_succ_cons, List.drop_zero, List.take_succ_cons, List.take_zero]
  after_results_simp
  rw [row_max_b2 m c, scores_b2 m c]
  rfl

set_option maxRecDepth 65536 in
theorem row_sum_d (c : Dev nD) : U11d m c (Proc.devRef .tc main_call3_v7) = val_main_call3_v7 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) := by
  show after (seg11d (F := F)) (U11c m c) (Proc.devRef .tc main_call3_v7) = _
  simp only [seg11d, ops, List.drop_succ_cons, List.drop_zero, List.take_succ_cons, List.take_zero]
  after_results_simp
  rw [shifted_c m c]
  rfl

theorem shifted_d (c : Dev nD) : U11d m c (Proc.devRef .tc main_call3_v5) = val_main_call3_v5 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) :=
  (kept (seg11d (F := F)) (U11c m c) main_call3_v5 (by last_leaves)).trans (shifted_c m c)

set_option maxRecDepth 65536 in
theorem v83_e (c : Dev nD) : U11e m c (Proc.devRef .tc main_v83) = val_main_v83 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) := by
  show after (seg11e (F := F)) (U11d m c) (Proc.devRef .tc main_v83) = _
  simp only [seg11e, ops, List.drop_succ_cons, List.drop_zero, List.take_succ_cons, List.take_zero]
  after_results_simp
  rw [row_sum_d m c, shifted_d m c]
  rfl

theorem v83_11 (c : Dev nD) : U11 m c (Proc.devRef .tc main_v83) = val_main_v83 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) := by
  rw [last_whole]; exact v83_e m c

/-! ## The run -/

/-- The result buffer after the whole line. -/
theorem result (c : Dev nD) :
    after (ops (F := F)) (launchContents m c) (Proc.devRef .tc main_v83) = val_main_v83 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) := by
  rw [whole]; exact v83_11 m c

/-- Decides that no operation of the whole line writes a given buffer. -/
macro "line_leaves" : tactic =>
  `(tactic| (simp only [ops, List.Forall, StableHlo.nullary_writes, StableHlo.unary_writes, StableHlo.binary_writes,
      StableHlo.ternary_writes, StableHlo.quaternary_writes, StableHlo.reshape_writes, StableHlo.binaryIndexed_writes,
      Finset.mem_singleton]
             repeat' apply And.intro
             all_goals exact StableHlo.devRef_ne_of_ne (by decide)))

set_option maxHeartbeats 4000000 in
/-- The whole line writes no argument. -/
theorem unwritten (c : Dev nD) :
    after (ops (F := F)) (launchContents m c) (Proc.devRef .tc main_arg0) = m ((c.tc : Thread nD τ).loc main_arg0)
    ∧ after (ops (F := F)) (launchContents m c) (Proc.devRef .tc main_arg1) = m ((c.tc : Thread nD τ).loc main_arg1)
    ∧ after (ops (F := F)) (launchContents m c) (Proc.devRef .tc main_arg2) = m ((c.tc : Thread nD τ).loc main_arg2)
    ∧ after (ops (F := F)) (launchContents m c) (Proc.devRef .tc main_arg3) = m ((c.tc : Thread nD τ).loc main_arg3)
    ∧ after (ops (F := F)) (launchContents m c) (Proc.devRef .tc main_arg4) = m ((c.tc : Thread nD τ).loc main_arg4)
    ∧ after (ops (F := F)) (launchContents m c) (Proc.devRef .tc main_arg5) = m ((c.tc : Thread nD τ).loc main_arg5)
    ∧ after (ops (F := F)) (launchContents m c) (Proc.devRef .tc main_arg6) = m ((c.tc : Thread nD τ).loc main_arg6)
    ∧ after (ops (F := F)) (launchContents m c) (Proc.devRef .tc main_arg7) = m ((c.tc : Thread nD τ).loc main_arg7) :=
  ⟨(kept _ _ main_arg0 (by line_leaves)).trans rfl,
   (kept _ _ main_arg1 (by line_leaves)).trans rfl,
   (kept _ _ main_arg2 (by line_leaves)).trans rfl,
   (kept _ _ main_arg3 (by line_leaves)).trans rfl,
   (kept _ _ main_arg4 (by line_leaves)).trans rfl,
   (kept _ _ main_arg5 (by line_leaves)).trans rfl,
   (kept _ _ main_arg6 (by line_leaves)).trans rfl,
   (kept _ _ main_arg7 (by line_leaves)).trans rfl⟩

/-- Every weakly fair execution of the reference terminates without a fault; its result buffer ends at the
    operation-by-operation term of the arguments, and the eight arguments end as launched. -/
theorem run : θ_run defs (onTc (τ := τ) (main (F := F))) ⟨m, fun _ => 0, ρ⟩ fun r => ∀ c : Dev nD,
      r.2.mem ((c.tc : Thread nD τ).loc main_v83) = val_main_v83 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun _ h c => ⟨(h c main_v83).trans (result m c),
      (h c main_arg0).trans (unwritten m c).1,
      (h c main_arg1).trans (unwritten m c).2.1,
      (h c main_arg2).trans (unwritten m c).2.2.1,
      (h c main_arg3).trans (unwritten m c).2.2.2.1,
      (h c main_arg4).trans (unwritten m c).2.2.2.2.1,
      (h c main_arg5).trans (unwritten m c).2.2.2.2.2.1,
      (h c main_arg6).trans (unwritten m c).2.2.2.2.2.2.1,
      (h c main_arg7).trans (unwritten m c).2.2.2.2.2.2.2⟩)
    (run_seq scopedRefs_eq scopedSems_eq defs main (fun _ => ops) main_eq (fun _ => ops_sub) m ρ)

end Cert.ReferenceIdeal.Result

end
-- ==== Proof.lean ====
/-
  The certificate of a three-layer graph convolutional network: a kernel program of six launches (three products of
  the node features by a weight matrix, two bias-and-rectifier steps, one bias-and-log-soft-maximum step) among
  stretches of host operations that aggregate over the graph's edges, against a reference written with whole-array
  host operations only.

  The frames. The two kernel programs' frames are the generated frame certificates. The reference's frame is its
  run (Proof/RefResult.lean) with the result dropped.

  The idealization. The ideal pass rewrote no operation, so there is nothing to preserve.

  The values. At the ideal instance every change of float format is the identity, so the kernel's products are the
  plain sums over the contracted coordinate, as the reference's are. Launch by launch the kernel's arrays are the
  reference's (Proof/Stages.lean): each launch writes back, block of 5000 rows by block, the operation applied to
  the whole array, since every entry of a product, of a rectified sum and of a row's log-soft-maximum depends on
  its own row only; the aggregations over the edges are the same host operations in both programs and are carried
  as they stand. The kernel's result buffer and the reference's therefore end at one term of the arguments, which
  the two memories agree on. No law that needs finite entries is used: no sum is split and no factor is moved, so
  the precondition is not opened.
-/
import proofs.«106951_j22333829939712_1_alg».proof.Defs
import proofs.«106951_j22333829939712_1_alg».proof.Proof.Gen.Kernel
import proofs.«106951_j22333829939712_1_alg».proof.Proof.Gen.Kernel.Skeleton
import proofs.«106951_j22333829939712_1_alg».proof.Proof.Gen.Kernel.Launch
import proofs.«106951_j22333829939712_1_alg».proof.Proof.Gen.Kernel.Points
import proofs.«106951_j22333829939712_1_alg».proof.Proof.Gen.Kernel.Frame
import proofs.«106951_j22333829939712_1_alg».proof.Proof.Gen.KernelIdeal
import proofs.«106951_j22333829939712_1_alg».proof.Proof.Gen.KernelIdeal.Skeleton
import proofs.«106951_j22333829939712_1_alg».proof.Proof.Gen.KernelIdeal.Launch
import proofs.«106951_j22333829939712_1_alg».proof.Proof.Gen.KernelIdeal.Points
import proofs.«106951_j22333829939712_1_alg».proof.Proof.Gen.KernelIdeal.Frame
import proofs.«106951_j22333829939712_1_alg».proof.Proof.Gen.ReferenceIdeal
import proofs.«106951_j22333829939712_1_alg».proof.Proof.Gen.Pre_finite_inputs
import proofs.«106951_j22333829939712_1_alg».proof.Proof.KernelRun
import proofs.«106951_j22333829939712_1_alg».proof.Proof.Stages
import proofs.«106951_j22333829939712_1_alg».proof.Proof.RefResult
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernel_ideal : Cert.frame_KernelIdeal := fun m ρ _ => Cert.KernelIdeal.Gen.frame m ρ

theorem frame_reference_ideal : Cert.frame_ReferenceIdeal := fun m ρ _ =>
  (θ_run Cert.ReferenceIdeal.defs _ _).mono (fun _ h c => (h c).2) (Cert.ReferenceIdeal.Result.run (F := Ideal) m ρ)

theorem preserves : Cert.preserves_Kernel_KernelIdeal := trivial

/-- Both idealized programs end with their result buffer at the reference's result term of the kernel's
    arguments, which the reference's memory agrees with. -/
theorem algebraic : Cert.algebraic_KernelIdeal_ReferenceIdeal := by
  intro m ρ m' ρ' _ hagree
  refine ⟨fun c => Cert.ReferenceIdeal.ReadP.val_main_v83 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)), ?_, ?_⟩
  · exact (θ_run Cert.KernelIdeal.defs _ _).mono
      (fun r h c => ⟨(h c).1.trans (Cert.KernelIdeal.Stages.result m ρ c), (h c).2⟩)
      (Cert.KernelIdeal.Out.run (F := Ideal) m ρ)
  · refine (θ_run Cert.ReferenceIdeal.defs _ _).mono (fun r h c => ⟨(h c).1.trans ?_, (h c).2⟩)
      (Cert.ReferenceIdeal.Result.run (F := Ideal) m' ρ')
    obtain ⟨e0, e1, e2, e3, e4, e5, e6, e7⟩ := hagree c
    rw [e0, e1, e2, e3, e4, e5, e6, e7]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference_ideal, preserves, algebraic⟩

end Cert.Proof

end
